-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S1x512x1024 : Shape := ⟨3, ![1, 512, 1024]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩

abbrev nBuf : Space → Nat
  | .hbm => 16
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .bf16⟩
  | .hbm, ⟨15, _⟩ => ⟨S8x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩
abbrev S8x2048x2048 : Shape := ⟨3, ![8, 2048, 2048]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .i1⟩
  | .hbm, ⟨15, _⟩ => ⟨S2048x2048, .i1⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Region0.lean ====
/-
  The projection kernel, one grid point at a time.

  The kernel runs on a grid of 16 points. At point `t` it is handed a block of 1024 rows of the activations
  (rows `1024 t … 1024 t + 1023` of a `16384 × 1024` array), three whole `1024 × 1024` weight matrices, and three
  output blocks of 1024 rows. It multiplies the activation block by each weight matrix (accumulating from zero),
  narrows the product, and stores each product over the whole of its output block. Nothing else is kept from
  point to point.

  Consequently what an output block holds after a point is a function of the activation block and one weight
  matrix alone (`projStored4/5/6`), the input blocks are left as they were found, and whatever else the core
  holds (its other scoped buffers, its generator register) is untouched. This file states exactly that as the
  pipeline's proof data `dat0`, parameterised by the contents `V` the arrays hold when the kernel is entered,
  and proves the per-point obligation `body_obligation0`.
-/
import proofs.«109232_j17575006175501_2_alg».proof.Proof.Gen.Kernel.Launch
import proofs.«109232_j17575006175501_2_alg».proof.Proof.Gen.Kernel.Skeleton
import proofs.«109232_j17575006175501_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the projection kernel is entered
variable (V : (c : Dev nD) → (b : Ref sig .tc) → Buf (Elt F) ((c : Thread nD τ).loc b))

/-! ## The blocks the kernel is handed -/

/-- The block of window `w` at grid point `t`, cut out of the window's array as it stands at entry. -/
def entryBlock (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## What one point stores -/

/-- Every load and every store of the body spans a whole `1024 × 1024` block: offset `(0, 0)`, full extent. -/
abbrev fullBlock : Rect S1024x1024 :=
  Rect.unit (s := S1024x1024) ![0, 0] S1024x1024.size inb_S1024x1024_S1024x1024_0_0

/-- One store of the full block leaves no element of the block unwritten. -/
theorem fullBlock_covers (p : Vec F S1024x1024 .bf16) (y : S1024x1024.Idx) :
    ∃ pc ∈ ([⟨fullBlock, p⟩] : List (View.Piece (Elt F) S1024x1024 .bf16)), y ∈ pc.1.set :=
  View.cover_of_tiled [⟨fullBlock, p⟩] S1024x1024.size (by rfl) y

/-- The first output block after a point: the activation block `x` times the first weight matrix `w`,
    narrowed, written over the whole block. -/
def projStored4 (x w : Vec F S1024x1024 .bf16) : Vec F S1024x1024 .bf16 :=
  View.canon [⟨fullBlock, k0_pay2 (View.ld x fullBlock) (View.ld w fullBlock)⟩]

/-- The second output block after a point: the same with the second weight matrix. -/
def projStored5 (x w : Vec F S1024x1024 .bf16) : Vec F S1024x1024 .bf16 :=
  View.canon [⟨fullBlock, k0_pay3 (View.ld x fullBlock) (View.ld w fullBlock)⟩]

/-- The third output block after a point: the same with the third weight matrix. -/
def projStored6 (x w : Vec F S1024x1024 .bf16) : Vec F S1024x1024 .bf16 :=
  View.canon [⟨fullBlock, k0_pay4 (View.ld x fullBlock) (View.ld w fullBlock)⟩]

/-! ## The body, run once -/

set_option maxHeartbeats 1000000 in
/-- One run of the body. Given the activation block `x`, the three weight matrices `w1 w2 w3` and three output
    buffers holding anything, the body ends with the four inputs unchanged and each output buffer holding the
    corresponding product. (The body also reads each output buffer once before overwriting it; what it reads there
    is never used, so the buffers' prior contents do not matter.) -/
theorem projBody_runs (c : Dev nD) (E : Set ℕ) (i : grid0.Coords)
    (a1 : Memref sig .tc .vmem S1024x1024 .bf16) (h1 : a1.IsWhole)
    (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S1024x1024 .bf16) (h7 : a7.IsWhole)
    (x w1 w2 w3 : Vec F S1024x1024 .bf16) (K : PUnit → sProp 𝕄) :
    iprop(owns (c : Thread nD τ) a1 fullShare x ∗ owns (c : Thread nD τ) a2 fullShare w1
        ∗ owns (c : Thread nD τ) a3 fullShare w2 ∗ owns (c : Thread nD τ) a4 fullShare w3
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare w1
            ∗ owns (c : Thread nD τ) a3 fullShare w2 ∗ owns (c : Thread nD τ) a4 fullShare w3
            ∗ owns (c : Thread nD τ) a5 fullShare (projStored4 x w1)
            ∗ owns (c : Thread nD τ) a6 fullShare (projStored5 x w2)
            ∗ owns (c : Thread nD τ) a7 fullShare (projStored6 x w3)) -∗ K ⟨⟩))
      ⊢ wp frame (wpE (defs₀ (F := F)) Variants.none c none) E
          (cc0__qkv_proj_kernel i a1 h1 a2 h2 a3 h3 a4 h4 a5 h5 a6 h6 a7 h7) K := by
  simp only [cc0__qkv_proj_kernel_eq_skeleton]; unfold cc0__qkv_proj_kernel_skel
  unfold owns
  iintro ⟨⟨%f1, %e1, H1⟩, ⟨%f2, %e2, H2⟩, ⟨%f3, %e3, H3⟩, ⟨%f4, %e4, H4⟩,
    ⟨%d5, %f5, -, H5⟩, ⟨%d6, %f6, -, H6⟩, ⟨%d7, %f7, -, H7⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fullBlock_covers _)
  isplitl [H6]
  · iexists _; isplitr
    swap; · iexact H6
    ipureintro
    exact View.read_writes_eq_canon _ _ _ (fullBlock_covers _)
  iexists _; isplitr
  swap; · iexact H7
  ipureintro
  exact View.read_writes_eq_canon _ _ _ (fullBlock_covers _)

/-! ## The proof data -/

/-- The projection kernel's proof data on core `c`. The arrays are what the kernel finds at entry. After the
    body at point `t`: each of the four inputs still holds its block; output `4` holds the activation block times
    the first weight matrix, output `5` the second, output `6` the third. The kernel touches nothing else: the
    invariant is that the core's remaining scoped buffers and its generator register are somewhere, throughout. -/
def dat0 (c : Dev nD) : Dat τ (Elt F) Unit ℕ (UR sig nD τ) ℕ cfg0 c where
  A w := V c (Pipeline.arrRef spec0 w)
  after w t := match w with
    | ⟨0, _⟩ => entryBlock V c 0 t
    | ⟨1, _⟩ => entryBlock V c 1 t
    | ⟨2, _⟩ => entryBlock V c 2 t
    | ⟨3, _⟩ => entryBlock V c 3 t
    | ⟨4, _⟩ => projStored4 (entryBlock V c 0 t) (entryBlock V c 1 t)
    | ⟨5, _⟩ => projStored5 (entryBlock V c 0 t) (entryBlock V c 2 t)
    | ⟨6, _⟩ => projStored6 (entryBlock V c 0 t) (entryBlock V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer, read off the proof data. -/
theorem left_act (c : Dev nD) (t : Fin cfg0.N) : (dat0 V c).after 0 t = entryBlock V c 0 t := by dsimp only [dat0]
theorem left_w1 (c : Dev nD) (t : Fin cfg0.N) : (dat0 V c).after 1 t = entryBlock V c 1 t := by dsimp only [dat0]
theorem left_w2 (c : Dev nD) (t : Fin cfg0.N) : (dat0 V c).after 2 t = entryBlock V c 2 t := by dsimp only [dat0]
theorem left_w3 (c : Dev nD) (t : Fin cfg0.N) : (dat0 V c).after 3 t = entryBlock V c 3 t := by dsimp only [dat0]
theorem left_out4 (c : Dev nD) (t : Fin cfg0.N) :
    (dat0 V c).after 4 t = projStored4 (entryBlock V c 0 t) (entryBlock V c 1 t) := by dsimp only [dat0]
theorem left_out5 (c : Dev nD) (t : Fin cfg0.N) :
    (dat0 V c).after 5 t = projStored5 (entryBlock V c 0 t) (entryBlock V c 2 t) := by dsimp only [dat0]
theorem left_out6 (c : Dev nD) (t : Fin cfg0.N) :
    (dat0 V c).after 6 t = projStored6 (entryBlock V c 0 t) (entryBlock V c 3 t) := by dsimp only [dat0]

/-! ## What the body finds in the input buffers

The activation window moves to a new block at every point and is fetched each time. The three weight windows
never move: they are fetched once, at the first point, and since the body leaves them as it found them they
still hold the whole matrix at every later point. Either way an input buffer holds its window's block. -/

theorem found_act (c : Dev nD) (t : Fin cfg0.N) (d) : (dat0 V c).before 0 t d = entryBlock V c 0 t :=
  ((dat0 V c).before_in_eq_fetched 0 rfl (fun _ => rfl) (fun _ _ _ => rfl)
    (fun t => by rw [left_act]; unfold Dat.blockOf entryBlock; rw [A_eq0]; try rfl) t d).trans
    (by unfold Dat.fetched Dat.blockOf entryBlock; rw [A_eq0]; try rfl)

theorem found_w1 (c : Dev nD) (t : Fin cfg0.N) (d) : (dat0 V c).before 1 t d = entryBlock V c 1 t :=
  ((dat0 V c).before_in_eq_fetched 1 rfl (fun _ => rfl) (fun _ _ _ => rfl)
    (fun t => by rw [left_w1]; unfold Dat.blockOf entryBlock; rw [A_eq0]; try rfl) t d).trans
    (by unfold Dat.fetched Dat.blockOf entryBlock; rw [A_eq0]; try rfl)

theorem found_w2 (c : Dev nD) (t : Fin cfg0.N) (d) : (dat0 V c).before 2 t d = entryBlock V c 2 t :=
  ((dat0 V c).before_in_eq_fetched 2 rfl (fun _ => rfl) (fun _ _ _ => rfl)
    (fun t => by rw [left_w2]; unfold Dat.blockOf entryBlock; rw [A_eq0]; try rfl) t d).trans
    (by unfold Dat.fetched Dat.blockOf entryBlock; rw [A_eq0]; try rfl)

theorem found_w3 (c : Dev nD) (t : Fin cfg0.N) (d) : (dat0 V c).before 3 t d = entryBlock V c 3 t :=
  ((dat0 V c).before_in_eq_fetched 3 rfl (fun _ => rfl) (fun _ _ _ => rfl)
    (fun t => by rw [left_w3]; unfold Dat.blockOf entryBlock; rw [A_eq0]; try rfl) t d).trans
    (by unfold Dat.fetched Dat.blockOf entryBlock; rw [A_eq0]; try rfl)

/-! ## The obligation at a point -/

/-- What the pipeline hands the body at point `t`: the invariant, what the core owes, and each window's current
    buffer at what it then holds. -/
def handedAt (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back. -/
def returnedAt (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: its input buffers hold their blocks, so one run of the body (`projBody_runs`) leaves the
    outputs at the stated products; the invariant and what the core owes are neither read nor changed. -/
theorem projBody_at (c : Dev nD) (t : Fin cfg0.N) :
    handedAt V c t ⊢ wp frame (wpE (defs₀ (F := F)) Variants.none c none) Set.univ (bodyAt0 t)
      (fun _ => returnedAt V c t) := by
  unfold handedAt returnedAt bodyAt0
  simp only [found_act, found_w1, found_w2, found_w3]
  rw [show (dat0 V c).Φ t.succ = (dat0 V c).Φ t.castSucc from rfl,
    show (dat0 V c).owesAt () t.succ = (dat0 V c).owesAt () t.castSucc from rfl,
    left_act, left_w1, left_w2, left_w3, left_out4, left_out5, left_out6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (projBody_runs c Set.univ (grid0.coords t) _ _ _ _ _ _ _ _ _ _ _ _ _ _
    (entryBlock V c 0 t) (entryBlock V c 1 t) (entryBlock V c 2 t) (entryBlock V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) :
    Pipeline.BodyObligation (dat0 (F := F) V c) (defs₀ (F := F)) Variants.none () Set.univ := fun t => by
  rw [bigSep_W0, bigSep_W0]
  exact projBody_at V c t

end Cert.Kernel.Hand

end
-- ==== Proof.K.R1Defs.lean ====
/-
  The attention kernel (the second pallas_call) at one grid point (batch b, query block qb, key block kb):
  which of its three guarded parts run there, and the buffers it runs on.

  * The first part (reset the running maximum, denominator and numerator) runs when kb = 0.
  * The second part (fold key block kb into the running values) runs when kb ≤ qb.
  * The third part (divide and store the output block) runs when kb = qb.
  The grid is [8, 4, 4], the last coordinate fastest, so point t has kb = t % 4 and qb = t / 4 % 4.
  The output block of (b, qb) is written back after kb = 3; for qb < 3 the body stores nothing there after
  kb = qb, and the buffer still holds what the point kb = qb stored.
-/
import proofs.«109232_j17575006175501_2_alg».proof.Proof.Gen.Kernel.Launch
import proofs.«109232_j17575006175501_2_alg».proof.Proof.Gen.Kernel.Skeleton
import proofs.«109232_j17575006175501_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards, as the kernel computes them from the grid coordinates -/

/-- `kb = 0`: the running values are reset. -/
abbrev isFirst (i : grid1.Coords) : Prop :=
  (Scalar.cmpi .ne (Scalar.extui (Scalar.cmpi .eq (BitVec.ofNat 32 (i 2).val) 0#32)) 0#32) = 1#1
/-- `kb ≤ qb`: key block `kb` is folded in. -/
abbrev isCausal (i : grid1.Coords) : Prop :=
  (Scalar.cmpi .ne (Scalar.extui (Scalar.cmpi .sle (BitVec.ofNat 32 (i 2).val) (BitVec.ofNat 32 (i 1).val))) 0#32) = 1#1
/-- `kb = qb`: the output block is stored. -/
abbrev isDiag (i : grid1.Coords) : Prop := k1_cond3 i = 1#1

theorem isFirst_iff : ∀ t : Fin cfg1.N, isFirst (grid1.coords t) ↔ t.val % 4 = 0 :=
  (by decide +kernel : ∀ t : Fin grid1.N, isFirst (grid1.coords t) ↔ t.val % 4 = 0)
theorem isCausal_iff : ∀ t : Fin cfg1.N, isCausal (grid1.coords t) ↔ t.val % 4 ≤ t.val / 4 % 4 :=
  (by decide +kernel : ∀ t : Fin grid1.N, isCausal (grid1.coords t) ↔ t.val % 4 ≤ t.val / 4 % 4)
theorem isDiag_iff : ∀ t : Fin cfg1.N, isDiag (grid1.coords t) ↔ t.val % 4 = t.val / 4 % 4 :=
  (by decide +kernel : ∀ t : Fin grid1.N, isDiag (grid1.coords t) ↔ t.val % 4 = t.val / 4 % 4)

/-! ## Where the windows are idle, and where the output is written back -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is live exactly where the third part runs. -/
theorem live1_3 : ∀ t : Fin cfg1.N, isDiag (grid1.coords t) → cfg1.idle 3 (grid1.coords t) = false := by decide +kernel
theorem idle1_3 : ∀ t : Fin cfg1.N, ¬isDiag (grid1.coords t) → cfg1.idle 3 (grid1.coords t) = true := by decide +kernel
/-- The output window is never fetched. -/
theorem nofetch1_3 : ∀ t : Fin cfg1.N, (cfg1.win 3).fetch t = false :=
  (by decide +kernel : ∀ t : Fin grid1.N, win1_3.fetch t = false)

/-! ## The buffers the body runs on -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The running maximum, denominator and numerator: whole scoped buffers of the kernel's own. -/
abbrev scMax : Memref sig .tc .vmem S512x1 .f32 := Memref.whole cc1_scratch0
abbrev scDen : Memref sig .tc .vmem S512x1 .f32 := Memref.whole cc1_scratch1
abbrev scNum : Memref sig .tc .vmem S512x1024 .f32 := Memref.whole cc1_scratch2

end Cert.Kernel.Hand

end
-- ==== Proof.K.R1Runs.lean ====
/-
  The attention kernel's body run once for each combination of its three guards that the grid meets, on any
  whole buffers: the query, key and value blocks stay as they were; a buffer a part stores into ends holding that
  part's stores (as a list of pieces, found by running the body); a buffer no part touches is handed back as found.
-/
import proofs.«109232_j17575006175501_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- kb = 0 = qb: the running values are reset, key block 0 folded in, the output block stored. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

set_option maxHeartbeats 4000000 in
/-- kb = 0 < qb: the running values are reset and key block 0 folded in; the output buffer is left as found. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : ¬isDiag i)
    (x0 x1 x2 : Vec F S1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- 0 < kb < qb: key block kb folded into the running values the point before left; the output buffer is left as found. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : ¬isDiag i)
    (x0 x1 x2 : Vec F S1x512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- 0 < kb = qb: key block kb folded in and the output block stored. -/
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

set_option maxHeartbeats 4000000 in
/-- kb > qb: no part runs; every buffer is left as found. -/
theorem kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : ¬isCausal i) (hc2 : ¬isDiag i)
    (x0 x1 x2 : Vec F S1x512x1024 .bf16) (xs0 xs1 : Vec F S512x1 .f32) (xs2 : Vec F S512x1024 .f32) :
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ owns (c : Thread nD τ) arg7 fullShare xs0
                ∗ owns (c : Thread nD τ) arg8 fullShare xs1
                ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Hand

end
-- ==== Proof.K.R1State.lean ====
/-
  What the attention kernel's buffers hold after each grid point, by recursion on the point: the output block's
  staging buffer and the running maximum, denominator and numerator. A point runs the parts its guards select on the
  blocks of the query, key and value arrays it is handed and on what the point before left; where no part runs
  (kb > qb) everything stays. Before the first point nothing is known of the buffers, and the first point resets them.
-/
import proofs.«109232_j17575006175501_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output staging buffer, the running maximum, the running denominator, the running numerator. -/
abbrev St1 (F : FTy → Type) : Type := Vec F S1x512x1024 .f32 × Vec F S512x1 .f32 × Vec F S512x1 .f32 × Vec F S512x1024 .f32

/-- Contents nothing is known of. -/
def junkSt : St1 F := (View.canon [], View.canon [], View.canon [], View.canon [])

theorem causal_of_first : ∀ t : Fin cfg1.N, isFirst (grid1.coords t) → isCausal (grid1.coords t) := by decide +kernel
theorem causal_of_diag : ∀ t : Fin cfg1.N, isDiag (grid1.coords t) → isCausal (grid1.coords t) := by decide +kernel

/-- kb = 0 = qb. -/
def stA (c : Dev nD) (t : Fin cfg1.N) (h0 : isFirst (grid1.coords t)) (h1 : isCausal (grid1.coords t)) (h2 : isDiag (grid1.coords t)) : St1 F :=
  (View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.2.1)

/-- kb = 0 < qb. -/
def stB (c : Dev nD) (t : Fin cfg1.N) (h0 : isFirst (grid1.coords t)) (h1 : isCausal (grid1.coords t)) (h2 : ¬isDiag (grid1.coords t)) (prev : St1 F) : St1 F :=
  (prev.1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.1)

/-- 0 < kb < qb. -/
def stC (c : Dev nD) (t : Fin cfg1.N) (h0 : ¬isFirst (grid1.coords t)) (h1 : isCausal (grid1.coords t)) (h2 : ¬isDiag (grid1.coords t)) (prev : St1 F) : St1 F :=
  (prev.1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.1)

/-- 0 < kb = qb. -/
def stD (c : Dev nD) (t : Fin cfg1.N) (h0 : ¬isFirst (grid1.coords t)) (h1 : isCausal (grid1.coords t)) (h2 : isDiag (grid1.coords t)) (prev : St1 F) : St1 F :=
  (View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.2.1)

/-- One point: the parts its guards select, over what the point before left. -/
def stepAt (c : Dev nD) (t : Fin cfg1.N) (prev : St1 F) : St1 F :=
  if h0 : isFirst (grid1.coords t) then
    if h2 : isDiag (grid1.coords t) then stA V c t h0 (causal_of_first t h0) h2
    else stB V c t h0 (causal_of_first t h0) h2 prev
  else if h1 : isCausal (grid1.coords t) then
    if h2 : isDiag (grid1.coords t) then stD V c t h0 h1 h2 prev
    else stC V c t h0 h1 h2 prev
  else prev

/-- The four buffers after point `n`. -/
def outsAt1 (c : Dev nD) : (n : ℕ) → n < cfg1.N → St1 F
  | 0, h => stepAt V c ⟨0, h⟩ junkSt
  | n + 1, h => stepAt V c ⟨n + 1, h⟩ (outsAt1 c n (Nat.lt_of_succ_lt h))

/-- What the point before `t` left (nothing known before the first). -/
def prevSt (c : Dev nD) (t : Fin cfg1.N) : St1 F :=
  if h : t.val = 0 then junkSt else outsAt1 V c (t.val - 1) (Nat.lt_of_le_of_lt (Nat.sub_le _ _) t.isLt)

theorem outsAt1_eq (c : Dev nD) (t : Fin cfg1.N) : outsAt1 V c t.val t.isLt = stepAt V c t (prevSt V c t) := by
  obtain ⟨n, hn⟩ := t
  cases n with
  | zero => unfold prevSt; rw [dif_pos rfl]; rfl
  | succ n => unfold prevSt; rw [dif_neg (Nat.succ_ne_zero n)]; rfl

theorem stepAt_A (c : Dev nD) (t : Fin cfg1.N) (prev : St1 F) (h0 : isFirst (grid1.coords t)) (h2 : isDiag (grid1.coords t)) :
    stepAt V c t prev = stA V c t h0 (causal_of_first t h0) h2 := by
  unfold stepAt; rw [dif_pos h0, dif_pos h2]
theorem stepAt_B (c : Dev nD) (t : Fin cfg1.N) (prev : St1 F) (h0 : isFirst (grid1.coords t)) (h2 : ¬isDiag (grid1.coords t)) :
    stepAt V c t prev = stB V c t h0 (causal_of_first t h0) h2 prev := by
  unfold stepAt; rw [dif_pos h0, dif_neg h2]
theorem stepAt_C (c : Dev nD) (t : Fin cfg1.N) (prev : St1 F) (h0 : ¬isFirst (grid1.coords t)) (h1 : isCausal (grid1.coords t)) (h2 : ¬isDiag (grid1.coords t)) :
    stepAt V c t prev = stC V c t h0 h1 h2 prev := by
  unfold stepAt; rw [dif_neg h0, dif_pos h1, dif_neg h2]
theorem stepAt_D (c : Dev nD) (t : Fin cfg1.N) (prev : St1 F) (h0 : ¬isFirst (grid1.coords t)) (h1 : isCausal (grid1.coords t)) (h2 : isDiag (grid1.coords t)) :
    stepAt V c t prev = stD V c t h0 h1 h2 prev := by
  unfold stepAt; rw [dif_neg h0, dif_pos h1, dif_pos h2]
theorem stepAt_E (c : Dev nD) (t : Fin cfg1.N) (prev : St1 F) (h0 : ¬isFirst (grid1.coords t)) (h1 : ¬isCausal (grid1.coords t)) :
    stepAt V c t prev = prev := by
  unfold stepAt; rw [dif_neg h0, dif_neg h1]

end Cert.Kernel.Hand

end
-- ==== Proof.K.R1Cover.lean ====
/-
  Each list of pieces a run of the attention kernel's body finds is one whole-buffer store (or several, the last
  whole), so it covers its buffer: the buffer then reads back as the pieces' canonical contents.
-/
import proofs.«109232_j17575006175501_2_alg».proof.Proof.K.R1State

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coverA_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S1x512x1024.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL _ S1x512x1024.size (by sl_kernel_rfl) y
theorem coverA_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL _ S512x1.size (by sl_kernel_rfl) y
theorem coverA_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL _ S512x1.size (by sl_kernel_rfl) y
theorem coverA_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL _ S512x1024.size (by sl_kernel_rfl) y
theorem coverB_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1.Idx) :
    ∃ pc ∈ (kernelRun1_B c i arg3 harg3 arg4 harg4 arg5 harg5 arg6 harg6 arg7 harg7 arg8 harg8 arg9 harg9 hc0 hc1 hc2 x0 x1 x2).1, y ∈ pc.1.set :=
  View.cover_of_tiledL _ S512x1.size (by sl_kernel_rfl) y
theorem coverB_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1.Idx) :
    ∃ pc ∈ (kernelRun1_B c i arg3 harg3 arg4 harg4 arg5 harg5 arg6 harg6 arg7 harg7 arg8 harg8 arg9 harg9 hc0 hc1 hc2 x0 x1 x2).2.1, y ∈ pc.1.set :=
  View.cover_of_tiledL _ S512x1.size (by sl_kernel_rfl) y
theorem coverB_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1024.Idx) :
    ∃ pc ∈ (kernelRun1_B c i arg3 harg3 arg4 harg4 arg5 harg5 arg6 harg6 arg7 harg7 arg8 harg8 arg9 harg9 hc0 hc1 hc2 x0 x1 x2).2.2.1, y ∈ pc.1.set :=
  View.cover_of_tiledL _ S512x1024.size (by sl_kernel_rfl) y
theorem coverC_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL _ S512x1.size (by sl_kernel_rfl) y
theorem coverC_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL _ S512x1.size (by sl_kernel_rfl) y
theorem coverC_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL _ S512x1024.size (by sl_kernel_rfl) y
theorem coverD_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S1x512x1024.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL _ S1x512x1024.size (by sl_kernel_rfl) y
theorem coverD_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL _ S512x1.size (by sl_kernel_rfl) y
theorem coverD_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL _ S512x1.size (by sl_kernel_rfl) y
theorem coverD_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL _ S512x1024.size (by sl_kernel_rfl) y

/-- A buffer holding a covering list of stores holds their canonical contents. -/
theorem owns_of_pieces {S : Shape} (c : Dev nD) (M : Memref sig .tc .vmem S .f32) (L : List (View.Piece (Elt F) S .f32))
    (hcov : ∀ y : S.Idx, ∃ p ∈ L, y ∈ p.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩
  unfold owns; iexists _; isplitr
  swap; · iexact H
  ipureintro; exact View.read_writes_eq_canon _ _ _ hcov

end Cert.Kernel.Hand

end
-- ==== Proof.K.R1Frame.lean ====
/-
  The attention kernel's half of the frame: the proof data of its pipeline (what every staging buffer holds after
  each grid point), the invariant that carries the running maximum, denominator and numerator from point to point,
  and the body obligation at every point, by the guards that hold there.

  The output block of (b, qb) is stored at kb = qb and written back after kb = 3. At the points in between no part
  of the body runs and the staging buffer keeps what kb = qb stored, so what is written back is that.
-/
import proofs.«109232_j17575006175501_2_alg».proof.Proof.K.R1Cover

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- A scoped buffer at some contents. -/
abbrev anyBuf (c : Dev nD) (b : Ref sig .tc) : sProp 𝕄 :=
  iprop(∃ f : Buf (Elt F) ((c : Thread nD τ).loc b), ((c : Thread nD τ).loc b) ↦{fullShare} f)

/-- The projection kernel's staging buffers, which this kernel never touches. -/
def others1 (c : Dev nD) : sProp 𝕄 :=
  iprop(anyBuf c cc0_stg0_0 ∗ anyBuf c cc0_stg0_1 ∗ anyBuf c cc0_stg1_0 ∗ anyBuf c cc0_stg2_0 ∗ anyBuf c cc0_stg3_0 ∗ anyBuf c cc0_stg4_0 ∗ anyBuf c cc0_stg4_1 ∗ anyBuf c cc0_stg5_0 ∗ anyBuf c cc0_stg5_1 ∗ anyBuf c cc0_stg6_0 ∗ anyBuf c cc0_stg6_1)

/-- The region's invariant with the three running buffers at some contents. -/
def PhiAny (c : Dev nD) : sProp 𝕄 :=
  iprop(others1 c ∗ (∃ d, owns (c : Thread nD τ) scMax fullShare d) ∗ (∃ d, owns (c : Thread nD τ) scDen fullShare d) ∗ (∃ d, owns (c : Thread nD τ) scNum fullShare d) ∗ ∃ r, prngReg c r)

/-- The region's invariant with the three running buffers at the contents `s` names. -/
def PhiAt (c : Dev nD) (s : St1 F) : sProp 𝕄 :=
  iprop(others1 c ∗ owns (c : Thread nD τ) scMax fullShare s.2.1 ∗ owns (c : Thread nD τ) scDen fullShare s.2.2.1 ∗ owns (c : Thread nD τ) scNum fullShare s.2.2.2 ∗ ∃ r, prngReg c r)

theorem PhiA1_open (c : Dev nD) : (Pipeline.ΦA spec1 c : sProp 𝕄) ⊢ PhiAny c := by
  unfold Pipeline.ΦA PhiAny others1; rw [scopedRest1_eq]
  simp only [scMax, scDen, scNum, owns_whole]
  iintro ⟨⟨B0, B1, B2, B3, B4, B5, B6, B7, B8, B9, B10, S0, S1, S2⟩, Hg⟩
  isplitl [B0 B1 B2 B3 B4 B5 B6 B7 B8 B9 B10]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [S0]; · iexact S0
  isplitl [S1]; · iexact S1
  isplitl [S2]; · iexact S2
  iexact Hg

theorem PhiA1_close (c : Dev nD) : PhiAny c ⊢ (Pipeline.ΦA spec1 c : sProp 𝕄) := by
  unfold Pipeline.ΦA PhiAny others1; rw [scopedRest1_eq]
  simp only [scMax, scDen, scNum, owns_whole]
  iintro ⟨⟨B0, B1, B2, B3, B4, B5, B6, B7, B8, B9, B10⟩, S0, S1, S2, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [S0]; · iexact S0
  isplitl [S1]; · iexact S1
  iexact S2

theorem PhiAt_any (c : Dev nD) (s : St1 F) : PhiAt c s ⊢ PhiAny c := by
  unfold PhiAt PhiAny
  iintro ⟨HB, S0, S1, S2, Hg⟩
  isplitl [HB]; · iexact HB
  isplitl [S0]; · iexists _; iexact S0
  isplitl [S1]; · iexists _; iexact S1
  isplitl [S2]; · iexists _; iexact S2
  iexact Hg

/-- Before point `n`: at the first point what the launch hands the region; afterwards the running buffers at what
    the point before left. -/
def PhiS1 (c : Dev nD) : (n : ℕ) → n ≤ cfg1.N → sProp 𝕄
  | 0, _ => Pipeline.ΦA spec1 c
  | n + 1, hn => PhiAt c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = PhiAt c (outsAt1 V c n hn) := rfl
theorem PhiS1_pos (c : Dev nD) (n : ℕ) (h : n ≤ cfg1.N) (hz : n ≠ 0) :
    PhiS1 V c n h = PhiAt c (outsAt1 V c (n - 1) (by omega)) := by
  cases n with
  | zero => exact absurd rfl hz
  | succ n => rfl

/-! ## The proof data -/

/-- The pipeline's proof data on core `c`: the arrays as the region finds them; after the body at point `t` each
    input's buffer at its block and the output's at what `outsAt1` says; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem Phi1_castSucc (c : Dev nD) (t : Fin cfg1.N) : (dat1 V c).Φ t.castSucc = PhiS1 V c t.val (Nat.le_of_lt t.isLt) := by
  dsimp only [dat1]; simp only [Fin.coe_castSucc]

/-- Each input's staging buffer holds its block at every point, fetched there or not: where it is not fetched its
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem prevSt_pos (c : Dev nD) (t : Fin cfg1.N) (hz : t.val ≠ 0) :
    prevSt V c t = outsAt1 V c (t.val - 1) (Nat.lt_of_le_of_lt (Nat.sub_le _ _) t.isLt) := by
  unfold prevSt; rw [dif_neg hz]

end Cert.Kernel.Hand

end
-- ==== Proof.K.R1Body.lean ====
/-
  The attention kernel's body obligation: at every grid point, from the invariant and every window's staging buffer
  at what it holds, the body runs to the invariant at the next point and every buffer at what the proof data says.
  The point's guards select the run; the running buffers come in at what the point before left and go out at this
  point's contents. An output buffer the point does not store into is handed back as found — and where that point
  also writes it back (kb = 3 > qb), what it found is what the point kb = qb stored.
-/
import proofs.«109232_j17575006175501_2_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output's staging buffer at a point where nothing runs -/

/-- At a point with kb > qb the output's staging buffer holds what the point before left in it: the buffer is not
    written back between (only after kb = 3), and it is never fetched. -/
theorem before1_3_E (c : Dev nD) : ∀ (n : ℕ) (hn : n < cfg1.N), ¬isCausal (grid1.coords ⟨n, hn⟩) → ∀ d,
    (dat1 V c).before 3 ⟨n, hn⟩ d = (prevSt V c ⟨n, hn⟩).1 := by
  intro n
  induction n using Nat.strong_induction_on with
  | _ n ih =>
    intro hn hE d
    have hN : n < 128 := lt_of_lt_of_eq hn N_1
    have hE' := hE; rw [isCausal_iff ⟨n, hn⟩] at hE'; dsimp only at hE'
    have hz : n ≠ 0 := by omega
    have hlt : n - 1 < cfg1.N := Nat.lt_of_le_of_lt (Nat.sub_le _ _) hn
    have hfl : (cfg1.win 3).flush ⟨n - 1, hlt⟩ = false :=
      Bool.eq_false_iff.mpr fun h => by have := (flush1_3 ⟨n - 1, hlt⟩).mp h; dsimp only at this; omega
    rw [(dat1 V c).before_of_pos 3 ⟨n, hn⟩ hz (nofetch1_3 _) d]
    dsimp only
    rw [hfl, if_neg Bool.false_ne_true, prevSt_pos V c ⟨n, hn⟩ hz]
    unfold Dat.left
    by_cases hd : isDiag (grid1.coords ⟨n - 1, hlt⟩)
    · rw [live1_3 ⟨n - 1, hlt⟩ hd]
      dsimp only
      unfold Dat.kept
      rw [Pipeline.fill_of_clip_none (cfg := cfg1) 3 _ (fun _ => rfl) d ((dat1 V c).after 3 ⟨n - 1, hlt⟩), Window.fill_cut, after1_3]
    · rw [idle1_3 ⟨n - 1, hlt⟩ hd]
      dsimp only
      have hd' := hd; rw [isDiag_iff ⟨n - 1, hlt⟩] at hd'; dsimp only at hd'
      have hE1 : ¬isCausal (grid1.coords ⟨n - 1, hlt⟩) := by
        rw [isCausal_iff ⟨n - 1, hlt⟩]; dsimp only; omega
      have hF1 : ¬isFirst (grid1.coords ⟨n - 1, hlt⟩) := fun h => hE1 (causal_of_first _ h)
      rw [ih (n - 1) (by omega) hlt hE1 d]
      have := outsAt1_eq V c ⟨n - 1, hlt⟩
      dsimp only at this
      rw [this, stepAt_E V c ⟨n - 1, hlt⟩ _ hF1 hE1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant before a point, the running buffers at some contents (what a point that resets them needs). -/
theorem Phi1_any (c : Dev nD) (t : Fin cfg1.N) : (dat1 V c).Φ t.castSucc ⊢ PhiAny c := by
  rw [Phi1_castSucc]
  by_cases hz : t.val = 0
  · rw [PhiS1_zero V c _ _ hz]; exact PhiA1_open c
  · rw [PhiS1_pos V c _ _ hz]; exact PhiAt_any c _

/-- The invariant before a point that is not the first: the running buffers at what the point before left. -/
theorem Phi1_prev (c : Dev nD) (t : Fin cfg1.N) (hz : t.val ≠ 0) : (dat1 V c).Φ t.castSucc = PhiAt c (prevSt V c t) := by
  rw [Phi1_castSucc, PhiS1_pos V c _ _ hz, prevSt_pos V c t hz]

theorem Phi1_succ (c : Dev nD) (t : Fin cfg1.N) : (dat1 V c).Φ t.succ = PhiAt c (stepAt V c t (prevSt V c t)) := by
  rw [show (dat1 V c).Φ t.succ = PhiS1 V c (t.val + 1) t.isLt from rfl, PhiS1_succ, outsAt1_eq]

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
/-- Where the third part runs the output's buffer is left at what it stored. -/
theorem leaves1_3_live (c : Dev nD) (t : Fin cfg1.N) (h2 : isDiag (grid1.coords t)) :
    (dat1 V c).leavesExact 3 t = owns (c : Thread nD τ) (ms1_3 t) fullShare (stepAt V c t (prevSt V c t)).1 := by
  unfold Dat.leavesExact; rw [live1_3 t h2, after1_3, outsAt1_eq]
/-- Where it does not run and the block is not written back, the buffer is handed back as found. -/
theorem leaves1_3_idle (c : Dev nD) (t : Fin cfg1.N) (h2 : ¬isDiag (grid1.coords t)) (hf : (cfg1.win 3).flush t = false) :
    (dat1 V c).leavesExact 3 t = iprop(∃ d, owns (c : Thread nD τ) (ms1_3 t) fullShare ((dat1 V c).before 3 t d)) :=
  Dat.leavesExact_idle (dat1 V c) 3 t (idle1_3 t h2) hf
/-- Where it does not run and the block IS written back, the buffer must hold what the proof data names. -/
theorem leaves1_3_flush (c : Dev nD) (t : Fin cfg1.N) (h2 : ¬isDiag (grid1.coords t)) (hf : (cfg1.win 3).flush t = true) :
    (dat1 V c).leavesExact 3 t = owns (c : Thread nD τ) (ms1_3 t) fullShare (stepAt V c t (prevSt V c t)).1 := by
  unfold Dat.leavesExact; rw [idle1_3 t h2, hf, after1_3, outsAt1_eq]

set_option maxHeartbeats 8000000 in
/-- The body at any point. The guards that hold there select the run. A point with kb = 0 takes the running
    buffers at whatever they hold (it resets them); any other point takes them at what the point before left. Every
    point leaves them at this point's contents. The output buffer is stored where kb = qb, and handed back as found
    elsewhere — which after kb = 3 > qb is what the point kb = qb stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, leaves1_0, leaves1_1, leaves1_2]
  have hN : t.val < 128 := lt_of_lt_of_eq t.isLt N_1
  by_cases h0 : isFirst (grid1.coords t)
  · have h1 := causal_of_first t h0
    have h0' := (isFirst_iff t).mp h0
    by_cases h2 : isDiag (grid1.coords t)
    · -- kb = 0 = qb
      rw [leaves1_3_live V c t h2, stepAt_A V c t _ h0 h2]
      unfold stA PhiAt; dsimp only
      have hΦ : (dat1 V c).Φ t.castSucc ⊢ (iprop(others1 c ∗ (∃ d, owns (c : Thread nD τ) scMax fullShare d) ∗ (∃ d, owns (c : Thread nD τ) scDen fullShare d) ∗ (∃ d, owns (c : Thread nD τ) scNum fullShare d) ∗ ∃ r, prngReg c r) : sProp 𝕄) := Phi1_any V c t
      iintro ⟨HP, Ho, ⟨%d0, H0⟩, ⟨%d1, H1⟩, ⟨%d2, H2⟩, ⟨%d3, H3⟩⟩
      ihave HP' := hΦ $$ HP
      icases HP' with ⟨HB, HS0, HS1, HS2, Hg⟩
      iapply ((kernelRun1_A c (grid1.coords t) _ _ _ _ _ _ _ _ _ _ _ _ _ _ h0 h1 h2 (iblk1 V c 0 t) (iblk1 V c 1 t) (iblk1 V c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HB HS0 HS1 HS2 Hg]
      · isplitl [HB]; · iexact HB
        isplitl [HS0]; · iapply (owns_of_pieces c _ _ (fun y => coverA_max _ _ _ _ _ _ _ _ _ _ _ _ _ _ _ _ _ _ _ _ _ _ y)); iexact HS0
        isplitl [HS1]; · iapply (owns_of_pieces c _ _ (fun y => coverA_den _ _ _ _ _ _ _ _ _ _ _ _ _ _ _ _ _ _ _ _ _ _ y)); iexact HS1
        isplitl [HS2]; · iapply (owns_of_pieces c _ _ (fun y => coverA_num _ _ _ _ _ _ _ _ _ _ _ _ _ _ _ _ _ _ _ _ _ _ y)); iexact HS2
        iexact Hg
      isplitl [Ho]; · iexact Ho
      isplitl [H0]; · iexact H0
      isplitl [H1]; · iexact H1
      isplitl [H2]; · iexact H2
      iapply (owns_of_pieces c _ _ (fun y => coverA_out _ _ _ _ _ _ _ _ _ _ _ _ _ _ _ _ _ _ _ _ _ _ y)); iexact H3
    · -- kb = 0 < qb
      have hf : (cfg1.win 3).flush t = false :=
        Bool.eq_false_iff.mpr fun h => by have := (flush1_3 t).mp h; omega
      rw [leaves1_3_idle V c t h2 hf, stepAt_B V c t _ h0 h2]
      unfold stB PhiAt; dsimp only
      have hΦ : (dat1 V c).Φ t.castSucc ⊢ (iprop(others1 c ∗ (∃ d, owns (c : Thread nD τ) scMax fullShare d) ∗ (∃ d, owns (c : Thread nD τ) scDen fullShare d) ∗ (∃ d, owns (c : Thread nD τ) scNum fullShare d) ∗ ∃ r, prngReg c r) : sProp 𝕄) := Phi1_any V c t
      iintro ⟨HP, Ho, ⟨%d0, H0⟩, ⟨%d1, H1⟩, ⟨%d2, H2⟩, ⟨%d3, H3⟩⟩
      ihave HP' := hΦ $$ HP
      icases HP' with ⟨HB, HS0, HS1, HS2, Hg⟩
      iapply ((kernelRun1_B c (grid1.coords t) _ _ _ _ _ _ _ _ _ _ _ _ _ _ h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB HS0 HS1 HS2 Hg]
      · isplitl [HB]; · iexact HB
        isplitl [HS0]; · iapply (owns_of_pieces c _ _ (fun y => coverB_max _ _ _ _ _ _ _ _ _ _ _ _ _ _ _ _ _ _ _ _ _ _ y)); iexact HS0
        isplitl [HS1]; · iapply (owns_of_pieces c _ _ (fun y => coverB_den _ _ _ _ _ _ _ _ _ _ _ _ _ _ _ _ _ _ _ _ _ _ y)); iexact HS1
        isplitl [HS2]; · iapply (owns_of_pieces c _ _ (fun y => coverB_num _ _ _ _ _ _ _ _ _ _ _ _ _ _ _ _ _ _ _ _ _ _ y)); iexact HS2
        iexact Hg
      isplitl [Ho]; · iexact Ho
      isplitl [H0]; · iexact H0
      isplitl [H1]; · iexact H1
      isplitl [H2]; · iexact H2
      iexists _; iexact H3
  · have h0' : ¬ t.val % 4 = 0 := fun h => h0 ((isFirst_iff t).mpr h)
    have hz : t.val ≠ 0 := by omega
    rw [Phi1_prev V c t hz]
    by_cases h1 : isCausal (grid1.coords t)
    · have h1' := (isCausal_iff t).mp h1
      by_cases h2 : isDiag (grid1.coords t)
      · -- 0 < kb = qb
        rw [leaves1_3_live V c t h2, stepAt_D V c t _ h0 h1 h2]
        unfold stD PhiAt; dsimp only
        iintro ⟨⟨HB, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ h0 h1 h2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iapply (owns_of_pieces c _ _ (fun y => coverD_max _ _ _ _ _ _ _ _ _ _ _ _ _ _ _ _ _ _ _ _ _ _ _ _ _ y)); iexact HS0
          isplitl [HS1]; · iapply (owns_of_pieces c _ _ (fun y => coverD_den _ _ _ _ _ _ _ _ _ _ _ _ _ _ _ _ _ _ _ _ _ _ _ _ _ y)); iexact HS1
          isplitl [HS2]; · iapply (owns_of_pieces c _ _ (fun y => coverD_num _ _ _ _ _ _ _ _ _ _ _ _ _ _ _ _ _ _ _ _ _ _ _ _ _ y)); iexact HS2
          iexact Hg
        isplitl [Ho]; · iexact Ho
        isplitl [H0]; · iexact H0
        isplitl [H1]; · iexact H1
        isplitl [H2]; · iexact H2
        iapply (owns_of_pieces c _ _ (fun y => coverD_out _ _ _ _ _ _ _ _ _ _ _ _ _ _ _ _ _ _ _ _ _ _ _ _ _ y)); iexact H3
      · -- 0 < kb < qb
        have h2' : ¬ t.val % 4 = t.val / 4 % 4 := fun h => h2 ((isDiag_iff t).mpr h)
        have hf : (cfg1.win 3).flush t = false :=
          Bool.eq_false_iff.mpr fun h => by have := (flush1_3 t).mp h; omega
        rw [leaves1_3_idle V c t h2 hf, stepAt_C V c t _ h0 h1 h2]
        unfold stC PhiAt; dsimp only
        iintro ⟨⟨HB, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ h0 h1 h2 (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iapply (owns_of_pieces c _ _ (fun y => coverC_max _ _ _ _ _ _ _ _ _ _ _ _ _ _ _ _ _ _ _ _ _ _ _ _ _ y)); iexact HS0
          isplitl [HS1]; · iapply (owns_of_pieces c _ _ (fun y => coverC_den _ _ _ _ _ _ _ _ _ _ _ _ _ _ _ _ _ _ _ _ _ _ _ _ _ y)); iexact HS1
          isplitl [HS2]; · iapply (owns_of_pieces c _ _ (fun y => coverC_num _ _ _ _ _ _ _ _ _ _ _ _ _ _ _ _ _ _ _ _ _ _ _ _ _ y)); iexact HS2
          iexact Hg
        isplitl [Ho]; · iexact Ho
        isplitl [H0]; · iexact H0
        isplitl [H1]; · iexact H1
        isplitl [H2]; · iexact H2
        iexists _; iexact H3
    · -- kb > qb: nothing runs
      have h2 : ¬isDiag (grid1.coords t) := fun h => h1 (causal_of_diag t h)
      rw [stepAt_E V c t _ h0 h1]
      unfold PhiAt
      by_cases hf : (cfg1.win 3).flush t = true
      · rw [leaves1_3_flush V c t h2 hf, stepAt_E V c t _ h0 h1]
        simp only [before1_3_E V c t.val t.isLt h1]
        iintro ⟨⟨HB, HS0, HS1, HS2, Hg⟩, Ho, ⟨%d0, H0⟩, ⟨%d1, H1⟩, ⟨%d2, H2⟩, ⟨%d3, H3⟩⟩
        iapply (kernelRun1_E c (grid1.coords t) _ _ _ _ _ _ _ _ _ _ _ _ _ _ h0 h1 h2 (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexact H3
      · rw [leaves1_3_idle V c t h2 ((Bool.not_eq_true _).mp hf)]
        iintro ⟨⟨HB, HS0, HS1, HS2, Hg⟩, Ho, ⟨%d0, H0⟩, ⟨%d1, H1⟩, ⟨%d2, H2⟩, ⟨%d3, H3⟩⟩
        iapply (kernelRun1_E c (grid1.coords t) _ _ _ _ _ _ _ _ _ _ _ _ _ _ h0 h1 h2 (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the running buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  exact (PhiAt_any c _).trans (PhiA1_close c)

end Cert.Kernel.Hand

end
-- ==== Proof.K.Frame.lean ====
/-
  The whole program's frame from its two kernels' halves: the buffers' contents at each boundary of @main, the proof
  data of both pipelines at their entry contents, each kernel region as a segment entered from every unscoped buffer
  at the boundary's contents and left at the next boundary's, and the launch over the four segments (host lines,
  projection kernel, host lines, attention kernel).
-/
import proofs.«109232_j17575006175501_2_alg».proof.Proof.K.Region0
import proofs.«109232_j17575006175501_2_alg».proof.Proof.K.R1Body
import proofs.«109232_j17575006175501_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the boundaries -/

/-- The buffers as the projection kernel finds them: after the host lines before it. -/
abbrev E0 (c : Dev nD) (b : Ref sig .tc) : Buf (Elt F) ((c : Thread nD τ).loc b) := V1 m c b

/-- What the projection kernel leaves: its arrays at what its write-backs made them, every other buffer as found. -/
def W2 (c : Dev nD) : Valuation τ sig (Elt F) :=
  Pipeline.withArrays spec0 c (V1 m c) fun w => (dat0 (E0 m) c).arrAt w cfg0.N

/-- The regions' results, first stage: the projection kernel's. -/
def outsA : Outs (F := F) := fun _ r c => W2 m c r

/-- The buffers as the attention kernel finds them: after the host lines between the kernels. -/
abbrev E1 (c : Dev nD) (b : Ref sig .tc) : Buf (Elt F) ((c : Thread nD τ).loc b) := V3 m (outsA m) c b

/-- What the attention kernel leaves. -/
def W4 (c : Dev nD) : Valuation τ sig (Elt F) :=
  Pipeline.withArrays spec1 c (V3 m (outsA m) c) fun w => (dat1 (E1 m) c).arrAt w cfg1.N

/-- The regions' results: after the projection kernel (item 2) its arrays, after the attention kernel (item 4) its. -/
def outsB : Outs (F := F) := fun J r c => if J = 4 then W4 m c r else W2 m c r

theorem outsB_two (r : Ref sig .tc) (c : Dev nD) : outsB m 2 r c = W2 m c r := if_neg (by decide)
theorem outsB_four (r : Ref sig .tc) (c : Dev nD) : outsB m 4 r c = W4 m c r := if_pos rfl

theorem V2_outs (c : Dev nD) : V2 m (outsB m) c = V2 m (outsA m) c := by
  simp only [V2, outsB_two, outsA]
theorem V3_outs (c : Dev nD) : V3 m (outsB m) c = V3 m (outsA m) c := by
  unfold V3; rw [V2_outs]

theorem V2_at_v5_0 (outs : Outs (F := F)) (c : Dev nD) : V2 m outs c main_v5_0 = outs 2 main_v5_0 c := by
  simp only [V2,
    Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1),
    Function.update_self]
theorem V2_at_v5_1 (outs : Outs (F := F)) (c : Dev nD) : V2 m outs c main_v5_1 = outs 2 main_v5_1 c := by
  simp only [V2,
    Function.update_of_ne (StableHlo.devRef_ne_of_ne (by decide) : (Proc.devRef .tc main_v5_1 : DevRef τ sig) ≠ Proc.devRef .tc main_v5_2),
    Function.update_self]
theorem V2_at_v5_2 (outs : Outs (F := F)) (c : Dev nD) : V2 m outs c main_v5_2 = outs 2 main_v5_2 c := by
  simp only [V2, Function.update_self]
theorem V4_at_v9 (outs : Outs (F := F)) (c : Dev nD) : V4 m outs c main_v9 = outs 4 main_v9 c := by
  simp only [V4, Function.update_self]

/-- An array the projection pipeline only reads ends as it was found. -/
theorem arr0_in (c : Dev nD) (w : Fin cfg0.W) (hw : (cfg0.win w).isOut = false) :
    (dat0 (E0 m) c).arrAt w cfg0.N = V1 m c (Pipeline.arrRef spec0 w) :=
  ((dat0 (E0 m) c).arrAt_in w hw _).trans (A_eq0 (E0 m) c w)
/-- An array the attention pipeline only reads ends as it was found. -/
theorem arr1_in (c : Dev nD) (w : Fin cfg1.W) (hw : (cfg1.win w).isOut = false) :
    (dat1 (E1 m) c).arrAt w cfg1.N = V3 m (outsA m) c (Pipeline.arrRef spec1 w) :=
  ((dat1 (E1 m) c).arrAt_in w hw _).trans (A_eq1 (E1 m) c w)

/-- After the projection kernel each of its arrays holds what the pipeline leaves, -/
theorem hF0 (c : Dev nD) (w : Fin cfg0.W) : (dat0 (E0 m) c).arrAt w cfg0.N = V2 m (outsB m) c (Pipeline.arrRef spec0 w) := by
  match w with
  | ⟨0, _⟩ => exact (arr0_in m c 0 rfl).trans (V2_of m (outsB m) c main_v4 (by decide)).symm
  | ⟨1, _⟩ => exact (arr0_in m c 1 rfl).trans (V2_of m (outsB m) c main_v1 (by decide)).symm
  | ⟨2, _⟩ => exact (arr0_in m c 2 rfl).trans (V2_of m (outsB m) c main_v2 (by decide)).symm
  | ⟨3, _⟩ => exact (arr0_in m c 3 rfl).trans (V2_of m (outsB m) c main_v3 (by decide)).symm
  | ⟨4, _⟩ => exact ((Pipeline.withArrays_arr spec0 launch0.win.arr_inj c _ _ 4).symm.trans (outsB_two m main_v5_0 c).symm).trans (V2_at_v5_0 m (outsB m) c).symm
  | ⟨5, _⟩ => exact ((Pipeline.withArrays_arr spec0 launch0.win.arr_inj c _ _ 5).symm.trans (outsB_two m main_v5_1 c).symm).trans (V2_at_v5_1 m (outsB m) c).symm
  | ⟨6, _⟩ => exact ((Pipeline.withArrays_arr spec0 launch0.win.arr_inj c _ _ 6).symm.trans (outsB_two m main_v5_2 c).symm).trans (V2_at_v5_2 m (outsB m) c).symm
/-- and every other buffer what it held. -/
theorem hrest0 (c : Dev nD) : ∀ b, b ∉ Finset.univ.image (Pipeline.arrRef spec0) → V2 m (outsB m) c b = V1 m c b :=
  fun b hb => V2_of m (outsB m) c b fun h => by
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- After the attention kernel each of its arrays holds what the pipeline leaves, -/
theorem hF1 (c : Dev nD) (w : Fin cfg1.W) : (dat1 (E1 m) c).arrAt w cfg1.N = V4 m (outsB m) c (Pipeline.arrRef spec1 w) := by
  match w with
  | ⟨0, _⟩ => exact (arr1_in m c 0 rfl).trans ((V4_of m (outsB m) c main_v6 (by decide)).trans (congrFun (V3_outs m c) _)).symm
  | ⟨1, _⟩ => exact (arr1_in m c 1 rfl).trans ((V4_of m (outsB m) c main_v7 (by decide)).trans (congrFun (V3_outs m c) _)).symm
  | ⟨2, _⟩ => exact (arr1_in m c 2 rfl).trans ((V4_of m (outsB m) c main_v8 (by decide)).trans (congrFun (V3_outs m c) _)).symm
  | ⟨3, _⟩ => exact ((Pipeline.withArrays_arr spec1 launch1.win.arr_inj c _ _ 3).symm.trans (outsB_four m main_v9 c).symm).trans (V4_at_v9 m (outsB m) c).symm
/-- and every other buffer what it held. -/
theorem hrest1 (c : Dev nD) : ∀ b, b ∉ Finset.univ.image (Pipeline.arrRef spec1) → V4 m (outsB m) c b = V3 m (outsA m) c b :=
  fun b hb => (V4_of m (outsB m) c b fun h => by
    simp only [List.mem_cons, List.mem_nil_iff, or_false] at h
    rcases h with rfl
    exact hb (Finset.mem_image.mpr ⟨3, Finset.mem_univ _, rfl⟩)).trans (congrFun (V3_outs m c) _)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## The two kernel regions as segments -/

set_option backward.isDefEq.respectTransparency.types false in
/-- The projection kernel's region: entered from every unscoped buffer at the contents after the first host lines,
    left at those contents with its three result arrays at what its write-backs made them. Its arrays are split out of
    the unscoped buffers at entry and put back at exit; the generator register goes into the pipeline's invariant and
    comes back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsB m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at the contents after the host lines between
    the kernels, left at those contents with the result array at what the write-backs made it. The invariant takes the
    generator register and the kernel's scratch buffers at the first point and gives them back after the last. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsB m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V4 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The program's run: every weakly fair execution of @main from any memory with zero counters terminates without a
  fault, the four argument arrays end as launched.
-/
import proofs.«109232_j17575006175501_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four segments: the two kernel regions' records, the host lines between them, the generator
    register and an empty debt riding along; at the end every unscoped buffer is read off the last boundary's contents. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () Variants.none Lz lvz (fun _ _ => rfl) ρ (outsB m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .of_eq (by rw [V3_outs]; rfl)) (hpost1 := fun c => .rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := run_main m ρ

end Cert.Kernel.Hand

end
-- ==== Proof.KI.Region0.lean ====
/-
  The projection kernel, one grid point at a time.

  The kernel runs on a grid of 16 points. At point `t` it is handed a block of 1024 rows of the activations
  (rows `1024 t … 1024 t + 1023` of a `16384 × 1024` array), three whole `1024 × 1024` weight matrices, and three
  output blocks of 1024 rows. It multiplies the activation block by each weight matrix (accumulating from zero),
  narrows the product, and stores each product over the whole of its output block. Nothing else is kept from
  point to point.

  Consequently what an output block holds after a point is a function of the activation block and one weight
  matrix alone (`projStored4/5/6`), the input blocks are left as they were found, and whatever else the core
  holds (its other scoped buffers, its generator register) is untouched. This file states exactly that as the
  pipeline's proof data `dat0`, parameterised by the contents `V` the arrays hold when the kernel is entered,
  and proves the per-point obligation `body_obligation0`.
-/
import proofs.«109232_j17575006175501_2_alg».proof.Proof.Gen.KernelIdeal.Launch
import proofs.«109232_j17575006175501_2_alg».proof.Proof.Gen.KernelIdeal.Skeleton
import proofs.«109232_j17575006175501_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- what the TensorCore's buffers hold when the projection kernel is entered
variable (V : (c : Dev nD) → (b : Ref sig .tc) → Buf (Elt F) ((c : Thread nD τ).loc b))

/-! ## The blocks the kernel is handed -/

/-- The block of window `w` at grid point `t`, cut out of the window's array as it stands at entry. -/
def entryBlock (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## What one point stores -/

/-- Every load and every store of the body spans a whole `1024 × 1024` block: offset `(0, 0)`, full extent. -/
abbrev fullBlock : Rect S1024x1024 :=
  Rect.unit (s := S1024x1024) ![0, 0] S1024x1024.size inb_S1024x1024_S1024x1024_0_0

/-- One store of the full block leaves no element of the block unwritten. -/
theorem fullBlock_covers (p : Vec F S1024x1024 .bf16) (y : S1024x1024.Idx) :
    ∃ pc ∈ ([⟨fullBlock, p⟩] : List (View.Piece (Elt F) S1024x1024 .bf16)), y ∈ pc.1.set :=
  View.cover_of_tiled [⟨fullBlock, p⟩] S1024x1024.size (by rfl) y

/-- The first output block after a point: the activation block `x` times the first weight matrix `w`,
    narrowed, written over the whole block. -/
def projStored4 (x w : Vec F S1024x1024 .bf16) : Vec F S1024x1024 .bf16 :=
  View.canon [⟨fullBlock, k0_pay2 (View.ld x fullBlock) (View.ld w fullBlock)⟩]

/-- The second output block after a point: the same with the second weight matrix. -/
def projStored5 (x w : Vec F S1024x1024 .bf16) : Vec F S1024x1024 .bf16 :=
  View.canon [⟨fullBlock, k0_pay3 (View.ld x fullBlock) (View.ld w fullBlock)⟩]

/-- The third output block after a point: the same with the third weight matrix. -/
def projStored6 (x w : Vec F S1024x1024 .bf16) : Vec F S1024x1024 .bf16 :=
  View.canon [⟨fullBlock, k0_pay4 (View.ld x fullBlock) (View.ld w fullBlock)⟩]

/-! ## The body, run once -/

set_option maxHeartbeats 1000000 in
/-- One run of the body. Given the activation block `x`, the three weight matrices `w1 w2 w3` and three output
    buffers holding anything, the body ends with the four inputs unchanged and each output buffer holding the
    corresponding product. (The body also reads each output buffer once before overwriting it; what it reads there
    is never used, so the buffers' prior contents do not matter.) -/
theorem projBody_runs (c : Dev nD) (E : Set ℕ) (i : grid0.Coords)
    (a1 : Memref sig .tc .vmem S1024x1024 .bf16) (h1 : a1.IsWhole)
    (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S1024x1024 .bf16) (h7 : a7.IsWhole)
    (x w1 w2 w3 : Vec F S1024x1024 .bf16) (K : PUnit → sProp 𝕄) :
    iprop(owns (c : Thread nD τ) a1 fullShare x ∗ owns (c : Thread nD τ) a2 fullShare w1
        ∗ owns (c : Thread nD τ) a3 fullShare w2 ∗ owns (c : Thread nD τ) a4 fullShare w3
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare w1
            ∗ owns (c : Thread nD τ) a3 fullShare w2 ∗ owns (c : Thread nD τ) a4 fullShare w3
            ∗ owns (c : Thread nD τ) a5 fullShare (projStored4 x w1)
            ∗ owns (c : Thread nD τ) a6 fullShare (projStored5 x w2)
            ∗ owns (c : Thread nD τ) a7 fullShare (projStored6 x w3)) -∗ K ⟨⟩))
      ⊢ wp frame (wpE (defs₀ (F := F)) Variants.none c none) E
          (cc0__qkv_proj_kernel i a1 h1 a2 h2 a3 h3 a4 h4 a5 h5 a6 h6 a7 h7) K := by
  simp only [cc0__qkv_proj_kernel_eq_skeleton]; unfold cc0__qkv_proj_kernel_skel
  unfold owns
  iintro ⟨⟨%f1, %e1, H1⟩, ⟨%f2, %e2, H2⟩, ⟨%f3, %e3, H3⟩, ⟨%f4, %e4, H4⟩,
    ⟨%d5, %f5, -, H5⟩, ⟨%d6, %f6, -, H6⟩, ⟨%d7, %f7, -, H7⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fullBlock_covers _)
  isplitl [H6]
  · iexists _; isplitr
    swap; · iexact H6
    ipureintro
    exact View.read_writes_eq_canon _ _ _ (fullBlock_covers _)
  iexists _; isplitr
  swap; · iexact H7
  ipureintro
  exact View.read_writes_eq_canon _ _ _ (fullBlock_covers _)

/-! ## The proof data -/

/-- The projection kernel's proof data on core `c`. The arrays are what the kernel finds at entry. After the
    body at point `t`: each of the four inputs still holds its block; output `4` holds the activation block times
    the first weight matrix, output `5` the second, output `6` the third. The kernel touches nothing else: the
    invariant is that the core's remaining scoped buffers and its generator register are somewhere, throughout. -/
def dat0 (c : Dev nD) : Dat τ (Elt F) Unit ℕ (UR sig nD τ) ℕ cfg0 c where
  A w := V c (Pipeline.arrRef spec0 w)
  after w t := match w with
    | ⟨0, _⟩ => entryBlock V c 0 t
    | ⟨1, _⟩ => entryBlock V c 1 t
    | ⟨2, _⟩ => entryBlock V c 2 t
    | ⟨3, _⟩ => entryBlock V c 3 t
    | ⟨4, _⟩ => projStored4 (entryBlock V c 0 t) (entryBlock V c 1 t)
    | ⟨5, _⟩ => projStored5 (entryBlock V c 0 t) (entryBlock V c 2 t)
    | ⟨6, _⟩ => projStored6 (entryBlock V c 0 t) (entryBlock V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer, read off the proof data. -/
theorem left_act (c : Dev nD) (t : Fin cfg0.N) : (dat0 V c).after 0 t = entryBlock V c 0 t := by dsimp only [dat0]
theorem left_w1 (c : Dev nD) (t : Fin cfg0.N) : (dat0 V c).after 1 t = entryBlock V c 1 t := by dsimp only [dat0]
theorem left_w2 (c : Dev nD) (t : Fin cfg0.N) : (dat0 V c).after 2 t = entryBlock V c 2 t := by dsimp only [dat0]
theorem left_w3 (c : Dev nD) (t : Fin cfg0.N) : (dat0 V c).after 3 t = entryBlock V c 3 t := by dsimp only [dat0]
theorem left_out4 (c : Dev nD) (t : Fin cfg0.N) :
    (dat0 V c).after 4 t = projStored4 (entryBlock V c 0 t) (entryBlock V c 1 t) := by dsimp only [dat0]
theorem left_out5 (c : Dev nD) (t : Fin cfg0.N) :
    (dat0 V c).after 5 t = projStored5 (entryBlock V c 0 t) (entryBlock V c 2 t) := by dsimp only [dat0]
theorem left_out6 (c : Dev nD) (t : Fin cfg0.N) :
    (dat0 V c).after 6 t = projStored6 (entryBlock V c 0 t) (entryBlock V c 3 t) := by dsimp only [dat0]

/-! ## What the body finds in the input buffers

The activation window moves to a new block at every point and is fetched each time. The three weight windows
never move: they are fetched once, at the first point, and since the body leaves them as it found them they
still hold the whole matrix at every later point. Either way an input buffer holds its window's block. -/

theorem found_act (c : Dev nD) (t : Fin cfg0.N) (d) : (dat0 V c).before 0 t d = entryBlock V c 0 t :=
  ((dat0 V c).before_in_eq_fetched 0 rfl (fun _ => rfl) (fun _ _ _ => rfl)
    (fun t => by rw [left_act]; unfold Dat.blockOf entryBlock; rw [A_eq0]; try rfl) t d).trans
    (by unfold Dat.fetched Dat.blockOf entryBlock; rw [A_eq0]; try rfl)

theorem found_w1 (c : Dev nD) (t : Fin cfg0.N) (d) : (dat0 V c).before 1 t d = entryBlock V c 1 t :=
  ((dat0 V c).before_in_eq_fetched 1 rfl (fun _ => rfl) (fun _ _ _ => rfl)
    (fun t => by rw [left_w1]; unfold Dat.blockOf entryBlock; rw [A_eq0]; try rfl) t d).trans
    (by unfold Dat.fetched Dat.blockOf entryBlock; rw [A_eq0]; try rfl)

theorem found_w2 (c : Dev nD) (t : Fin cfg0.N) (d) : (dat0 V c).before 2 t d = entryBlock V c 2 t :=
  ((dat0 V c).before_in_eq_fetched 2 rfl (fun _ => rfl) (fun _ _ _ => rfl)
    (fun t => by rw [left_w2]; unfold Dat.blockOf entryBlock; rw [A_eq0]; try rfl) t d).trans
    (by unfold Dat.fetched Dat.blockOf entryBlock; rw [A_eq0]; try rfl)

theorem found_w3 (c : Dev nD) (t : Fin cfg0.N) (d) : (dat0 V c).before 3 t d = entryBlock V c 3 t :=
  ((dat0 V c).before_in_eq_fetched 3 rfl (fun _ => rfl) (fun _ _ _ => rfl)
    (fun t => by rw [left_w3]; unfold Dat.blockOf entryBlock; rw [A_eq0]; try rfl) t d).trans
    (by unfold Dat.fetched Dat.blockOf entryBlock; rw [A_eq0]; try rfl)

/-! ## The obligation at a point -/

/-- What the pipeline hands the body at point `t`: the invariant, what the core owes, and each window's current
    buffer at what it then holds. -/
def handedAt (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back. -/
def returnedAt (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: its input buffers hold their blocks, so one run of the body (`projBody_runs`) leaves the
    outputs at the stated products; the invariant and what the core owes are neither read nor changed. -/
theorem projBody_at (c : Dev nD) (t : Fin cfg0.N) :
    handedAt V c t ⊢ wp frame (wpE (defs₀ (F := F)) Variants.none c none) Set.univ (bodyAt0 t)
      (fun _ => returnedAt V c t) := by
  unfold handedAt returnedAt bodyAt0
  simp only [found_act, found_w1, found_w2, found_w3]
  rw [show (dat0 V c).Φ t.succ = (dat0 V c).Φ t.castSucc from rfl,
    show (dat0 V c).owesAt () t.succ = (dat0 V c).owesAt () t.castSucc from rfl,
    left_act, left_w1, left_w2, left_w3, left_out4, left_out5, left_out6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (projBody_runs c Set.univ (grid0.coords t) _ _ _ _ _ _ _ _ _ _ _ _ _ _
    (entryBlock V c 0 t) (entryBlock V c 1 t) (entryBlock V c 2 t) (entryBlock V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) :
    Pipeline.BodyObligation (dat0 (F := F) V c) (defs₀ (F := F)) Variants.none () Set.univ := fun t => by
  rw [bigSep_W0, bigSep_W0]
  exact projBody_at V c t

end Cert.KernelIdeal.Hand

end
-- ==== Proof.KI.R1Defs.lean ====
/-
  The attention kernel (the second pallas_call) at one grid point (batch b, query block qb, key block kb):
  which of its three guarded parts run there, and the buffers it runs on.

  * The first part (reset the running maximum, denominator and numerator) runs when kb = 0.
  * The second part (fold key block kb into the running values) runs when kb ≤ qb.
  * The third part (divide and store the output block) runs when kb = qb.
  The grid is [8, 4, 4], the last coordinate fastest, so point t has kb = t % 4 and qb = t / 4 % 4.
  The output block of (b, qb) is written back after kb = 3; for qb < 3 the body stores nothing there after
  kb = qb, and the buffer still holds what the point kb = qb stored.
-/
import proofs.«109232_j17575006175501_2_alg».proof.Proof.Gen.KernelIdeal.Launch
import proofs.«109232_j17575006175501_2_alg».proof.Proof.Gen.KernelIdeal.Skeleton
import proofs.«109232_j17575006175501_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three guards, as the kernel computes them from the grid coordinates -/

/-- `kb = 0`: the running values are reset. -/
abbrev isFirst (i : grid1.Coords) : Prop :=
  (Scalar.cmpi .ne (Scalar.extui (Scalar.cmpi .eq (BitVec.ofNat 32 (i 2).val) 0#32)) 0#32) = 1#1
/-- `kb ≤ qb`: key block `kb` is folded in. -/
abbrev isCausal (i : grid1.Coords) : Prop :=
  (Scalar.cmpi .ne (Scalar.extui (Scalar.cmpi .sle (BitVec.ofNat 32 (i 2).val) (BitVec.ofNat 32 (i 1).val))) 0#32) = 1#1
/-- `kb = qb`: the output block is stored. -/
abbrev isDiag (i : grid1.Coords) : Prop := k1_cond3 i = 1#1

theorem isFirst_iff : ∀ t : Fin cfg1.N, isFirst (grid1.coords t) ↔ t.val % 4 = 0 :=
  (by decide +kernel : ∀ t : Fin grid1.N, isFirst (grid1.coords t) ↔ t.val % 4 = 0)
theorem isCausal_iff : ∀ t : Fin cfg1.N, isCausal (grid1.coords t) ↔ t.val % 4 ≤ t.val / 4 % 4 :=
  (by decide +kernel : ∀ t : Fin grid1.N, isCausal (grid1.coords t) ↔ t.val % 4 ≤ t.val / 4 % 4)
theorem isDiag_iff : ∀ t : Fin cfg1.N, isDiag (grid1.coords t) ↔ t.val % 4 = t.val / 4 % 4 :=
  (by decide +kernel : ∀ t : Fin grid1.N, isDiag (grid1.coords t) ↔ t.val % 4 = t.val / 4 % 4)

/-! ## Where the windows are idle, and where the output is written back -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is live exactly where the third part runs. -/
theorem live1_3 : ∀ t : Fin cfg1.N, isDiag (grid1.coords t) → cfg1.idle 3 (grid1.coords t) = false := by decide +kernel
theorem idle1_3 : ∀ t : Fin cfg1.N, ¬isDiag (grid1.coords t) → cfg1.idle 3 (grid1.coords t) = true := by decide +kernel
/-- The output window is never fetched. -/
theorem nofetch1_3 : ∀ t : Fin cfg1.N, (cfg1.win 3).fetch t = false :=
  (by decide +kernel : ∀ t : Fin grid1.N, win1_3.fetch t = false)

/-! ## The buffers the body runs on -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The running maximum, denominator and numerator: whole scoped buffers of the kernel's own. -/
abbrev scMax : Memref sig .tc .vmem S512x1 .f32 := Memref.whole cc1_scratch0
abbrev scDen : Memref sig .tc .vmem S512x1 .f32 := Memref.whole cc1_scratch1
abbrev scNum : Memref sig .tc .vmem S512x1024 .f32 := Memref.whole cc1_scratch2

end Cert.KernelIdeal.Hand

end
-- ==== Proof.KI.R1Runs.lean ====
/-
  The attention kernel's body run once for each combination of its three guards that the grid meets, on any
  whole buffers: the query, key and value blocks stay as they were; a buffer a part stores into ends holding that
  part's stores (as a list of pieces, found by running the body); a buffer no part touches is handed back as found.
-/
import proofs.«109232_j17575006175501_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- kb = 0 = qb: the running values are reset, key block 0 folded in, the output block stored. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

set_option maxHeartbeats 4000000 in
/-- kb = 0 < qb: the running values are reset and key block 0 folded in; the output buffer is left as found. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : ¬isDiag i)
    (x0 x1 x2 : Vec F S1x512x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- 0 < kb < qb: key block kb folded into the running values the point before left; the output buffer is left as found. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : ¬isDiag i)
    (x0 x1 x2 : Vec F S1x512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- 0 < kb = qb: key block kb folded in and the output block stored. -/
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

set_option maxHeartbeats 4000000 in
/-- kb > qb: no part runs; every buffer is left as found. -/
theorem kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : ¬isCausal i) (hc2 : ¬isDiag i)
    (x0 x1 x2 : Vec F S1x512x1024 .bf16) (xs0 xs1 : Vec F S512x1 .f32) (xs2 : Vec F S512x1024 .f32) :
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ owns (c : Thread nD τ) arg7 fullShare xs0
                ∗ owns (c : Thread nD τ) arg8 fullShare xs1
                ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
  intro xi3 E K
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.KI.R1State.lean ====
/-
  What the attention kernel's buffers hold after each grid point, by recursion on the point: the output block's
  staging buffer and the running maximum, denominator and numerator. A point runs the parts its guards select on the
  blocks of the query, key and value arrays it is handed and on what the point before left; where no part runs
  (kb > qb) everything stays. Before the first point nothing is known of the buffers, and the first point resets them.
-/
import proofs.«109232_j17575006175501_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output staging buffer, the running maximum, the running denominator, the running numerator. -/
abbrev St1 (F : FTy → Type) : Type := Vec F S1x512x1024 .f32 × Vec F S512x1 .f32 × Vec F S512x1 .f32 × Vec F S512x1024 .f32

/-- Contents nothing is known of. -/
def junkSt : St1 F := (View.canon [], View.canon [], View.canon [], View.canon [])

theorem causal_of_first : ∀ t : Fin cfg1.N, isFirst (grid1.coords t) → isCausal (grid1.coords t) := by decide +kernel
theorem causal_of_diag : ∀ t : Fin cfg1.N, isDiag (grid1.coords t) → isCausal (grid1.coords t) := by decide +kernel

/-- kb = 0 = qb. -/
def stA (c : Dev nD) (t : Fin cfg1.N) (h0 : isFirst (grid1.coords t)) (h1 : isCausal (grid1.coords t)) (h2 : isDiag (grid1.coords t)) : St1 F :=
  (View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.1,
   View.canon (kernelRun1_A c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.2.1)

/-- kb = 0 < qb. -/
def stB (c : Dev nD) (t : Fin cfg1.N) (h0 : isFirst (grid1.coords t)) (h1 : isCausal (grid1.coords t)) (h2 : ¬isDiag (grid1.coords t)) (prev : St1 F) : St1 F :=
  (prev.1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.1,
   View.canon (kernelRun1_B c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)).2.2.1)

/-- 0 < kb < qb. -/
def stC (c : Dev nD) (t : Fin cfg1.N) (h0 : ¬isFirst (grid1.coords t)) (h1 : isCausal (grid1.coords t)) (h2 : ¬isDiag (grid1.coords t)) (prev : St1 F) : St1 F :=
  (prev.1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.1,
   View.canon (kernelRun1_C c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.1)

/-- 0 < kb = qb. -/
def stD (c : Dev nD) (t : Fin cfg1.N) (h0 : ¬isFirst (grid1.coords t)) (h1 : isCausal (grid1.coords t)) (h2 : isDiag (grid1.coords t)) (prev : St1 F) : St1 F :=
  (View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.1,
   View.canon (kernelRun1_D c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2).2.2.2.1)

/-- One point: the parts its guards select, over what the point before left. -/
def stepAt (c : Dev nD) (t : Fin cfg1.N) (prev : St1 F) : St1 F :=
  if h0 : isFirst (grid1.coords t) then
    if h2 : isDiag (grid1.coords t) then stA V c t h0 (causal_of_first t h0) h2
    else stB V c t h0 (causal_of_first t h0) h2 prev
  else if h1 : isCausal (grid1.coords t) then
    if h2 : isDiag (grid1.coords t) then stD V c t h0 h1 h2 prev
    else stC V c t h0 h1 h2 prev
  else prev

/-- The four buffers after point `n`. -/
def outsAt1 (c : Dev nD) : (n : ℕ) → n < cfg1.N → St1 F
  | 0, h => stepAt V c ⟨0, h⟩ junkSt
  | n + 1, h => stepAt V c ⟨n + 1, h⟩ (outsAt1 c n (Nat.lt_of_succ_lt h))

/-- What the point before `t` left (nothing known before the first). -/
def prevSt (c : Dev nD) (t : Fin cfg1.N) : St1 F :=
  if h : t.val = 0 then junkSt else outsAt1 V c (t.val - 1) (Nat.lt_of_le_of_lt (Nat.sub_le _ _) t.isLt)

theorem outsAt1_eq (c : Dev nD) (t : Fin cfg1.N) : outsAt1 V c t.val t.isLt = stepAt V c t (prevSt V c t) := by
  obtain ⟨n, hn⟩ := t
  cases n with
  | zero => unfold prevSt; rw [dif_pos rfl]; rfl
  | succ n => unfold prevSt; rw [dif_neg (Nat.succ_ne_zero n)]; rfl

theorem stepAt_A (c : Dev nD) (t : Fin cfg1.N) (prev : St1 F) (h0 : isFirst (grid1.coords t)) (h2 : isDiag (grid1.coords t)) :
    stepAt V c t prev = stA V c t h0 (causal_of_first t h0) h2 := by
  unfold stepAt; rw [dif_pos h0, dif_pos h2]
theorem stepAt_B (c : Dev nD) (t : Fin cfg1.N) (prev : St1 F) (h0 : isFirst (grid1.coords t)) (h2 : ¬isDiag (grid1.coords t)) :
    stepAt V c t prev = stB V c t h0 (causal_of_first t h0) h2 prev := by
  unfold stepAt; rw [dif_pos h0, dif_neg h2]
theorem stepAt_C (c : Dev nD) (t : Fin cfg1.N) (prev : St1 F) (h0 : ¬isFirst (grid1.coords t)) (h1 : isCausal (grid1.coords t)) (h2 : ¬isDiag (grid1.coords t)) :
    stepAt V c t prev = stC V c t h0 h1 h2 prev := by
  unfold stepAt; rw [dif_neg h0, dif_pos h1, dif_neg h2]
theorem stepAt_D (c : Dev nD) (t : Fin cfg1.N) (prev : St1 F) (h0 : ¬isFirst (grid1.coords t)) (h1 : isCausal (grid1.coords t)) (h2 : isDiag (grid1.coords t)) :
    stepAt V c t prev = stD V c t h0 h1 h2 prev := by
  unfold stepAt; rw [dif_neg h0, dif_pos h1, dif_pos h2]
theorem stepAt_E (c : Dev nD) (t : Fin cfg1.N) (prev : St1 F) (h0 : ¬isFirst (grid1.coords t)) (h1 : ¬isCausal (grid1.coords t)) :
    stepAt V c t prev = prev := by
  unfold stepAt; rw [dif_neg h0, dif_neg h1]

end Cert.KernelIdeal.Hand

end
-- ==== Proof.KI.R1Cover.lean ====
/-
  Each list of pieces a run of the attention kernel's body finds is one whole-buffer store (or several, the last
  whole), so it covers its buffer: the buffer then reads back as the pieces' canonical contents.
-/
import proofs.«109232_j17575006175501_2_alg».proof.Proof.KI.R1State

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem coverA_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S1x512x1024.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL _ S1x512x1024.size (by sl_kernel_rfl) y
theorem coverA_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL _ S512x1.size (by sl_kernel_rfl) y
theorem coverA_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL _ S512x1.size (by sl_kernel_rfl) y
theorem coverA_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : isDiag i) (x0 x1 x2 : Vec F S1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL _ S512x1024.size (by sl_kernel_rfl) y
theorem coverB_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1.Idx) :
    ∃ pc ∈ (kernelRun1_B c i arg3 harg3 arg4 harg4 arg5 harg5 arg6 harg6 arg7 harg7 arg8 harg8 arg9 harg9 hc0 hc1 hc2 x0 x1 x2).1, y ∈ pc.1.set :=
  View.cover_of_tiledL _ S512x1.size (by sl_kernel_rfl) y
theorem coverB_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1.Idx) :
    ∃ pc ∈ (kernelRun1_B c i arg3 harg3 arg4 harg4 arg5 harg5 arg6 harg6 arg7 harg7 arg8 harg8 arg9 harg9 hc0 hc1 hc2 x0 x1 x2).2.1, y ∈ pc.1.set :=
  View.cover_of_tiledL _ S512x1.size (by sl_kernel_rfl) y
theorem coverB_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : isFirst i) (hc1 : isCausal i) (hc2 : ¬isDiag i) (x0 x1 x2 : Vec F S1x512x1024 .bf16) (y : S512x1024.Idx) :
    ∃ pc ∈ (kernelRun1_B c i arg3 harg3 arg4 harg4 arg5 harg5 arg6 harg6 arg7 harg7 arg8 harg8 arg9 harg9 hc0 hc1 hc2 x0 x1 x2).2.2.1, y ∈ pc.1.set :=
  View.cover_of_tiledL _ S512x1024.size (by sl_kernel_rfl) y
theorem coverC_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL _ S512x1.size (by sl_kernel_rfl) y
theorem coverC_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL _ S512x1.size (by sl_kernel_rfl) y
theorem coverC_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : ¬isDiag i) (x0 x1 x2 : Vec F S1x512x1024 .bf16) (xs0 xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL _ S512x1024.size (by sl_kernel_rfl) y
theorem coverD_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S1x512x1024.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL _ S1x512x1024.size (by sl_kernel_rfl) y
theorem coverD_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL _ S512x1.size (by sl_kernel_rfl) y
theorem coverD_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL _ S512x1.size (by sl_kernel_rfl) y
theorem coverD_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬isFirst i) (hc1 : isCausal i) (hc2 : isDiag i) (x0 x1 x2 : Vec F S1x512x1024 .bf16) (xs0 xs1 : Vec F S512x1 .f32) (xs2 : Vec F S512x1024 .f32) (y : S512x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL _ S512x1024.size (by sl_kernel_rfl) y

/-- A buffer holding a covering list of stores holds their canonical contents. -/
theorem owns_of_pieces {S : Shape} (c : Dev nD) (M : Memref sig .tc .vmem S .f32) (L : List (View.Piece (Elt F) S .f32))
    (hcov : ∀ y : S.Idx, ∃ p ∈ L, y ∈ p.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩
  unfold owns; iexists _; isplitr
  swap; · iexact H
  ipureintro; exact View.read_writes_eq_canon _ _ _ hcov

end Cert.KernelIdeal.Hand

end
-- ==== Proof.KI.R1Frame.lean ====
/-
  The attention kernel's half of the frame: the proof data of its pipeline (what every staging buffer holds after
  each grid point), the invariant that carries the running maximum, denominator and numerator from point to point,
  and the body obligation at every point, by the guards that hold there.

  The output block of (b, qb) is stored at kb = qb and written back after kb = 3. At the points in between no part
  of the body runs and the staging buffer keeps what kb = qb stored, so what is written back is that.
-/
import proofs.«109232_j17575006175501_2_alg».proof.Proof.KI.R1Cover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The invariant -/

/-- A scoped buffer at some contents. -/
abbrev anyBuf (c : Dev nD) (b : Ref sig .tc) : sProp 𝕄 :=
  iprop(∃ f : Buf (Elt F) ((c : Thread nD τ).loc b), ((c : Thread nD τ).loc b) ↦{fullShare} f)

/-- The projection kernel's staging buffers, which this kernel never touches. -/
def others1 (c : Dev nD) : sProp 𝕄 :=
  iprop(anyBuf c cc0_stg0_0 ∗ anyBuf c cc0_stg0_1 ∗ anyBuf c cc0_stg1_0 ∗ anyBuf c cc0_stg2_0 ∗ anyBuf c cc0_stg3_0 ∗ anyBuf c cc0_stg4_0 ∗ anyBuf c cc0_stg4_1 ∗ anyBuf c cc0_stg5_0 ∗ anyBuf c cc0_stg5_1 ∗ anyBuf c cc0_stg6_0 ∗ anyBuf c cc0_stg6_1)

/-- The region's invariant with the three running buffers at some contents. -/
def PhiAny (c : Dev nD) : sProp 𝕄 :=
  iprop(others1 c ∗ (∃ d, owns (c : Thread nD τ) scMax fullShare d) ∗ (∃ d, owns (c : Thread nD τ) scDen fullShare d) ∗ (∃ d, owns (c : Thread nD τ) scNum fullShare d) ∗ ∃ r, prngReg c r)

/-- The region's invariant with the three running buffers at the contents `s` names. -/
def PhiAt (c : Dev nD) (s : St1 F) : sProp 𝕄 :=
  iprop(others1 c ∗ owns (c : Thread nD τ) scMax fullShare s.2.1 ∗ owns (c : Thread nD τ) scDen fullShare s.2.2.1 ∗ owns (c : Thread nD τ) scNum fullShare s.2.2.2 ∗ ∃ r, prngReg c r)

theorem PhiA1_open (c : Dev nD) : (Pipeline.ΦA spec1 c : sProp 𝕄) ⊢ PhiAny c := by
  unfold Pipeline.ΦA PhiAny others1; rw [scopedRest1_eq]
  simp only [scMax, scDen, scNum, owns_whole]
  iintro ⟨⟨B0, B1, B2, B3, B4, B5, B6, B7, B8, B9, B10, S0, S1, S2⟩, Hg⟩
  isplitl [B0 B1 B2 B3 B4 B5 B6 B7 B8 B9 B10]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [S0]; · iexact S0
  isplitl [S1]; · iexact S1
  isplitl [S2]; · iexact S2
  iexact Hg

theorem PhiA1_close (c : Dev nD) : PhiAny c ⊢ (Pipeline.ΦA spec1 c : sProp 𝕄) := by
  unfold Pipeline.ΦA PhiAny others1; rw [scopedRest1_eq]
  simp only [scMax, scDen, scNum, owns_whole]
  iintro ⟨⟨B0, B1, B2, B3, B4, B5, B6, B7, B8, B9, B10⟩, S0, S1, S2, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [S0]; · iexact S0
  isplitl [S1]; · iexact S1
  iexact S2

theorem PhiAt_any (c : Dev nD) (s : St1 F) : PhiAt c s ⊢ PhiAny c := by
  unfold PhiAt PhiAny
  iintro ⟨HB, S0, S1, S2, Hg⟩
  isplitl [HB]; · iexact HB
  isplitl [S0]; · iexists _; iexact S0
  isplitl [S1]; · iexists _; iexact S1
  isplitl [S2]; · iexists _; iexact S2
  iexact Hg

/-- Before point `n`: at the first point what the launch hands the region; afterwards the running buffers at what
    the point before left. -/
def PhiS1 (c : Dev nD) : (n : ℕ) → n ≤ cfg1.N → sProp 𝕄
  | 0, _ => Pipeline.ΦA spec1 c
  | n + 1, hn => PhiAt c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = PhiAt c (outsAt1 V c n hn) := rfl
theorem PhiS1_pos (c : Dev nD) (n : ℕ) (h : n ≤ cfg1.N) (hz : n ≠ 0) :
    PhiS1 V c n h = PhiAt c (outsAt1 V c (n - 1) (by omega)) := by
  cases n with
  | zero => exact absurd rfl hz
  | succ n => rfl

/-! ## The proof data -/

/-- The pipeline's proof data on core `c`: the arrays as the region finds them; after the body at point `t` each
    input's buffer at its block and the output's at what `outsAt1` says; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem Phi1_castSucc (c : Dev nD) (t : Fin cfg1.N) : (dat1 V c).Φ t.castSucc = PhiS1 V c t.val (Nat.le_of_lt t.isLt) := by
  dsimp only [dat1]; simp only [Fin.coe_castSucc]

/-- Each input's staging buffer holds its block at every point, fetched there or not: where it is not fetched its
    block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem prevSt_pos (c : Dev nD) (t : Fin cfg1.N) (hz : t.val ≠ 0) :
    prevSt V c t = outsAt1 V c (t.val - 1) (Nat.lt_of_le_of_lt (Nat.sub_le _ _) t.isLt) := by
  unfold prevSt; rw [dif_neg hz]

end Cert.KernelIdeal.Hand

end
-- ==== Proof.KI.R1Body.lean ====
/-
  The attention kernel's body obligation: at every grid point, from the invariant and every window's staging buffer
  at what it holds, the body runs to the invariant at the next point and every buffer at what the proof data says.
  The point's guards select the run; the running buffers come in at what the point before left and go out at this
  point's contents. An output buffer the point does not store into is handed back as found — and where that point
  also writes it back (kb = 3 > qb), what it found is what the point kb = qb stored.
-/
import proofs.«109232_j17575006175501_2_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The output's staging buffer at a point where nothing runs -/

/-- At a point with kb > qb the output's staging buffer holds what the point before left in it: the buffer is not
    written back between (only after kb = 3), and it is never fetched. -/
theorem before1_3_E (c : Dev nD) : ∀ (n : ℕ) (hn : n < cfg1.N), ¬isCausal (grid1.coords ⟨n, hn⟩) → ∀ d,
    (dat1 V c).before 3 ⟨n, hn⟩ d = (prevSt V c ⟨n, hn⟩).1 := by
  intro n
  induction n using Nat.strong_induction_on with
  | _ n ih =>
    intro hn hE d
    have hN : n < 128 := lt_of_lt_of_eq hn N_1
    have hE' := hE; rw [isCausal_iff ⟨n, hn⟩] at hE'; dsimp only at hE'
    have hz : n ≠ 0 := by omega
    have hlt : n - 1 < cfg1.N := Nat.lt_of_le_of_lt (Nat.sub_le _ _) hn
    have hfl : (cfg1.win 3).flush ⟨n - 1, hlt⟩ = false :=
      Bool.eq_false_iff.mpr fun h => by have := (flush1_3 ⟨n - 1, hlt⟩).mp h; dsimp only at this; omega
    rw [(dat1 V c).before_of_pos 3 ⟨n, hn⟩ hz (nofetch1_3 _) d]
    dsimp only
    rw [hfl, if_neg Bool.false_ne_true, prevSt_pos V c ⟨n, hn⟩ hz]
    unfold Dat.left
    by_cases hd : isDiag (grid1.coords ⟨n - 1, hlt⟩)
    · rw [live1_3 ⟨n - 1, hlt⟩ hd]
      dsimp only
      unfold Dat.kept
      rw [Pipeline.fill_of_clip_none (cfg := cfg1) 3 _ (fun _ => rfl) d ((dat1 V c).after 3 ⟨n - 1, hlt⟩), Window.fill_cut, after1_3]
    · rw [idle1_3 ⟨n - 1, hlt⟩ hd]
      dsimp only
      have hd' := hd; rw [isDiag_iff ⟨n - 1, hlt⟩] at hd'; dsimp only at hd'
      have hE1 : ¬isCausal (grid1.coords ⟨n - 1, hlt⟩) := by
        rw [isCausal_iff ⟨n - 1, hlt⟩]; dsimp only; omega
      have hF1 : ¬isFirst (grid1.coords ⟨n - 1, hlt⟩) := fun h => hE1 (causal_of_first _ h)
      rw [ih (n - 1) (by omega) hlt hE1 d]
      have := outsAt1_eq V c ⟨n - 1, hlt⟩
      dsimp only at this
      rw [this, stepAt_E V c ⟨n - 1, hlt⟩ _ hF1 hE1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant before a point, the running buffers at some contents (what a point that resets them needs). -/
theorem Phi1_any (c : Dev nD) (t : Fin cfg1.N) : (dat1 V c).Φ t.castSucc ⊢ PhiAny c := by
  rw [Phi1_castSucc]
  by_cases hz : t.val = 0
  · rw [PhiS1_zero V c _ _ hz]; exact PhiA1_open c
  · rw [PhiS1_pos V c _ _ hz]; exact PhiAt_any c _

/-- The invariant before a point that is not the first: the running buffers at what the point before left. -/
theorem Phi1_prev (c : Dev nD) (t : Fin cfg1.N) (hz : t.val ≠ 0) : (dat1 V c).Φ t.castSucc = PhiAt c (prevSt V c t) := by
  rw [Phi1_castSucc, PhiS1_pos V c _ _ hz, prevSt_pos V c t hz]

theorem Phi1_succ (c : Dev nD) (t : Fin cfg1.N) : (dat1 V c).Φ t.succ = PhiAt c (stepAt V c t (prevSt V c t)) := by
  rw [show (dat1 V c).Φ t.succ = PhiS1 V c (t.val + 1) t.isLt from rfl, PhiS1_succ, outsAt1_eq]

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]
/-- Where the third part runs the output's buffer is left at what it stored. -/
theorem leaves1_3_live (c : Dev nD) (t : Fin cfg1.N) (h2 : isDiag (grid1.coords t)) :
    (dat1 V c).leavesExact 3 t = owns (c : Thread nD τ) (ms1_3 t) fullShare (stepAt V c t (prevSt V c t)).1 := by
  unfold Dat.leavesExact; rw [live1_3 t h2, after1_3, outsAt1_eq]
/-- Where it does not run and the block is not written back, the buffer is handed back as found. -/
theorem leaves1_3_idle (c : Dev nD) (t : Fin cfg1.N) (h2 : ¬isDiag (grid1.coords t)) (hf : (cfg1.win 3).flush t = false) :
    (dat1 V c).leavesExact 3 t = iprop(∃ d, owns (c : Thread nD τ) (ms1_3 t) fullShare ((dat1 V c).before 3 t d)) :=
  Dat.leavesExact_idle (dat1 V c) 3 t (idle1_3 t h2) hf
/-- Where it does not run and the block IS written back, the buffer must hold what the proof data names. -/
theorem leaves1_3_flush (c : Dev nD) (t : Fin cfg1.N) (h2 : ¬isDiag (grid1.coords t)) (hf : (cfg1.win 3).flush t = true) :
    (dat1 V c).leavesExact 3 t = owns (c : Thread nD τ) (ms1_3 t) fullShare (stepAt V c t (prevSt V c t)).1 := by
  unfold Dat.leavesExact; rw [idle1_3 t h2, hf, after1_3, outsAt1_eq]

set_option maxHeartbeats 8000000 in
/-- The body at any point. The guards that hold there select the run. A point with kb = 0 takes the running
    buffers at whatever they hold (it resets them); any other point takes them at what the point before left. Every
    point leaves them at this point's contents. The output buffer is stored where kb = qb, and handed back as found
    elsewhere — which after kb = 3 > qb is what the point kb = qb stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, leaves1_0, leaves1_1, leaves1_2]
  have hN : t.val < 128 := lt_of_lt_of_eq t.isLt N_1
  by_cases h0 : isFirst (grid1.coords t)
  · have h1 := causal_of_first t h0
    have h0' := (isFirst_iff t).mp h0
    by_cases h2 : isDiag (grid1.coords t)
    · -- kb = 0 = qb
      rw [leaves1_3_live V c t h2, stepAt_A V c t _ h0 h2]
      unfold stA PhiAt; dsimp only
      have hΦ : (dat1 V c).Φ t.castSucc ⊢ (iprop(others1 c ∗ (∃ d, owns (c : Thread nD τ) scMax fullShare d) ∗ (∃ d, owns (c : Thread nD τ) scDen fullShare d) ∗ (∃ d, owns (c : Thread nD τ) scNum fullShare d) ∗ ∃ r, prngReg c r) : sProp 𝕄) := Phi1_any V c t
      iintro ⟨HP, Ho, ⟨%d0, H0⟩, ⟨%d1, H1⟩, ⟨%d2, H2⟩, ⟨%d3, H3⟩⟩
      ihave HP' := hΦ $$ HP
      icases HP' with ⟨HB, HS0, HS1, HS2, Hg⟩
      iapply ((kernelRun1_A c (grid1.coords t) _ _ _ _ _ _ _ _ _ _ _ _ _ _ h0 h1 h2 (iblk1 V c 0 t) (iblk1 V c 1 t) (iblk1 V c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HB HS0 HS1 HS2 Hg]
      · isplitl [HB]; · iexact HB
        isplitl [HS0]; · iapply (owns_of_pieces c _ _ (fun y => coverA_max _ _ _ _ _ _ _ _ _ _ _ _ _ _ _ _ _ _ _ _ _ _ y)); iexact HS0
        isplitl [HS1]; · iapply (owns_of_pieces c _ _ (fun y => coverA_den _ _ _ _ _ _ _ _ _ _ _ _ _ _ _ _ _ _ _ _ _ _ y)); iexact HS1
        isplitl [HS2]; · iapply (owns_of_pieces c _ _ (fun y => coverA_num _ _ _ _ _ _ _ _ _ _ _ _ _ _ _ _ _ _ _ _ _ _ y)); iexact HS2
        iexact Hg
      isplitl [Ho]; · iexact Ho
      isplitl [H0]; · iexact H0
      isplitl [H1]; · iexact H1
      isplitl [H2]; · iexact H2
      iapply (owns_of_pieces c _ _ (fun y => coverA_out _ _ _ _ _ _ _ _ _ _ _ _ _ _ _ _ _ _ _ _ _ _ y)); iexact H3
    · -- kb = 0 < qb
      have hf : (cfg1.win 3).flush t = false :=
        Bool.eq_false_iff.mpr fun h => by have := (flush1_3 t).mp h; omega
      rw [leaves1_3_idle V c t h2 hf, stepAt_B V c t _ h0 h2]
      unfold stB PhiAt; dsimp only
      have hΦ : (dat1 V c).Φ t.castSucc ⊢ (iprop(others1 c ∗ (∃ d, owns (c : Thread nD τ) scMax fullShare d) ∗ (∃ d, owns (c : Thread nD τ) scDen fullShare d) ∗ (∃ d, owns (c : Thread nD τ) scNum fullShare d) ∗ ∃ r, prngReg c r) : sProp 𝕄) := Phi1_any V c t
      iintro ⟨HP, Ho, ⟨%d0, H0⟩, ⟨%d1, H1⟩, ⟨%d2, H2⟩, ⟨%d3, H3⟩⟩
      ihave HP' := hΦ $$ HP
      icases HP' with ⟨HB, HS0, HS1, HS2, Hg⟩
      iapply ((kernelRun1_B c (grid1.coords t) _ _ _ _ _ _ _ _ _ _ _ _ _ _ h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HB HS0 HS1 HS2 Hg]
      · isplitl [HB]; · iexact HB
        isplitl [HS0]; · iapply (owns_of_pieces c _ _ (fun y => coverB_max _ _ _ _ _ _ _ _ _ _ _ _ _ _ _ _ _ _ _ _ _ _ y)); iexact HS0
        isplitl [HS1]; · iapply (owns_of_pieces c _ _ (fun y => coverB_den _ _ _ _ _ _ _ _ _ _ _ _ _ _ _ _ _ _ _ _ _ _ y)); iexact HS1
        isplitl [HS2]; · iapply (owns_of_pieces c _ _ (fun y => coverB_num _ _ _ _ _ _ _ _ _ _ _ _ _ _ _ _ _ _ _ _ _ _ y)); iexact HS2
        iexact Hg
      isplitl [Ho]; · iexact Ho
      isplitl [H0]; · iexact H0
      isplitl [H1]; · iexact H1
      isplitl [H2]; · iexact H2
      iexists _; iexact H3
  · have h0' : ¬ t.val % 4 = 0 := fun h => h0 ((isFirst_iff t).mpr h)
    have hz : t.val ≠ 0 := by omega
    rw [Phi1_prev V c t hz]
    by_cases h1 : isCausal (grid1.coords t)
    · have h1' := (isCausal_iff t).mp h1
      by_cases h2 : isDiag (grid1.coords t)
      · -- 0 < kb = qb
        rw [leaves1_3_live V c t h2, stepAt_D V c t _ h0 h1 h2]
        unfold stD PhiAt; dsimp only
        iintro ⟨⟨HB, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ h0 h1 h2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iapply (owns_of_pieces c _ _ (fun y => coverD_max _ _ _ _ _ _ _ _ _ _ _ _ _ _ _ _ _ _ _ _ _ _ _ _ _ y)); iexact HS0
          isplitl [HS1]; · iapply (owns_of_pieces c _ _ (fun y => coverD_den _ _ _ _ _ _ _ _ _ _ _ _ _ _ _ _ _ _ _ _ _ _ _ _ _ y)); iexact HS1
          isplitl [HS2]; · iapply (owns_of_pieces c _ _ (fun y => coverD_num _ _ _ _ _ _ _ _ _ _ _ _ _ _ _ _ _ _ _ _ _ _ _ _ _ y)); iexact HS2
          iexact Hg
        isplitl [Ho]; · iexact Ho
        isplitl [H0]; · iexact H0
        isplitl [H1]; · iexact H1
        isplitl [H2]; · iexact H2
        iapply (owns_of_pieces c _ _ (fun y => coverD_out _ _ _ _ _ _ _ _ _ _ _ _ _ _ _ _ _ _ _ _ _ _ _ _ _ y)); iexact H3
      · -- 0 < kb < qb
        have h2' : ¬ t.val % 4 = t.val / 4 % 4 := fun h => h2 ((isDiag_iff t).mpr h)
        have hf : (cfg1.win 3).flush t = false :=
          Bool.eq_false_iff.mpr fun h => by have := (flush1_3 t).mp h; omega
        rw [leaves1_3_idle V c t h2 hf, stepAt_C V c t _ h0 h1 h2]
        unfold stC PhiAt; dsimp only
        iintro ⟨⟨HB, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ h0 h1 h2 (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iapply (owns_of_pieces c _ _ (fun y => coverC_max _ _ _ _ _ _ _ _ _ _ _ _ _ _ _ _ _ _ _ _ _ _ _ _ _ y)); iexact HS0
          isplitl [HS1]; · iapply (owns_of_pieces c _ _ (fun y => coverC_den _ _ _ _ _ _ _ _ _ _ _ _ _ _ _ _ _ _ _ _ _ _ _ _ _ y)); iexact HS1
          isplitl [HS2]; · iapply (owns_of_pieces c _ _ (fun y => coverC_num _ _ _ _ _ _ _ _ _ _ _ _ _ _ _ _ _ _ _ _ _ _ _ _ _ y)); iexact HS2
          iexact Hg
        isplitl [Ho]; · iexact Ho
        isplitl [H0]; · iexact H0
        isplitl [H1]; · iexact H1
        isplitl [H2]; · iexact H2
        iexists _; iexact H3
    · -- kb > qb: nothing runs
      have h2 : ¬isDiag (grid1.coords t) := fun h => h1 (causal_of_diag t h)
      rw [stepAt_E V c t _ h0 h1]
      unfold PhiAt
      by_cases hf : (cfg1.win 3).flush t = true
      · rw [leaves1_3_flush V c t h2 hf, stepAt_E V c t _ h0 h1]
        simp only [before1_3_E V c t.val t.isLt h1]
        iintro ⟨⟨HB, HS0, HS1, HS2, Hg⟩, Ho, ⟨%d0, H0⟩, ⟨%d1, H1⟩, ⟨%d2, H2⟩, ⟨%d3, H3⟩⟩
        iapply (kernelRun1_E c (grid1.coords t) _ _ _ _ _ _ _ _ _ _ _ _ _ _ h0 h1 h2 (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexact H3
      · rw [leaves1_3_idle V c t h2 ((Bool.not_eq_true _).mp hf)]
        iintro ⟨⟨HB, HS0, HS1, HS2, Hg⟩, Ho, ⟨%d0, H0⟩, ⟨%d1, H1⟩, ⟨%d2, H2⟩, ⟨%d3, H3⟩⟩
        iapply (kernelRun1_E c (grid1.coords t) _ _ _ _ _ _ _ _ _ _ _ _ _ _ h0 h1 h2 (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HB HS0 HS1 HS2 Hg]
        · isplitl [HB]; · iexact HB
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the running buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  exact (PhiAt_any c _).trans (PhiA1_close c)

end Cert.KernelIdeal.Hand

end
-- ==== Proof.KI.Frame.lean ====
/-
  The whole program's frame from its two kernels' halves: the buffers' contents at each boundary of @main, the proof
  data of both pipelines at their entry contents, each kernel region as a segment entered from every unscoped buffer
  at the boundary's contents and left at the next boundary's, and the launch over the four segments (host lines,
  projection kernel, host lines, attention kernel).
-/
import proofs.«109232_j17575006175501_2_alg».proof.Proof.KI.Region0
import proofs.«109232_j17575006175501_2_alg».proof.Proof.KI.R1Body
import proofs.«109232_j17575006175501_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the boundaries -/

/-- The buffers as the projection kernel finds them: after the host lines before it. -/
abbrev E0 (c : Dev nD) (b : Ref sig .tc) : Buf (Elt F) ((c : Thread nD τ).loc b) := V1 m c b

/-- What the projection kernel leaves: its arrays at what its write-backs made them, every other buffer as found. -/
def W2 (c : Dev nD) : Valuation τ sig (Elt F) :=
  Pipeline.withArrays spec0 c (V1 m c) fun w => (dat0 (E0 m) c).arrAt w cfg0.N

/-- The regions' results, first stage: the projection kernel's. -/
def outsA : Outs (F := F) := fun _ r c => W2 m c r

/-- The buffers as the attention kernel finds them: after the host lines between the kernels. -/
abbrev E1 (c : Dev nD) (b : Ref sig .tc) : Buf (Elt F) ((c : Thread nD τ).loc b) := V3 m (outsA m) c b

/-- What the attention kernel leaves. -/
def W4 (c : Dev nD) : Valuation τ sig (Elt F) :=
  Pipeline.withArrays spec1 c (V3 m (outsA m) c) fun w => (dat1 (E1 m) c).arrAt w cfg1.N

/-- The regions' results: after the projection kernel (item 2) its arrays, after the attention kernel (item 4) its. -/
def outsB : Outs (F := F) := fun J r c => if J = 4 then W4 m c r else W2 m c r

theorem outsB_two (r : Ref sig .tc) (c : Dev nD) : outsB m 2 r c = W2 m c r := if_neg (by decide)
theorem outsB_four (r : Ref sig .tc) (c : Dev nD) : outsB m 4 r c = W4 m c r := if_pos rfl

theorem V2_outs (c : Dev nD) : V2 m (outsB m) c = V2 m (outsA m) c := by
  simp only [V2, outsB_two, outsA]
theorem V3_outs (c : Dev nD) : V3 m (outsB m) c = V3 m (outsA m) c := by
  unfold V3; rw [V2_outs]

theorem V2_at_v5_0 (outs : Outs (F := F)) (c : Dev nD) : V2 m outs c main_v5_0 = outs 2 main_v5_0 c := by
  simp only [V2,
    Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1),
    Function.update_self]
theorem V2_at_v5_1 (outs : Outs (F := F)) (c : Dev nD) : V2 m outs c main_v5_1 = outs 2 main_v5_1 c := by
  simp only [V2,
    Function.update_of_ne (StableHlo.devRef_ne_of_ne (by decide) : (Proc.devRef .tc main_v5_1 : DevRef τ sig) ≠ Proc.devRef .tc main_v5_2),
    Function.update_self]
theorem V2_at_v5_2 (outs : Outs (F := F)) (c : Dev nD) : V2 m outs c main_v5_2 = outs 2 main_v5_2 c := by
  simp only [V2, Function.update_self]
theorem V4_at_v9 (outs : Outs (F := F)) (c : Dev nD) : V4 m outs c main_v9 = outs 4 main_v9 c := by
  simp only [V4, Function.update_self]

/-- An array the projection pipeline only reads ends as it was found. -/
theorem arr0_in (c : Dev nD) (w : Fin cfg0.W) (hw : (cfg0.win w).isOut = false) :
    (dat0 (E0 m) c).arrAt w cfg0.N = V1 m c (Pipeline.arrRef spec0 w) :=
  ((dat0 (E0 m) c).arrAt_in w hw _).trans (A_eq0 (E0 m) c w)
/-- An array the attention pipeline only reads ends as it was found. -/
theorem arr1_in (c : Dev nD) (w : Fin cfg1.W) (hw : (cfg1.win w).isOut = false) :
    (dat1 (E1 m) c).arrAt w cfg1.N = V3 m (outsA m) c (Pipeline.arrRef spec1 w) :=
  ((dat1 (E1 m) c).arrAt_in w hw _).trans (A_eq1 (E1 m) c w)

/-- After the projection kernel each of its arrays holds what the pipeline leaves, -/
theorem hF0 (c : Dev nD) (w : Fin cfg0.W) : (dat0 (E0 m) c).arrAt w cfg0.N = V2 m (outsB m) c (Pipeline.arrRef spec0 w) := by
  match w with
  | ⟨0, _⟩ => exact (arr0_in m c 0 rfl).trans (V2_of m (outsB m) c main_v4 (by decide)).symm
  | ⟨1, _⟩ => exact (arr0_in m c 1 rfl).trans (V2_of m (outsB m) c main_v1 (by decide)).symm
  | ⟨2, _⟩ => exact (arr0_in m c 2 rfl).trans (V2_of m (outsB m) c main_v2 (by decide)).symm
  | ⟨3, _⟩ => exact (arr0_in m c 3 rfl).trans (V2_of m (outsB m) c main_v3 (by decide)).symm
  | ⟨4, _⟩ => exact ((Pipeline.withArrays_arr spec0 launch0.win.arr_inj c _ _ 4).symm.trans (outsB_two m main_v5_0 c).symm).trans (V2_at_v5_0 m (outsB m) c).symm
  | ⟨5, _⟩ => exact ((Pipeline.withArrays_arr spec0 launch0.win.arr_inj c _ _ 5).symm.trans (outsB_two m main_v5_1 c).symm).trans (V2_at_v5_1 m (outsB m) c).symm
  | ⟨6, _⟩ => exact ((Pipeline.withArrays_arr spec0 launch0.win.arr_inj c _ _ 6).symm.trans (outsB_two m main_v5_2 c).symm).trans (V2_at_v5_2 m (outsB m) c).symm
/-- and every other buffer what it held. -/
theorem hrest0 (c : Dev nD) : ∀ b, b ∉ Finset.univ.image (Pipeline.arrRef spec0) → V2 m (outsB m) c b = V1 m c b :=
  fun b hb => V2_of m (outsB m) c b fun h => by
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- After the attention kernel each of its arrays holds what the pipeline leaves, -/
theorem hF1 (c : Dev nD) (w : Fin cfg1.W) : (dat1 (E1 m) c).arrAt w cfg1.N = V4 m (outsB m) c (Pipeline.arrRef spec1 w) := by
  match w with
  | ⟨0, _⟩ => exact (arr1_in m c 0 rfl).trans ((V4_of m (outsB m) c main_v6 (by decide)).trans (congrFun (V3_outs m c) _)).symm
  | ⟨1, _⟩ => exact (arr1_in m c 1 rfl).trans ((V4_of m (outsB m) c main_v7 (by decide)).trans (congrFun (V3_outs m c) _)).symm
  | ⟨2, _⟩ => exact (arr1_in m c 2 rfl).trans ((V4_of m (outsB m) c main_v8 (by decide)).trans (congrFun (V3_outs m c) _)).symm
  | ⟨3, _⟩ => exact ((Pipeline.withArrays_arr spec1 launch1.win.arr_inj c _ _ 3).symm.trans (outsB_four m main_v9 c).symm).trans (V4_at_v9 m (outsB m) c).symm
/-- and every other buffer what it held. -/
theorem hrest1 (c : Dev nD) : ∀ b, b ∉ Finset.univ.image (Pipeline.arrRef spec1) → V4 m (outsB m) c b = V3 m (outsA m) c b :=
  fun b hb => (V4_of m (outsB m) c b fun h => by
    simp only [List.mem_cons, List.mem_nil_iff, or_false] at h
    rcases h with rfl
    exact hb (Finset.mem_image.mpr ⟨3, Finset.mem_univ _, rfl⟩)).trans (congrFun (V3_outs m c) _)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## The two kernel regions as segments -/

set_option backward.isDefEq.respectTransparency.types false in
/-- The projection kernel's region: entered from every unscoped buffer at the contents after the first host lines,
    left at those contents with its three result arrays at what its write-backs made them. Its arrays are split out of
    the unscoped buffers at entry and put back at exit; the generator register goes into the pipeline's invariant and
    comes back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsB m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V2 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at the contents after the host lines between
    the kernels, left at those contents with the result array at what the write-backs made it. The invariant takes the
    generator register and the kernel's scratch buffers at the first point and gives them back after the last. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsB m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V4 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The program's run: every weakly fair execution of @main from any memory with zero counters terminates without a
  fault, the result array ends at what the attention kernel's write-backs leave in it, and the four argument arrays end as launched.
-/
import proofs.«109232_j17575006175501_2_alg».proof.Proof.KI.Frame
import proofs.«109232_j17575006175501_2_alg».proof.Proof.KI.RegionsV

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four segments: the two kernel regions' records, the host lines between them, the generator
    register and an empty debt riding along; at the end every unscoped buffer is read off the last boundary's contents. -/
theorem run_main : θ_run defs (onTc (τ := τ) (main (F := F))) ⟨m, fun _ => 0, ρ⟩ (fun r => ∀ c : Dev nD,
      r.2.mem ((c.tc : Thread nD τ).loc main_v9) = V4 m (outsB m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond_v m emb₁ () Variants.none Lz lvz (fun _ _ => rfl) ρ (outsB m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .of_eq (by rw [V3_outs]; rfl)) (hpost1 := fun c => .rfl)

/-- The frame claim's statement at any `F`: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KI.R1Pieces.lean ====
/-
  What the attention kernel's four buffers hold after a grid point, in the body's own arithmetic.

  A point runs up to three parts. The reset stores `-∞` into the running maximum and zero into the running
  denominator and numerator. The fold reads the running values, the query block and the key and value blocks, and
  stores: the new maximum (the old one against this block's largest masked score); the old denominator rescaled
  by `exp (old maximum - new maximum)` plus this block's weights `exp (score - new maximum)`; the old numerator
  rescaled the same way plus the weights times the value block. The last part reads the numerator and denominator
  back and stores their quotient as the output block. Every store spans its whole buffer, so after the point each
  buffer holds exactly the value of the last store into it, and a read that follows a store reads that value.

  Below, for each of the four combinations of parts that occur, each buffer's contents are identified with the
  corresponding arithmetic term of the body (the reset values, the fold of the running values, the quotient).
-/
import proofs.«109232_j17575006175501_2_alg».proof.Proof.KI.R1Cover
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F] [Named F]

/-- The offset `(0, 0)` of every access to the running values. -/
theorem zero2 : (![0, 0] : Fin 2 → Nat) = fun _ => 0 := funext fun a => by fin_cases a <;> rfl
/-- The offset `(0, 0, 0)` of every access to a block of the arrays. -/
theorem zero3 : (![0, 0, 0] : Fin 3 → Nat) = fun _ => 0 := funext fun a => by fin_cases a <;> rfl

/-! ## A fold alone (0 < kb < qb)

The second part alone runs: from the running maximum `m`, denominator `l` and numerator `acc` the point before left it
stores the new maximum, the rescaled denominator plus this block's weights, and the rescaled numerator plus this
block's weighted values. Each is one store over the whole buffer, so the buffer holds exactly the stored value. -/

theorem runC_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : ¬isDiag i)
    (x0 x1 x2 : Vec F S1x512x1024 .bf16) (xs0 xs1 : Vec F S512x1 .f32) (xs2 : Vec F S512x1024 .f32) :
    View.canon (kernelRun1_C c i arg3 harg3 arg4 harg4 arg5 harg5 arg6 harg6 arg7 harg7 arg8 harg8 arg9 harg9 hc0 hc1 hc2 x0 x1 x2 xs0 xs1 xs2).1
      = k1_pay5 (k1_pay9 (BitVec.ofNat 32 (i 1).val) (BitVec.ofNat 32 (i 2).val) x0 x1 xs0) := by
  unfold kernelRun1_C
  dsimp only
  sl_unfold_words
  rw [View.canon_unit_zero zero2]
  simp only [View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runC_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : ¬isDiag i)
    (x0 x1 x2 : Vec F S1x512x1024 .bf16) (xs0 xs1 : Vec F S512x1 .f32) (xs2 : Vec F S512x1024 .f32) :
    View.canon (kernelRun1_C c i arg3 harg3 arg4 harg4 arg5 harg5 arg6 harg6 arg7 harg7 arg8 harg8 arg9 harg9 hc0 hc1 hc2 x0 x1 x2 xs0 xs1 xs2).2.1
      = k1_pay12 (BitVec.ofNat 32 (i 1).val) (BitVec.ofNat 32 (i 2).val) x0 x1 xs0 xs1 := by
  unfold kernelRun1_C
  dsimp only
  sl_unfold_words
  rw [View.canon_unit_zero zero2]
  simp only [View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runC_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : ¬isDiag i)
    (x0 x1 x2 : Vec F S1x512x1024 .bf16) (xs0 xs1 : Vec F S512x1 .f32) (xs2 : Vec F S512x1024 .f32) :
    View.canon (kernelRun1_C c i arg3 harg3 arg4 harg4 arg5 harg5 arg6 harg6 arg7 harg7 arg8 harg8 arg9 harg9 hc0 hc1 hc2 x0 x1 x2 xs0 xs1 xs2).2.2.1
      = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold kernelRun1_C
  dsimp only
  sl_unfold_words
  rw [View.canon_unit_zero zero2]
  simp only [View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

/-! ## A fold and the output (0 < kb = qb)

The second part runs as before, and then the third part reads back the numerator and the denominator just stored and
stores their quotient over the whole output block. -/

theorem runD_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    View.canon (kernelRun1_D c i arg3 harg3 arg4 harg4 arg5 harg5 arg6 harg6 arg7 harg7 arg8 harg8 arg9 harg9 hc0 hc1 hc2 x0 x1 x2 xs0 xs1 xs2).2.1
      = k1_pay5 (k1_pay9 (BitVec.ofNat 32 (i 1).val) (BitVec.ofNat 32 (i 2).val) x0 x1 xs0) := by
  unfold kernelRun1_D
  dsimp only
  sl_unfold_words
  rw [View.canon_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runD_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    View.canon (kernelRun1_D c i arg3 harg3 arg4 harg4 arg5 harg5 arg6 harg6 arg7 harg7 arg8 harg8 arg9 harg9 hc0 hc1 hc2 x0 x1 x2 xs0 xs1 xs2).2.2.1
      = k1_pay12 (BitVec.ofNat 32 (i 1).val) (BitVec.ofNat 32 (i 2).val) x0 x1 xs0 xs1 := by
  unfold kernelRun1_D
  dsimp only
  sl_unfold_words
  rw [View.canon_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runD_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    View.canon (kernelRun1_D c i arg3 harg3 arg4 harg4 arg5 harg5 arg6 harg6 arg7 harg7 arg8 harg8 arg9 harg9 hc0 hc1 hc2 x0 x1 x2 xs0 xs1 xs2).2.2.2.1
      = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold kernelRun1_D
  dsimp only
  sl_unfold_words
  rw [View.canon_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runD_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : ¬isFirst i) (hc1 : isCausal i) (hc2 : isDiag i)
    (x0 x1 x2 : Vec F S1x512x1024 .bf16) (xs0 xs1 : Vec F S512x1 .f32) (xs2 : Vec F S512x1024 .f32) :
    View.canon (kernelRun1_D c i arg3 harg3 arg4 harg4 arg5 harg5 arg6 harg6 arg7 harg7 arg8 harg8 arg9 harg9 hc0 hc1 hc2 x0 x1 x2 xs0 xs1 xs2).1
      = k1_pay6 (k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2)
          (k1_pay12 (BitVec.ofNat 32 (i 1).val) (BitVec.ofNat 32 (i 2).val) x0 x1 xs0 xs1) := by
  unfold kernelRun1_D
  dsimp only
  sl_unfold_words
  rw [View.canon_unit_zero zero3]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

/-! ## A reset and a fold (kb = 0 < qb)

The first part stores the reset values (maximum `-∞`, denominator and numerator zero) over the whole of each running
buffer; the second part then reads those back and folds the first key block into them. -/

theorem runB_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : ¬isDiag i)
    (x0 x1 x2 : Vec F S1x512x1024 .bf16) :
    View.canon (kernelRun1_B c i arg3 harg3 arg4 harg4 arg5 harg5 arg6 harg6 arg7 harg7 arg8 harg8 arg9 harg9 hc0 hc1 hc2 x0 x1 x2).1
      = k1_pay5 (k1_pay9 (BitVec.ofNat 32 (i 1).val) (BitVec.ofNat 32 (i 2).val) x0 x1 (k1_pay1 (F := F))) := by
  unfold kernelRun1_B
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runB_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : ¬isDiag i)
    (x0 x1 x2 : Vec F S1x512x1024 .bf16) :
    View.canon (kernelRun1_B c i arg3 harg3 arg4 harg4 arg5 harg5 arg6 harg6 arg7 harg7 arg8 harg8 arg9 harg9 hc0 hc1 hc2 x0 x1 x2).2.1
      = k1_pay12 (BitVec.ofNat 32 (i 1).val) (BitVec.ofNat 32 (i 2).val) x0 x1 (k1_pay1 (F := F)) (k1_pay2 (F := F)) := by
  unfold kernelRun1_B
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runB_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : ¬isDiag i)
    (x0 x1 x2 : Vec F S1x512x1024 .bf16) :
    View.canon (kernelRun1_B c i arg3 harg3 arg4 harg4 arg5 harg5 arg6 harg6 arg7 harg7 arg8 harg8 arg9 harg9 hc0 hc1 hc2 x0 x1 x2).2.2.1
      = k1_pay4 (k1_pay7 x2) (k1_pay10 (BitVec.ofNat 32 (i 1).val) (BitVec.ofNat 32 (i 2).val) x0 x1 (k1_pay1 (F := F))) (k1_pay11 (BitVec.ofNat 32 (i 1).val) (BitVec.ofNat 32 (i 2).val) x0 x1 (k1_pay1 (F := F))) (k1_pay3 (F := F)) := by
  unfold kernelRun1_B
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

/-! ## A reset, a fold and the output (kb = 0 = qb)

All three parts run: reset, fold of the first key block over the reset values, quotient stored. -/

theorem runA_max (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    View.canon (kernelRun1_A c i arg3 harg3 arg4 harg4 arg5 harg5 arg6 harg6 arg7 harg7 arg8 harg8 arg9 harg9 hc0 hc1 hc2 x0 x1 x2).2.1
      = k1_pay5 (k1_pay9 (BitVec.ofNat 32 (i 1).val) (BitVec.ofNat 32 (i 2).val) x0 x1 (k1_pay1 (F := F))) := by
  unfold kernelRun1_A
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runA_den (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    View.canon (kernelRun1_A c i arg3 harg3 arg4 harg4 arg5 harg5 arg6 harg6 arg7 harg7 arg8 harg8 arg9 harg9 hc0 hc1 hc2 x0 x1 x2).2.2.1
      = k1_pay12 (BitVec.ofNat 32 (i 1).val) (BitVec.ofNat 32 (i 2).val) x0 x1 (k1_pay1 (F := F)) (k1_pay2 (F := F)) := by
  unfold kernelRun1_A
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runA_num (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    View.canon (kernelRun1_A c i arg3 harg3 arg4 harg4 arg5 harg5 arg6 harg6 arg7 harg7 arg8 harg8 arg9 harg9 hc0 hc1 hc2 x0 x1 x2).2.2.2.1
      = k1_pay4 (k1_pay7 x2) (k1_pay10 (BitVec.ofNat 32 (i 1).val) (BitVec.ofNat 32 (i 2).val) x0 x1 (k1_pay1 (F := F))) (k1_pay11 (BitVec.ofNat 32 (i 1).val) (BitVec.ofNat 32 (i 2).val) x0 x1 (k1_pay1 (F := F))) (k1_pay3 (F := F)) := by
  unfold kernelRun1_A
  dsimp only
  sl_unfold_words
  rw [View.canon_cons_unit_zero zero2]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

theorem runA_out (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole)
    (hc0 : isFirst i) (hc1 : isCausal i) (hc2 : isDiag i)
    (x0 x1 x2 : Vec F S1x512x1024 .bf16) :
    View.canon (kernelRun1_A c i arg3 harg3 arg4 harg4 arg5 harg5 arg6 harg6 arg7 harg7 arg8 harg8 arg9 harg9 hc0 hc1 hc2 x0 x1 x2).1
      = k1_pay6 (k1_pay4 (k1_pay7 x2) (k1_pay10 (BitVec.ofNat 32 (i 1).val) (BitVec.ofNat 32 (i 2).val) x0 x1 (k1_pay1 (F := F))) (k1_pay11 (BitVec.ofNat 32 (i 1).val) (BitVec.ofNat 32 (i 2).val) x0 x1 (k1_pay1 (F := F))) (k1_pay3 (F := F)))
          (k1_pay12 (BitVec.ofNat 32 (i 1).val) (BitVec.ofNat 32 (i 2).val) x0 x1 (k1_pay1 (F := F)) (k1_pay2 (F := F))) := by
  unfold kernelRun1_A
  dsimp only
  sl_unfold_words
  rw [View.canon_unit_zero zero3]
  simp only [View.readCov_cons_toLoadRect, View.readAt_eq_ld, harg3.read_unread, harg4.read_unread, harg5.read_unread, harg6.read_unread, harg7.read_unread, harg8.read_unread, harg9.read_unread,
    View.ld_unit_zero (S := S1x512x1024) zero3, View.ld_unit_zero (S := S512x1) zero2, View.ld_unit_zero (S := S512x1024) zero2]

/-! ## The same, at a grid point

`stA … stD` are the four buffers after a point of each kind, over the blocks the point is handed and what the point
before left (`prev`: output, maximum, denominator, numerator). -/

variable (V : (c : Dev nD) → (b : Ref sig .tc) → Buf (Elt F) ((c : Thread nD τ).loc b))

/-- After a fold alone: the new running maximum. -/
theorem stC_max (c : Dev nD) (t : Fin cfg1.N) (h0 : ¬isFirst (grid1.coords t)) (h1 : isCausal (grid1.coords t)) (h2 : ¬isDiag (grid1.coords t)) (prev : St1 F) :
    (stC V c t h0 h1 h2 prev).2.1
      = k1_pay5 (k1_pay9 (BitVec.ofNat 32 ((grid1.coords t) 1).val) (BitVec.ofNat 32 ((grid1.coords t) 2).val) (iblk1 V c 0 t) (iblk1 V c 1 t) prev.2.1) := by
  unfold stC
  dsimp only
  have e := runC_max c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold alone: the new running denominator. -/
theorem stC_den (c : Dev nD) (t : Fin cfg1.N) (h0 : ¬isFirst (grid1.coords t)) (h1 : isCausal (grid1.coords t)) (h2 : ¬isDiag (grid1.coords t)) (prev : St1 F) :
    (stC V c t h0 h1 h2 prev).2.2.1
      = k1_pay12 (BitVec.ofNat 32 ((grid1.coords t) 1).val) (BitVec.ofNat 32 ((grid1.coords t) 2).val) (iblk1 V c 0 t) (iblk1 V c 1 t) prev.2.1 prev.2.2.1 := by
  unfold stC
  dsimp only
  have e := runC_den c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold alone: the new running numerator. -/
theorem stC_num (c : Dev nD) (t : Fin cfg1.N) (h0 : ¬isFirst (grid1.coords t)) (h1 : isCausal (grid1.coords t)) (h2 : ¬isDiag (grid1.coords t)) (prev : St1 F) :
    (stC V c t h0 h1 h2 prev).2.2.2
      = k1_pay4 (k1_pay7 (iblk1 V c 2 t)) (k1_pay10 (BitVec.ofNat 32 ((grid1.coords t) 1).val) (BitVec.ofNat 32 ((grid1.coords t) 2).val) (iblk1 V c 0 t) (iblk1 V c 1 t) prev.2.1)
          (k1_pay11 (BitVec.ofNat 32 ((grid1.coords t) 1).val) (BitVec.ofNat 32 ((grid1.coords t) 2).val) (iblk1 V c 0 t) (iblk1 V c 1 t) prev.2.1) prev.2.2.2 := by
  unfold stC
  dsimp only
  have e := runC_num c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- A fold alone leaves the output buffer as it was. -/
theorem stC_out (c : Dev nD) (t : Fin cfg1.N) (h0 : ¬isFirst (grid1.coords t)) (h1 : isCausal (grid1.coords t)) (h2 : ¬isDiag (grid1.coords t)) (prev : St1 F) :
    (stC V c t h0 h1 h2 prev).1 = prev.1 := by
  unfold stC
  dsimp only

/-- After a fold and the output: the new running maximum. -/
theorem stD_max (c : Dev nD) (t : Fin cfg1.N) (h0 : ¬isFirst (grid1.coords t)) (h1 : isCausal (grid1.coords t)) (h2 : isDiag (grid1.coords t)) (prev : St1 F) :
    (stD V c t h0 h1 h2 prev).2.1
      = k1_pay5 (k1_pay9 (BitVec.ofNat 32 ((grid1.coords t) 1).val) (BitVec.ofNat 32 ((grid1.coords t) 2).val) (iblk1 V c 0 t) (iblk1 V c 1 t) prev.2.1) := by
  unfold stD
  dsimp only
  have e := runD_max c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold and the output: the new running denominator. -/
theorem stD_den (c : Dev nD) (t : Fin cfg1.N) (h0 : ¬isFirst (grid1.coords t)) (h1 : isCausal (grid1.coords t)) (h2 : isDiag (grid1.coords t)) (prev : St1 F) :
    (stD V c t h0 h1 h2 prev).2.2.1
      = k1_pay12 (BitVec.ofNat 32 ((grid1.coords t) 1).val) (BitVec.ofNat 32 ((grid1.coords t) 2).val) (iblk1 V c 0 t) (iblk1 V c 1 t) prev.2.1 prev.2.2.1 := by
  unfold stD
  dsimp only
  have e := runD_den c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold and the output: the new running numerator. -/
theorem stD_num (c : Dev nD) (t : Fin cfg1.N) (h0 : ¬isFirst (grid1.coords t)) (h1 : isCausal (grid1.coords t)) (h2 : isDiag (grid1.coords t)) (prev : St1 F) :
    (stD V c t h0 h1 h2 prev).2.2.2
      = k1_pay4 (k1_pay7 (iblk1 V c 2 t)) (k1_pay10 (BitVec.ofNat 32 ((grid1.coords t) 1).val) (BitVec.ofNat 32 ((grid1.coords t) 2).val) (iblk1 V c 0 t) (iblk1 V c 1 t) prev.2.1)
          (k1_pay11 (BitVec.ofNat 32 ((grid1.coords t) 1).val) (BitVec.ofNat 32 ((grid1.coords t) 2).val) (iblk1 V c 0 t) (iblk1 V c 1 t) prev.2.1) prev.2.2.2 := by
  unfold stD
  dsimp only
  have e := runD_num c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold and the output: the output block, from what the point was handed. -/
theorem stD_out_pay (c : Dev nD) (t : Fin cfg1.N) (h0 : ¬isFirst (grid1.coords t)) (h1 : isCausal (grid1.coords t)) (h2 : isDiag (grid1.coords t)) (prev : St1 F) :
    (stD V c t h0 h1 h2 prev).1
      = k1_pay6 (k1_pay4 (k1_pay7 (iblk1 V c 2 t)) (k1_pay10 (BitVec.ofNat 32 ((grid1.coords t) 1).val) (BitVec.ofNat 32 ((grid1.coords t) 2).val) (iblk1 V c 0 t) (iblk1 V c 1 t) prev.2.1)
          (k1_pay11 (BitVec.ofNat 32 ((grid1.coords t) 1).val) (BitVec.ofNat 32 ((grid1.coords t) 2).val) (iblk1 V c 0 t) (iblk1 V c 1 t) prev.2.1) prev.2.2.2)
          (k1_pay12 (BitVec.ofNat 32 ((grid1.coords t) 1).val) (BitVec.ofNat 32 ((grid1.coords t) 2).val) (iblk1 V c 0 t) (iblk1 V c 1 t) prev.2.1 prev.2.2.1) := by
  unfold stD
  dsimp only
  have e := runD_out c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t) prev.2.1 prev.2.2.1 prev.2.2.2
  exact e

/-- After a fold and the output: the output block is the new numerator over the new denominator. -/
theorem stD_out (c : Dev nD) (t : Fin cfg1.N) (h0 : ¬isFirst (grid1.coords t)) (h1 : isCausal (grid1.coords t)) (h2 : isDiag (grid1.coords t)) (prev : St1 F) :
    (stD V c t h0 h1 h2 prev).1 = k1_pay6 (stD V c t h0 h1 h2 prev).2.2.2 (stD V c t h0 h1 h2 prev).2.2.1 := by
  rw [stD_num V c t h0 h1 h2 prev, stD_den V c t h0 h1 h2 prev]
  exact stD_out_pay V c t h0 h1 h2 prev

/-- After a reset and a fold: the running maximum. -/
theorem stB_max (c : Dev nD) (t : Fin cfg1.N) (h0 : isFirst (grid1.coords t)) (h1 : isCausal (grid1.coords t)) (h2 : ¬isDiag (grid1.coords t)) (prev : St1 F) :
    (stB V c t h0 h1 h2 prev).2.1
      = k1_pay5 (k1_pay9 (BitVec.ofNat 32 ((grid1.coords t) 1).val) (BitVec.ofNat 32 ((grid1.coords t) 2).val) (iblk1 V c 0 t) (iblk1 V c 1 t) (k1_pay1 (F := F))) := by
  unfold stB
  dsimp only
  have e := runB_max c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset and a fold: the running denominator. -/
theorem stB_den (c : Dev nD) (t : Fin cfg1.N) (h0 : isFirst (grid1.coords t)) (h1 : isCausal (grid1.coords t)) (h2 : ¬isDiag (grid1.coords t)) (prev : St1 F) :
    (stB V c t h0 h1 h2 prev).2.2.1
      = k1_pay12 (BitVec.ofNat 32 ((grid1.coords t) 1).val) (BitVec.ofNat 32 ((grid1.coords t) 2).val) (iblk1 V c 0 t) (iblk1 V c 1 t) (k1_pay1 (F := F)) (k1_pay2 (F := F)) := by
  unfold stB
  dsimp only
  have e := runB_den c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset and a fold: the running numerator. -/
theorem stB_num (c : Dev nD) (t : Fin cfg1.N) (h0 : isFirst (grid1.coords t)) (h1 : isCausal (grid1.coords t)) (h2 : ¬isDiag (grid1.coords t)) (prev : St1 F) :
    (stB V c t h0 h1 h2 prev).2.2.2
      = k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F)))
          (k1_pay11 (BitVec.ofNat 32 ((grid1.coords t) 1).val) (BitVec.ofNat 32 ((grid1.coords t) 2).val) (iblk1 V c 0 t) (iblk1 V c 1 t) (k1_pay1 (F := F))) (k1_pay3 (F := F)) := by
  unfold stB
  dsimp only
  have e := runB_num c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- A reset and a fold leave the output buffer as it was. -/
theorem stB_out (c : Dev nD) (t : Fin cfg1.N) (h0 : isFirst (grid1.coords t)) (h1 : isCausal (grid1.coords t)) (h2 : ¬isDiag (grid1.coords t)) (prev : St1 F) :
    (stB V c t h0 h1 h2 prev).1 = prev.1 := by
  unfold stB
  dsimp only

/-- After a reset, a fold and the output: the running maximum. -/
theorem stA_max (c : Dev nD) (t : Fin cfg1.N) (h0 : isFirst (grid1.coords t)) (h1 : isCausal (grid1.coords t)) (h2 : isDiag (grid1.coords t)) :
    (stA V c t h0 h1 h2).2.1
      = k1_pay5 (k1_pay9 (BitVec.ofNat 32 ((grid1.coords t) 1).val) (BitVec.ofNat 32 ((grid1.coords t) 2).val) (iblk1 V c 0 t) (iblk1 V c 1 t) (k1_pay1 (F := F))) := by
  unfold stA
  dsimp only
  have e := runA_max c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset, a fold and the output: the running denominator. -/
theorem stA_den (c : Dev nD) (t : Fin cfg1.N) (h0 : isFirst (grid1.coords t)) (h1 : isCausal (grid1.coords t)) (h2 : isDiag (grid1.coords t)) :
    (stA V c t h0 h1 h2).2.2.1
      = k1_pay12 (BitVec.ofNat 32 ((grid1.coords t) 1).val) (BitVec.ofNat 32 ((grid1.coords t) 2).val) (iblk1 V c 0 t) (iblk1 V c 1 t) (k1_pay1 (F := F)) (k1_pay2 (F := F)) := by
  unfold stA
  dsimp only
  have e := runA_den c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset, a fold and the output: the running numerator. -/
theorem stA_num (c : Dev nD) (t : Fin cfg1.N) (h0 : isFirst (grid1.coords t)) (h1 : isCausal (grid1.coords t)) (h2 : isDiag (grid1.coords t)) :
    (stA V c t h0 h1 h2).2.2.2
      = k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F)))
          (k1_pay11 (BitVec.ofNat 32 ((grid1.coords t) 1).val) (BitVec.ofNat 32 ((grid1.coords t) 2).val) (iblk1 V c 0 t) (iblk1 V c 1 t) (k1_pay1 (F := F))) (k1_pay3 (F := F)) := by
  unfold stA
  dsimp only
  have e := runA_num c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset, a fold and the output: the output block, from what the point was handed. -/
theorem stA_out_pay (c : Dev nD) (t : Fin cfg1.N) (h0 : isFirst (grid1.coords t)) (h1 : isCausal (grid1.coords t)) (h2 : isDiag (grid1.coords t)) :
    (stA V c t h0 h1 h2).1
      = k1_pay6 (k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F)))
          (k1_pay11 (BitVec.ofNat 32 ((grid1.coords t) 1).val) (BitVec.ofNat 32 ((grid1.coords t) 2).val) (iblk1 V c 0 t) (iblk1 V c 1 t) (k1_pay1 (F := F))) (k1_pay3 (F := F)))
          (k1_pay12 (BitVec.ofNat 32 ((grid1.coords t) 1).val) (BitVec.ofNat 32 ((grid1.coords t) 2).val) (iblk1 V c 0 t) (iblk1 V c 1 t) (k1_pay1 (F := F)) (k1_pay2 (F := F))) := by
  unfold stA
  dsimp only
  have e := runA_out c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) h0 h1 h2 (iblk1 V c 0 t) (iblk1 V c 1 t) (iblk1 V c 2 t)
  exact e

/-- After a reset, a fold and the output: the output block is the numerator over the denominator. -/
theorem stA_out (c : Dev nD) (t : Fin cfg1.N) (h0 : isFirst (grid1.coords t)) (h1 : isCausal (grid1.coords t)) (h2 : isDiag (grid1.coords t)) :
    (stA V c t h0 h1 h2).1 = k1_pay6 (stA V c t h0 h1 h2).2.2.2 (stA V c t h0 h1 h2).2.2.1 := by
  rw [stA_num V c t h0 h1 h2, stA_den V c t h0 h1 h2]
  exact stA_out_pay V c t h0 h1 h2

end Cert.KernelIdeal.Hand

end
-- ==== Proof.KI.R1Blocks.lean ====
/-
  The attention kernel's blocks, and its output array from the blocks it writes back.

  The grid is [8, 4, 4] with the last coordinate fastest: point t is batch b = t / 16, query block qb = t / 4 % 4,
  key block kb = t % 4. Every block is one batch's 512 consecutive positions, all 1024 features, of an
  [8, 2048, 1024] array; an element of the block with block index (x, y, 0) sits in the array at batch x,
  position y · 512 + its row, its own feature. The query block and the output block have index (b, qb, 0); the key
  and value blocks have index (b, min kb qb, 0).

  The output block of (b, qb) is written back at the points with kb = 3. Index (b, s, f) of the output array lies
  in the block written back at the point b · 16 + (s / 512) · 4 + 3, so these blocks cover the array, and when what
  each of them writes is the corresponding block of one function G of the index, the array ends holding G.
-/
import proofs.«109232_j17575006175501_2_alg».proof.Proof.KI.R1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-! ## The grid and the block indices at a point -/

/-- Point t of the grid is (t / 16, t / 4 % 4, t % 4). -/
theorem coords1 : ∀ t : Fin cfg1.N, ((grid1.coords t) 0).val = t.val / 16 ∧ ((grid1.coords t) 1).val = t.val / 4 % 4
    ∧ ((grid1.coords t) 2).val = t.val % 4 :=
  (by decide +kernel : ∀ t : Fin grid1.N, ((grid1.coords t) 0).val = t.val / 16 ∧ ((grid1.coords t) 1).val = t.val / 4 % 4
    ∧ ((grid1.coords t) 2).val = t.val % 4)

/-- The four windows' block indices at point t: (b, qb, 0) for the queries and the output, (b, min kb qb, 0) for the
    keys and the values. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- The grid has 8 · 4 · 4 = 128 points. -/
theorem N1 : cfg1.N = 128 := N_1
theorem lt128 (t : Fin cfg1.N) : t.val < 128 := Nat.lt_of_lt_of_eq t.isLt N1

variable (V : (c : Dev nD) → (b : Ref sig .tc) → Buf (Elt Ideal) ((c : Thread nD τ).loc b))

/-! ## The input blocks at an index -/

/-- Row r of the query block at point t is position qb · 512 + r of batch b of the query array. -/
theorem iblk1_0_apply (c : Dev nD) (t : Fin cfg1.N) (r : Fin 512) (d : Fin 1024) :
    iblk1 V c 0 t (ValueIdx.ix3 (0 : Fin 1) r d)
      = (V c main_v6 : S8x2048x1024.Idx → EReal)
          (ValueIdx.ix3 (⟨t.val / 16, by have := lt128 t; omega⟩ : Fin 8)
            (⟨(t.val / 4 % 4) * 512 + r.val, by omega⟩ : Fin 2048) d) := by
  obtain ⟨a0, a1, a2, b0, b1, b2, c0, c1, c2, -⟩ := idx_facts1 t
  show V c main_v6 (((cfg1.win 0).blk t).view.emb (ValueIdx.ix3 (0 : Fin 1) r d)) = _
  refine congrArg (V c main_v6 : S8x2048x1024.Idx → EReal) ?_
  funext a; apply Fin.ext
  match a with
  | ⟨0, _⟩ => show win1_0.index t (0 : Fin 3) * 1 + 1 * 0 = t.val / 16; omega
  | ⟨1, _⟩ => show win1_0.index t (1 : Fin 3) * 512 + 1 * r.val = (t.val / 4 % 4) * 512 + r.val; omega
  | ⟨2, _⟩ => show win1_0.index t (2 : Fin 3) * 1024 + 1 * d.val = d.val; omega

/-- Row r of the key block at point t is position (min kb qb) · 512 + r of batch b of the key array. -/
theorem iblk1_1_apply (c : Dev nD) (t : Fin cfg1.N) (r : Fin 512) (d : Fin 1024) :
    iblk1 V c 1 t (ValueIdx.ix3 (0 : Fin 1) r d)
      = (V c main_v7 : S8x2048x1024.Idx → EReal)
          (ValueIdx.ix3 (⟨t.val / 16, by have := lt128 t; omega⟩ : Fin 8)
            (⟨(min (t.val % 4) (t.val / 4 % 4)) * 512 + r.val, by omega⟩ : Fin 2048) d) := by
  obtain ⟨a0, a1, a2, b0, b1, b2, c0, c1, c2, -⟩ := idx_facts1 t
  show V c main_v7 (((cfg1.win 1).blk t).view.emb (ValueIdx.ix3 (0 : Fin 1) r d)) = _
  refine congrArg (V c main_v7 : S8x2048x1024.Idx → EReal) ?_
  funext a; apply Fin.ext
  match a with
  | ⟨0, _⟩ => show win1_1.index t (0 : Fin 3) * 1 + 1 * 0 = t.val / 16; omega
  | ⟨1, _⟩ => show win1_1.index t (1 : Fin 3) * 512 + 1 * r.val = (min (t.val % 4) (t.val / 4 % 4)) * 512 + r.val; omega
  | ⟨2, _⟩ => show win1_1.index t (2 : Fin 3) * 1024 + 1 * d.val = d.val; omega

/-- Row r of the value block at point t is position (min kb qb) · 512 + r of batch b of the value array. -/
theorem iblk1_2_apply (c : Dev nD) (t : Fin cfg1.N) (r : Fin 512) (d : Fin 1024) :
    iblk1 V c 2 t (ValueIdx.ix3 (0 : Fin 1) r d)
      = (V c main_v8 : S8x2048x1024.Idx → EReal)
          (ValueIdx.ix3 (⟨t.val / 16, by have := lt128 t; omega⟩ : Fin 8)
            (⟨(min (t.val % 4) (t.val / 4 % 4)) * 512 + r.val, by omega⟩ : Fin 2048) d) := by
  obtain ⟨a0, a1, a2, b0, b1, b2, c0, c1, c2, -⟩ := idx_facts1 t
  show V c main_v8 (((cfg1.win 2).blk t).view.emb (ValueIdx.ix3 (0 : Fin 1) r d)) = _
  refine congrArg (V c main_v8 : S8x2048x1024.Idx → EReal) ?_
  funext a; apply Fin.ext
  match a with
  | ⟨0, _⟩ => show win1_2.index t (0 : Fin 3) * 1 + 1 * 0 = t.val / 16; omega
  | ⟨1, _⟩ => show win1_2.index t (1 : Fin 3) * 512 + 1 * r.val = (min (t.val % 4) (t.val / 4 % 4)) * 512 + r.val; omega
  | ⟨2, _⟩ => show win1_2.index t (2 : Fin 3) * 1024 + 1 * d.val = d.val; omega

/-! ## The output array from its write-backs -/

/-- What a writing-back point writes is its block of G, when the staging buffer holds G's values row by row. -/
theorem flushed3_eq (c : Dev nD) (G : S8x2048x1024.Idx → EReal)
    (hG : ∀ (t : Fin cfg1.N), t.val % 4 = 3 → ∀ (r : Fin 512) (cc : Fin 1024),
      (dat1 V c).after 3 t (ValueIdx.ix3 (0 : Fin 1) r cc)
        = G (ValueIdx.ix3 (⟨t.val / 16, by have := lt128 t; omega⟩ : Fin 8) (⟨(t.val / 4 % 4) * 512 + r.val, by omega⟩ : Fin 2048) cc))
    (t : Fin cfg1.N) (hf : (cfg1.win 3).flush t = true) :
    (dat1 V c).flushed 3 t = ((cfg1.win 3).blk t).view.read (Elt Ideal) G := by
  have h3 : t.val % 4 = 3 := (flush1_3 t).mp hf
  obtain ⟨-, -, -, -, -, -, -, -, -, e0, e1, e2⟩ := idx_facts1 t
  funext j
  revert j
  show ∀ j : S1x512x1024.Idx, (dat1 V c).after 3 t j = G (((cfg1.win 3).blk t).view.emb j)
  intro j
  obtain ⟨q, r, cc, rfl⟩ : ∃ (q : Fin 1) (r : Fin 512) (cc : Fin 1024), j = ValueIdx.ix3 q r cc :=
    ⟨j 0, j 1, j 2, ValueIdx.eq_ix3 j⟩
  obtain rfl : q = 0 := Subsingleton.elim _ _
  rw [hG t h3 r cc]
  refine congrArg G ?_
  funext a; apply Fin.ext
  match a with
  | ⟨0, _⟩ => show t.val / 16 = win1_3.index t (0 : Fin 3) * 1 + 1 * 0; omega
  | ⟨1, _⟩ => show (t.val / 4 % 4) * 512 + r.val = win1_3.index t (1 : Fin 3) * 512 + 1 * r.val; omega
  | ⟨2, _⟩ => show cc.val = win1_3.index t (2 : Fin 3) * 1024 + 1 * cc.val; omega

/-- An index of the output array is in point t's block iff each coordinate is in the block's range on its axis. -/
theorem mem_blk3 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v9).slice (win1_3.rect t)).set ↔ _
  rw [View.set_slice_whole, Rect.mem_set_unit]
  exact Iff.rfl

/-- Index (b, s, f) is in the block written back at the point b · 16 + (s / 512) · 4 + 3. -/
theorem cover3 (i : S8x2048x1024.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  have hlt : (i 0).val * 16 + ((i 1).val / 512) * 4 + 3 < cfg1.N := by rw [N1]; omega
  obtain ⟨t, ht⟩ : ∃ t : Fin cfg1.N, t.val = (i 0).val * 16 + ((i 1).val / 512) * 4 + 3 := ⟨⟨_, hlt⟩, rfl⟩
  obtain ⟨-, -, -, -, -, -, -, -, -, e0, e1, e2⟩ := idx_facts1 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The output array after the kernel is G, when every writing-back point's staging buffer holds G's values. -/
theorem out_array (c : Dev nD) (G : S8x2048x1024.Idx → EReal)
    (hG : ∀ (t : Fin cfg1.N), t.val % 4 = 3 → ∀ (r : Fin 512) (cc : Fin 1024),
      (dat1 V c).after 3 t (ValueIdx.ix3 (0 : Fin 1) r cc)
        = G (ValueIdx.ix3 (⟨t.val / 16, by have := lt128 t; omega⟩ : Fin 8) (⟨(t.val / 4 % 4) * 512 + r.val, by omega⟩ : Fin 2048) cc)) :
    ((dat1 (F := Ideal) V c).arrAt 3 cfg1.N : S8x2048x1024.Idx → EReal) = G :=
  (dat1 V c).arrAt_eq_of_cover 3 G (fun t hf => flushed3_eq V c G hG t hf) cover3

end Cert.KernelIdeal.Hand

end
-- ==== Proof.Spec.lean ====
/-
  Causal single-head attention over the extended reals, stated twice as functions of three arrays
  `q k v : [8, 2048, 1024]` (batch, position, feature), index by index.

  * `attn`: the textbook form. Row `i` of batch `b` scores every position `j` by the scaled inner product
    `(∑ d, q b i d * k b j d) / 32`, replaces the scores of later positions (`j > i`) by `-∞`, subtracts the row's
    maximum, exponentiates, normalises by the row's sum and takes the weighted sum of the rows of `v`.
  * `attnOnline`: the same row computed one block of 512 positions at a time, carrying a running maximum `m`, a
    running denominator `l` and a running numerator `acc`, each rescaled by `exp (m - m')` when the maximum
    moves from `m` to `m'`; row `i` stops after the block that contains its own position, and the result is
    `acc / l`.
  `proj` is the product of every position's feature vector with a weight matrix.
-/
import Idealize.ShloMosaic.PureOps.Ideal
import Idealize.ShloMosaic.Lib.ValueIdx

noncomputable section

namespace Cert.AttnSpec

open Idealize.ShloMosaic

/-- An array `[8, 2048, 1024]` of extended reals, by coordinates. -/
abbrev T3 : Type := Fin 8 → Fin 2048 → Fin 1024 → EReal
/-- A matrix `[1024, 1024]` of extended reals, by coordinates. -/
abbrev W2 : Type := Fin 1024 → Fin 1024 → EReal

/-- Every position's feature vector times the weight matrix. -/
def proj (x : T3) (w : W2) : T3 := fun b s n => ∑ d : Fin 1024, x b s d * w d n

/-- The scale `1 / √1024 = 1 / 32`. -/
def inv32 : EReal := ((1 / 32 : ℝ) : EReal)

/-- The scaled inner product of query row `i` with key row `j`. -/
def score (q k : T3) (b : Fin 8) (i j : Fin 2048) : EReal := (∑ d : Fin 1024, q b i d * k b j d) * inv32

/-- The causal mask: a later position scores `-∞`. -/
def masked (q k : T3) (b : Fin 8) (i j : Fin 2048) : EReal := if j ≤ i then score q k b i j else ⊥

/-- The maximum of row `i`'s masked scores. -/
def rowMax (q k : T3) (b : Fin 8) (i : Fin 2048) : EReal :=
  (Finset.univ : Finset (Fin 2048)).fold max ⊥ (masked q k b i)

/-- The unnormalised weight of position `j` in row `i`. -/
def wexp (q k : T3) (b : Fin 8) (i j : Fin 2048) : EReal := Ideal.exp (masked q k b i j - rowMax q k b i)

/-- The row's normaliser. -/
def denom (q k : T3) (b : Fin 8) (i : Fin 2048) : EReal := ∑ j : Fin 2048, wexp q k b i j

/-- Causal attention, the textbook form: the normalised weights times the rows of `v`. -/
def attn (q k v : T3) : T3 := fun b i c =>
  ∑ j : Fin 2048, Ideal.div (wexp q k b i j) (denom q k b i) * v b j c

/-- Position `j` of block `kb` (blocks of 512 positions; total in `kb` by reduction modulo 2048). -/
def col (kb : ℕ) (j : Fin 512) : Fin 2048 := ⟨(kb * 512 + j.val) % 2048, Nat.mod_lt _ (by norm_num)⟩

/-- What one row carries between blocks: the running maximum, denominator and numerator. -/
structure St where
  m : EReal
  l : EReal
  acc : Fin 1024 → EReal

/-- Before the first block: maximum `-∞`, nothing summed. -/
def St.init : St := ⟨⊥, 0, fun _ => 0⟩

/-- Row `i`'s masked scores against block `kb`. -/
def blockScore (q k : T3) (b : Fin 8) (i : Fin 2048) (kb : ℕ) (j : Fin 512) : EReal := masked q k b i (col kb j)

/-- One block folded into a row's state. -/
def step (q k v : T3) (b : Fin 8) (i : Fin 2048) (kb : ℕ) (s : St) : St :=
  let m' : EReal := max s.m ((Finset.univ : Finset (Fin 512)).fold max ⊥ (blockScore q k b i kb))
  ⟨m',
   Ideal.exp (s.m - m') * s.l + ∑ j : Fin 512, Ideal.exp (blockScore q k b i kb j - m'),
   fun c => Ideal.exp (s.m - m') * s.acc c + ∑ j : Fin 512, Ideal.exp (blockScore q k b i kb j - m') * v b (col kb j) c⟩

/-- Row `i`'s state after its first `n` blocks. -/
def stateAfter (q k v : T3) (b : Fin 8) (i : Fin 2048) : ℕ → St
  | 0 => St.init
  | n + 1 => step q k v b i n (stateAfter q k v b i n)

/-- Causal attention block by block: row `i` folds blocks `0 … i / 512` and divides. -/
def attnOnline (q k v : T3) : T3 := fun b i c =>
  Ideal.div ((stateAfter q k v b i (i.val / 512 + 1)).acc c) (stateAfter q k v b i (i.val / 512 + 1)).l

/-- An array all of whose entries are real numbers. -/
def Finite3 (x : T3) : Prop := ∀ b s d, x b s d ≠ ⊤ ∧ x b s d ≠ ⊥
/-- A matrix all of whose entries are real numbers. -/
def Finite2 (w : W2) : Prop := ∀ d n, w d n ≠ ⊤ ∧ w d n ≠ ⊥

/-- An `[8, 2048, 1024]` buffer of extended reals read by coordinates. -/
def arr3 (x : (⟨3, ![8, 2048, 1024]⟩ : Shape).Idx → EReal) : T3 := fun b s d => x (ValueIdx.ix3 b s d)
/-- A `[1024, 1024]` buffer of extended reals read by coordinates. -/
def mat2 (w : (⟨2, ![1024, 1024]⟩ : Shape).Idx → EReal) : W2 := fun d n => w (ValueIdx.ix2 d n)

end Cert.AttnSpec

end
-- ==== Proof.OnlineLaws.lean ====
/-
  The algebra of the online softmax, over an arbitrary index type.

  A row of scores is a function a : ι → EReal none of whose values is +∞: a value is a real number or
  -∞ (a masked position). For a finite set S of positions write m(S) for the maximum of a over S (the
  fold of max from -∞). Three facts are proved here.

  * Rescaling. For real M', exp (m - M') * ∑_{j ∈ S} exp (a j - m) * g j = ∑_{j ∈ S} exp (a j - M') * g j
    whenever every a j (j ∈ S) is ≤ m ≠ +∞: termwise it is exp (x - m) * exp (m - M') = exp (x - M') on
    reals, and 0 = 0 at a masked position; the factor exp (m - M') is a nonnegative real, and a
    nonnegative real factor distributes over any sum of extended reals.
  * One block folded in. If (m, l, acc) are the maximum, the sum of exp (a j - m) and the g-weighted sum
    over S, and T is disjoint from S and contains an unmasked position, then the updated triple is the
    same three quantities over S ∪ T.
  * The quotient. If S contains an unmasked position, then m(S) is real, the sum l of exp (a j - m(S))
    is a real number ≥ 1 (the maximal entry contributes exp 0 = 1), and so division by l is multiplication
    by the real 1 / l, which distributes over the real sum: (∑ e_j g_j) / l = ∑ (e_j / l) g_j.
-/
import proofs.«109232_j17575006175501_2_alg».proof.Proof.Spec
import Mathlib

noncomputable section

namespace Cert.AttnSpec

open Idealize.ShloMosaic

/-- An extended real that is a real number. -/
def IsReal (x : EReal) : Prop := x ≠ ⊤ ∧ x ≠ ⊥

theorem isReal_coe (r : ℝ) : IsReal (r : EReal) := ⟨EReal.coe_ne_top r, EReal.coe_ne_bot r⟩

theorem IsReal.exists {x : EReal} (h : IsReal x) : ∃ r : ℝ, x = (r : EReal) :=
  ⟨x.toReal, (EReal.coe_toReal h.1 h.2).symm⟩

theorem IsReal.mul {x y : EReal} (hx : IsReal x) (hy : IsReal y) : IsReal (x * y) := by
  obtain ⟨r, rfl⟩ := hx.exists
  obtain ⟨s, rfl⟩ := hy.exists
  rw [← EReal.coe_mul]; exact isReal_coe _

theorem IsReal.add {x y : EReal} (hx : IsReal x) (hy : IsReal y) : IsReal (x + y) := by
  obtain ⟨r, rfl⟩ := hx.exists
  obtain ⟨s, rfl⟩ := hy.exists
  rw [← EReal.coe_add]; exact isReal_coe _

theorem isReal_zero : IsReal (0 : EReal) := by
  rw [← EReal.coe_zero]; exact isReal_coe _

/-- A finite sum of real numbers is a real number. -/
theorem IsReal.sum {ι : Type*} (S : Finset ι) (f : ι → EReal) (hf : ∀ j ∈ S, IsReal (f j)) :
    IsReal (∑ j ∈ S, f j) :=
  Finset.sum_induction f IsReal (fun _ _ => IsReal.add) isReal_zero hf

/-- The inclusion of the reals commutes with finite sums. -/
theorem coe_sum {ι : Type*} (S : Finset ι) (f : ι → ℝ) :
    ((∑ j ∈ S, f j : ℝ) : EReal) = ∑ j ∈ S, (f j : EReal) := by
  classical
  induction S using Finset.induction_on with
  | empty => simp
  | insert x S hx ih => rw [Finset.sum_insert hx, Finset.sum_insert hx, EReal.coe_add, ih]

/-! ### The exponential of a difference -/

theorem exp_nonneg (x : EReal) : 0 ≤ Ideal.exp x := by
  induction x using EReal.rec with
  | bot => simp
  | top => simp
  | coe r => rw [Ideal.exp_coe]; exact_mod_cast (Real.exp_pos r).le

/-- For x ≠ +∞ and real M, exp (x - M) is a nonnegative real number. -/
theorem exp_sub_real (x : EReal) (hx : x ≠ ⊤) (M : ℝ) :
    ∃ r : ℝ, 0 ≤ r ∧ Ideal.exp (x - (M : EReal)) = (r : EReal) := by
  induction x using EReal.rec with
  | bot => exact ⟨0, le_refl _, by rw [EReal.bot_sub, Ideal.exp_bot, EReal.coe_zero]⟩
  | top => exact absurd rfl hx
  | coe r => exact ⟨Real.exp (r - M), (Real.exp_pos _).le, by rw [← EReal.coe_sub, Ideal.exp_coe]⟩

theorem exp_sub_self (M : ℝ) : Ideal.exp ((M : EReal) - (M : EReal)) = 1 := by
  rw [← EReal.coe_sub, sub_self, Ideal.exp_coe, Real.exp_zero, EReal.coe_one]

/-- Moving the reference point from m to M': exp (m - M') * exp (x - m) = exp (x - M') for x ≤ m ≠ +∞. -/
theorem exp_rescale (x m : EReal) (M' : ℝ) (hx : x ≤ m) (hm : m ≠ ⊤) :
    Ideal.exp (m - (M' : EReal)) * Ideal.exp (x - m) = Ideal.exp (x - (M' : EReal)) := by
  induction m using EReal.rec with
  | top => exact absurd rfl hm
  | bot =>
    rw [le_bot_iff] at hx; subst hx
    rw [EReal.bot_sub, EReal.bot_sub, Ideal.exp_bot, zero_mul]
  | coe M =>
    induction x using EReal.rec with
    | top => exact absurd (top_le_iff.mp hx) (EReal.coe_ne_top M)
    | bot => rw [EReal.bot_sub, EReal.bot_sub, Ideal.exp_bot, mul_zero]
    | coe r =>
      rw [← EReal.coe_sub, ← EReal.coe_sub, ← EReal.coe_sub, Ideal.exp_coe, Ideal.exp_coe, Ideal.exp_coe,
        ← EReal.coe_mul, ← Real.exp_add]
      congr 2; ring

/-- A nonnegative real factor distributes over a finite sum of extended reals. -/
theorem mul_sum_of_nonneg {ι : Type*} (c : EReal) (hc : 0 ≤ c) (hc' : c ≠ ⊤) (S : Finset ι) (f : ι → EReal) :
    c * ∑ j ∈ S, f j = ∑ j ∈ S, c * f j := by
  classical
  induction S using Finset.induction_on with
  | empty => simp
  | insert x S hx ih =>
    rw [Finset.sum_insert hx, Finset.sum_insert hx, EReal.left_distrib_of_nonneg_of_ne_top hc hc', ih]

/-! ### The maximum of a row over a finite set -/

section Fold

variable {ι : Type*} [DecidableEq ι] (a : ι → EReal)

/-- The maximum over S. -/
def mx (S : Finset ι) : EReal := S.fold max ⊥ a

theorem mx_empty : mx a ∅ = ⊥ := rfl

theorem mx_insert (x : ι) (S : Finset ι) : mx a (insert x S) = max (a x) (mx a S) :=
  Finset.fold_insert_idem

theorem le_mx (S : Finset ι) : ∀ j ∈ S, a j ≤ mx a S := by
  induction S using Finset.induction_on with
  | empty => intro j hj; exact absurd hj (Finset.notMem_empty j)
  | insert x S _ ih =>
    intro j hj
    rw [mx_insert]
    rcases Finset.mem_insert.mp hj with rfl | hj
    · exact le_max_left _ _
    · exact le_max_of_le_right (ih j hj)

theorem mx_eq_bot_or (S : Finset ι) : mx a S = ⊥ ∨ ∃ j ∈ S, a j = mx a S := by
  induction S using Finset.induction_on with
  | empty => exact Or.inl rfl
  | insert x S _ ih =>
    rw [mx_insert]
    rcases max_choice (a x) (mx a S) with h | h
    · exact Or.inr ⟨x, Finset.mem_insert_self x S, h.symm⟩
    · rw [h]
      rcases ih with h0 | ⟨j, hj, hj'⟩
      · exact Or.inl h0
      · exact Or.inr ⟨j, Finset.mem_insert_of_mem hj, hj'⟩

theorem mx_ne_top (ha : ∀ j, a j ≠ ⊤) (S : Finset ι) : mx a S ≠ ⊤ := by
  rcases mx_eq_bot_or a S with h | ⟨j, _, hj⟩
  · rw [h]; exact bot_ne_top
  · rw [← hj]; exact ha j

/-- Over a set with an unmasked position the maximum is a real number, attained in the set. -/
theorem mx_real (ha : ∀ j, a j ≠ ⊤) (S : Finset ι) (hS : ∃ j ∈ S, a j ≠ ⊥) :
    ∃ M : ℝ, mx a S = (M : EReal) ∧ ∃ j ∈ S, a j = (M : EReal) := by
  obtain ⟨j0, hj0, hj0'⟩ := hS
  have hne : mx a S ≠ ⊥ := fun h => hj0' (le_bot_iff.mp (h ▸ le_mx a S j0 hj0))
  obtain ⟨M, hM⟩ := IsReal.exists ⟨mx_ne_top a ha S, hne⟩
  rcases mx_eq_bot_or a S with h | ⟨j, hj, hj'⟩
  · exact absurd h hne
  · exact ⟨M, hM, j, hj, hj'.trans hM⟩

theorem mx_union (S T : Finset ι) : mx a (S ∪ T) = max (mx a S) (mx a T) := by
  induction S using Finset.induction_on with
  | empty => rw [Finset.empty_union, mx_empty, max_eq_right bot_le]
  | insert x S _ ih => rw [Finset.insert_union, mx_insert, mx_insert, ih, max_assoc]

/-- Positions that are all masked do not move the maximum. -/
theorem mx_of_subset (S S' : Finset ι) (hSS' : S ⊆ S') (hbot : ∀ j ∈ S', j ∉ S → a j = ⊥) :
    mx a S' = mx a S := by
  rw [← Finset.union_sdiff_of_subset hSS', mx_union]
  refine max_eq_left ?_
  rcases mx_eq_bot_or a (S' \ S) with h | ⟨j, hj, hj'⟩
  · rw [h]; exact bot_le
  · rw [← hj', hbot j (Finset.mem_sdiff.mp hj).1 (Finset.mem_sdiff.mp hj).2]; exact bot_le

end Fold

/-! ### One block folded in, and the final quotient -/

section Step

variable {ι κ : Type*} [DecidableEq ι] (a : ι → EReal) (g : ι → κ → EReal)

/-- (m, l, acc) are the maximum over S, the sum of exp (a j - m) over S and the g-weighted sum over S. -/
structure Inv (S : Finset ι) (m l : EReal) (acc : κ → EReal) : Prop where
  hm : m = mx a S
  hl : l = ∑ j ∈ S, Ideal.exp (a j - m)
  hacc : ∀ c, acc c = ∑ j ∈ S, Ideal.exp (a j - m) * g j c

theorem exp_mx_sub_ne_top (ha : ∀ j, a j ≠ ⊤) (S : Finset ι) (M' : ℝ) :
    Ideal.exp (mx a S - (M' : EReal)) ≠ ⊤ := by
  obtain ⟨r, _, hr⟩ := exp_sub_real (mx a S) (mx_ne_top a ha S) M'
  rw [hr]; exact EReal.coe_ne_top r

/-- The weighted sum over S taken relative to the maximum of S, rescaled to a real reference point M'. -/
theorem sum_rescale_mul (ha : ∀ j, a j ≠ ⊤) (S : Finset ι) (M' : ℝ) (f : ι → EReal) :
    Ideal.exp (mx a S - (M' : EReal)) * ∑ j ∈ S, Ideal.exp (a j - mx a S) * f j
      = ∑ j ∈ S, Ideal.exp (a j - (M' : EReal)) * f j := by
  rw [mul_sum_of_nonneg _ (exp_nonneg _) (exp_mx_sub_ne_top a ha S M')]
  refine Finset.sum_congr rfl fun j hj => ?_
  rw [← mul_assoc, exp_rescale _ _ _ (le_mx a S j hj) (mx_ne_top a ha S)]

/-- The same without weights. -/
theorem sum_rescale (ha : ∀ j, a j ≠ ⊤) (S : Finset ι) (M' : ℝ) :
    Ideal.exp (mx a S - (M' : EReal)) * ∑ j ∈ S, Ideal.exp (a j - mx a S)
      = ∑ j ∈ S, Ideal.exp (a j - (M' : EReal)) := by
  rw [mul_sum_of_nonneg _ (exp_nonneg _) (exp_mx_sub_ne_top a ha S M')]
  refine Finset.sum_congr rfl fun j hj => ?_
  rw [exp_rescale _ _ _ (le_mx a S j hj) (mx_ne_top a ha S)]

/-- Folding a block T (disjoint from S, with an unmasked position) into the running triple of S gives
    the running triple of S ∪ T: the new maximum is real, so both old sums rescale to it. -/
theorem Inv.step (ha : ∀ j, a j ≠ ⊤) {S T : Finset ι} {m l : EReal} {acc : κ → EReal}
    (h : Inv a g S m l acc) (hd : Disjoint S T) (hT : ∃ j ∈ T, a j ≠ ⊥) :
    Inv a g (S ∪ T) (max m (mx a T))
      (Ideal.exp (m - max m (mx a T)) * l + ∑ j ∈ T, Ideal.exp (a j - max m (mx a T)))
      (fun c => Ideal.exp (m - max m (mx a T)) * acc c
        + ∑ j ∈ T, Ideal.exp (a j - max m (mx a T)) * g j c) := by
  obtain ⟨hm, hl, hacc⟩ := h
  subst hm
  have hmu : max (mx a S) (mx a T) = mx a (S ∪ T) := (mx_union a S T).symm
  obtain ⟨M', hM', _⟩ := mx_real a ha (S ∪ T)
    (by obtain ⟨j, hj, hj'⟩ := hT; exact ⟨j, Finset.mem_union_right S hj, hj'⟩)
  rw [hmu]
  refine ⟨rfl, ?_, fun c => ?_⟩
  · rw [hl, Finset.sum_union hd, hM', sum_rescale a ha S M']
  · show _ * acc c + _ = _
    rw [hacc c, Finset.sum_union hd, hM', sum_rescale_mul a ha S M']

/-- Masked positions outside S add nothing to a sum of exponentials. -/
theorem sum_of_subset (S S' : Finset ι) (hSS' : S ⊆ S') (hbot : ∀ j ∈ S', j ∉ S → a j = ⊥) (m : EReal) :
    ∑ j ∈ S, Ideal.exp (a j - m) = ∑ j ∈ S', Ideal.exp (a j - m) :=
  Finset.sum_subset hSS' fun j hj hnj => by rw [hbot j hj hnj, EReal.bot_sub, Ideal.exp_bot]

theorem sum_mul_of_subset (S S' : Finset ι) (hSS' : S ⊆ S') (hbot : ∀ j ∈ S', j ∉ S → a j = ⊥) (m : EReal)
    (f : ι → EReal) :
    ∑ j ∈ S, Ideal.exp (a j - m) * f j = ∑ j ∈ S', Ideal.exp (a j - m) * f j :=
  Finset.sum_subset hSS' fun j hj hnj => by rw [hbot j hj hnj, EReal.bot_sub, Ideal.exp_bot, zero_mul]

/-- The quotient of the weighted sum by the normaliser is the sum of the normalised weights times f:
    the normaliser is a real number ≥ 1, so dividing by it is multiplying by a real, which distributes
    over the (real) sum. -/
theorem div_sum (ha : ∀ j, a j ≠ ⊤) (f : ι → EReal) (hf : ∀ j, IsReal (f j)) (S : Finset ι)
    (hS : ∃ j ∈ S, a j ≠ ⊥) :
    Ideal.div (∑ j ∈ S, Ideal.exp (a j - mx a S) * f j) (∑ j ∈ S, Ideal.exp (a j - mx a S))
      = ∑ j ∈ S, Ideal.div (Ideal.exp (a j - mx a S)) (∑ j ∈ S, Ideal.exp (a j - mx a S)) * f j := by
  obtain ⟨M, hM, j0, hj0, hj0'⟩ := mx_real a ha S hS
  rw [hM]
  choose r hr0 hr using fun j => exp_sub_real (a j) (ha j) M
  choose u hu using fun j => (hf j).exists
  have h1 : r j0 = 1 := by
    have := hr j0
    rw [hj0', exp_sub_self] at this
    exact_mod_cast this.symm
  have hL : (1 : ℝ) ≤ ∑ j ∈ S, r j :=
    h1 ▸ Finset.single_le_sum (f := r) (fun j _ => hr0 j) hj0
  have hL0 : (∑ j ∈ S, r j) ≠ 0 := by linarith
  simp only [hr, hu, ← EReal.coe_mul, ← coe_sum]
  simp only [Ideal.div_coe hL0, ← EReal.coe_mul, ← coe_sum]
  congr 1
  rw [Finset.sum_mul]
  exact Finset.sum_congr rfl fun j _ => by ring

end Step

end Cert.AttnSpec

end
-- ==== Proof.OnlineInv.lean ====
/-
  The block-by-block state of a row is the running triple of its first blocks.

  Fix a batch b and a row i, and let a j be the masked score of position j: a real number for j ≤ i (a
  finite sum of products of real entries, times 1/32), and -∞ for j > i; so a never takes the value +∞.
  Block kb (kb < 4) is the set of positions kb * 512 … kb * 512 + 511, the image of the 512 in-block
  offsets under an injective map, so a sum (or a maximum) over the offsets of block kb is the sum (or the
  maximum) over that set. The first n blocks are the positions below n * 512; block n is disjoint from
  them, and for n ≤ i / 512 its first position n * 512 is ≤ i, hence unmasked. By induction on n the state
  after n ≤ i / 512 + 1 blocks is the maximum, the sum of exponentials and the v-weighted sum over the
  first n blocks.
-/
import proofs.«109232_j17575006175501_2_alg».proof.Proof.OnlineLaws

noncomputable section

namespace Cert.AttnSpec

open Idealize.ShloMosaic

/-! ### Real entries -/

/-- Every position's feature vector times the weight matrix has real entries when both factors do. -/
theorem proj_isReal (x : T3) (w : W2) (hx : Finite3 x) (hw : Finite2 w) (b : Fin 8) (s : Fin 2048) (n : Fin 1024) :
    IsReal (proj x w b s n) :=
  IsReal.sum _ _ fun d _ => IsReal.mul (hx b s d) (hw d n)

theorem score_isReal (q k : T3) (hq : Finite3 q) (hk : Finite3 k) (b : Fin 8) (i j : Fin 2048) :
    IsReal (score q k b i j) :=
  IsReal.mul (IsReal.sum _ _ fun d _ => IsReal.mul (hq b i d) (hk b j d)) (isReal_coe _)

theorem masked_ne_top (q k : T3) (hq : Finite3 q) (hk : Finite3 k) (b : Fin 8) (i j : Fin 2048) :
    masked q k b i j ≠ ⊤ := by
  unfold masked
  split_ifs
  · exact (score_isReal q k hq hk b i j).1
  · exact bot_ne_top

theorem masked_ne_bot (q k : T3) (hq : Finite3 q) (hk : Finite3 k) (b : Fin 8) (i j : Fin 2048) (hji : j ≤ i) :
    masked q k b i j ≠ ⊥ := by
  unfold masked
  rw [if_pos hji]
  exact (score_isReal q k hq hk b i j).2

theorem masked_eq_bot (q k : T3) (b : Fin 8) (i j : Fin 2048) (hji : ¬ j ≤ i) : masked q k b i j = ⊥ := by
  unfold masked
  rw [if_neg hji]

/-! ### Blocks of positions -/

/-- The positions of block kb. -/
def blk (kb : ℕ) : Finset (Fin 2048) := Finset.univ.image (col kb)

/-- The positions of the first n blocks. -/
def firstBlocks : ℕ → Finset (Fin 2048)
  | 0 => ∅
  | n + 1 => firstBlocks n ∪ blk n

theorem col_val (kb : ℕ) (hkb : kb < 4) (j : Fin 512) : (col kb j).val = kb * 512 + j.val := by
  have := j.isLt
  show (kb * 512 + j.val) % 2048 = _
  omega

theorem col_injective (kb : ℕ) (hkb : kb < 4) : Function.Injective (col kb) := by
  intro x y h
  have h' := congrArg Fin.val h
  rw [col_val kb hkb, col_val kb hkb] at h'
  exact Fin.ext (by omega)

theorem mem_blk (kb : ℕ) (hkb : kb < 4) (j : Fin 2048) :
    j ∈ blk kb ↔ kb * 512 ≤ j.val ∧ j.val < kb * 512 + 512 := by
  unfold blk
  rw [Finset.mem_image]
  constructor
  · rintro ⟨x, _, rfl⟩
    rw [col_val kb hkb]
    have := x.isLt
    omega
  · rintro ⟨h1, h2⟩
    refine ⟨⟨j.val - kb * 512, by omega⟩, Finset.mem_univ _, Fin.ext ?_⟩
    rw [col_val kb hkb]
    show kb * 512 + (j.val - kb * 512) = j.val
    omega

theorem mem_firstBlocks (n : ℕ) (hn : n ≤ 4) (j : Fin 2048) : j ∈ firstBlocks n ↔ j.val < n * 512 := by
  induction n with
  | zero => simp [firstBlocks]
  | succ n ih =>
    rw [firstBlocks, Finset.mem_union, ih (by omega), mem_blk n (by omega)]
    omega

theorem disjoint_firstBlocks_blk (n : ℕ) (hn : n < 4) : Disjoint (firstBlocks n) (blk n) := by
  rw [Finset.disjoint_left]
  intro j hj hj'
  rw [mem_firstBlocks n (by omega)] at hj
  rw [mem_blk n hn] at hj'
  omega

/-! ### One step of the state, over the set of positions of the block -/

section Row

variable (q k v : T3) (b : Fin 8) (i : Fin 2048)

theorem blockMax_eq (kb : ℕ) :
    (Finset.univ : Finset (Fin 512)).fold max ⊥ (blockScore q k b i kb) = mx (masked q k b i) (blk kb) := by
  unfold mx blk
  rw [Finset.fold_image_idem]
  rfl

theorem blockSum_eq (kb : ℕ) (hkb : kb < 4) (m : EReal) :
    ∑ j : Fin 512, Ideal.exp (blockScore q k b i kb j - m)
      = ∑ j ∈ blk kb, Ideal.exp (masked q k b i j - m) := by
  unfold blk
  rw [Finset.sum_image fun x _ y _ h => col_injective kb hkb h]
  rfl

theorem blockSumMul_eq (kb : ℕ) (hkb : kb < 4) (m : EReal) (c : Fin 1024) :
    ∑ j : Fin 512, Ideal.exp (blockScore q k b i kb j - m) * v b (col kb j) c
      = ∑ j ∈ blk kb, Ideal.exp (masked q k b i j - m) * v b j c := by
  unfold blk
  rw [Finset.sum_image fun x _ y _ h => col_injective kb hkb h]
  rfl

/-- The state after the first n blocks of row i is the running triple of those blocks. -/
theorem stateAfter_inv (hq : Finite3 q) (hk : Finite3 k) (n : ℕ) (hn : n ≤ i.val / 512 + 1) :
    Inv (masked q k b i) (fun j c => v b j c) (firstBlocks n)
      (stateAfter q k v b i n).m (stateAfter q k v b i n).l (stateAfter q k v b i n).acc := by
  have hi := i.isLt
  induction n with
  | zero => exact ⟨rfl, by simp [stateAfter, St.init, firstBlocks], fun c => by simp [stateAfter, St.init, firstBlocks]⟩
  | succ n ih =>
    have hn4 : n < 4 := by omega
    have hstep := (ih (by omega)).step (masked q k b i) (fun j c => v b j c)
      (fun j => masked_ne_top q k hq hk b i j) (disjoint_firstBlocks_blk n hn4)
      ⟨col n ⟨0, by norm_num⟩, Finset.mem_image_of_mem _ (Finset.mem_univ _),
        masked_ne_bot q k hq hk b i _ (by
          rw [Fin.le_def, col_val n hn4]
          show n * 512 + 0 ≤ i.val
          omega)⟩
    show Inv _ _ (firstBlocks n ∪ blk n) (step q k v b i n (stateAfter q k v b i n)).m
      (step q k v b i n (stateAfter q k v b i n)).l (step q k v b i n (stateAfter q k v b i n)).acc
    unfold step
    simp only [blockMax_eq, blockSum_eq q k b i n hn4, blockSumMul_eq q k v b i n hn4]
    exact hstep

end Row

end Cert.AttnSpec

end
-- ==== Proof.OnlineSoftmax.lean ====
/-
  Causal attention computed block by block equals the textbook form, on arrays of real numbers.

  Fix a batch b, a row i and a feature c, and let a j be the masked score of position j. After the
  i / 512 + 1 blocks that row i folds, the state is the maximum m, the sum l of exp (a j - m) and the
  v-weighted sum acc over the positions below (i / 512 + 1) * 512. Every position j ≤ i is among them, and
  every other position is masked: it does not move the maximum, and it contributes exp (-∞) = 0 to either
  sum. So m is the maximum of the whole row, l is the row's normaliser and acc c is the sum over the whole
  row of exp (a j - m) * v b j c. Position i itself is unmasked, so the quotient law applies:
  acc c / l = ∑_j (exp (a j - m) / l) * v b j c, which is the textbook form.
-/
import proofs.«109232_j17575006175501_2_alg».proof.Proof.OnlineInv

noncomputable section

namespace Cert.AttnSpec

open Idealize.ShloMosaic

/-- The projection of an array of real numbers by a matrix of real numbers is an array of real numbers. -/
theorem proj_finite (x : T3) (w : W2) (hx : Finite3 x) (hw : Finite2 w) : Finite3 (proj x w) :=
  fun b s n => proj_isReal x w hx hw b s n

/-- Block-by-block causal attention with a running maximum is causal softmax attention. -/
theorem online_eq (q k v : T3) (hq : Finite3 q) (hk : Finite3 k) (hv : Finite3 v) :
    attnOnline q k v = attn q k v := by
  funext b i c
  have hi := i.isLt
  have ha : ∀ j, masked q k b i j ≠ ⊤ := fun j => masked_ne_top q k hq hk b i j
  obtain ⟨hm, hl, hacc⟩ := stateAfter_inv q k v b i hq hk (i.val / 512 + 1) le_rfl
  -- the folded blocks contain every unmasked position
  have hsub : firstBlocks (i.val / 512 + 1) ⊆ Finset.univ := Finset.subset_univ _
  have hbot : ∀ j ∈ (Finset.univ : Finset (Fin 2048)), j ∉ firstBlocks (i.val / 512 + 1) →
      masked q k b i j = ⊥ := by
    intro j _ hj
    refine masked_eq_bot q k b i j fun hji => hj ?_
    rw [mem_firstBlocks _ (by omega)]
    have : j.val ≤ i.val := hji
    omega
  have hmx : mx (masked q k b i) (firstBlocks (i.val / 512 + 1)) = mx (masked q k b i) Finset.univ :=
    (mx_of_subset _ _ _ hsub hbot).symm
  show Ideal.div ((stateAfter q k v b i (i.val / 512 + 1)).acc c) (stateAfter q k v b i (i.val / 512 + 1)).l = _
  rw [hacc c, hl, hm, hmx, sum_of_subset _ _ _ hsub hbot,
    sum_mul_of_subset _ _ _ hsub hbot _ (fun j => v b j c)]
  rw [div_sum (masked q k b i) ha (fun j => v b j c) (fun j => hv b j c) Finset.univ
    ⟨i, Finset.mem_univ _, masked_ne_bot q k hq hk b i i le_rfl⟩]
  rfl

end Cert.AttnSpec

end
-- ==== Proof.KI.R1PayBasics.lean ====
import proofs.«109232_j17575006175501_2_alg».proof.Proof.Gen.KernelIdeal.Skeleton
import proofs.«109232_j17575006175501_2_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal

variable {α : Type}

/-! ### Layout operations at an index -/

/-- A column vector made from a vector: [a] cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows' positions: [a, 1] broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Constants -/

/-- The mask value is named -∞. -/
theorem named_neg_big : Named.named (F := Ideal) κ "neg_big" (φ := .f32) 0xFF333332#32 = (⊥ : EReal) :=
  IdealRules.named_const.ideal_named_scalar _ _ _ _ rfl

/-- The word of -∞. -/
theorem ofBits_neg_inf : Ideal.ofBits .f32 0xFF800000#32 = (⊥ : EReal) := by
  simp [Ideal.ofBits, Ideal.ieee]

/-- The word of 2⁻⁵ = 1/32. -/
theorem ofBits_inv32 : Ideal.ofBits .f32 0x3D000000#32 = Cert.AttnSpec.inv32 := by
  unfold Cert.AttnSpec.inv32
  simp [Ideal.ofBits, Ideal.ieee, -EReal.coe_mul]
  norm_num

/-! ### Reductions along a row -/

theorem reduce_lift_eq (h : S512x512.Reduces [1] S512) (r : Fin 512) (k : Fin 512) :
    h.lift (ix1 r) k = ix2 r k := by
  funext a
  match a with
  | ⟨0, _⟩ => exact Fin.ext rfl
  | ⟨1, _⟩ => exact Fin.ext rfl

/-- The sum along a row of a 512 × 512 block. -/
theorem rowSum_apply (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ j : Fin 512, src (ix2 r j) :=
  (Ideal.multiReduction_add_single src 0x00000000#32 h hφ hacc (ix1 r)).trans
    (Finset.sum_congr rfl fun k _ => congrArg src (reduce_lift_eq h r k))

/-- The maximum along a row of a 512 × 512 block, from -∞. -/
theorem rowMax_apply (src : FVec Ideal S512x512 .f32) (h : S512x512.Reduces [1] S512) (hφ : FKind.Formats .f32)
    (hacc : (0xFF800000#32 : BitVec 32) = 0xFF800000#32) (r : Fin 512) :
    multiReduction .maximumf [1] S512 src 0xFF800000#32 h hφ hacc (ix1 r)
      = (Finset.univ : Finset (Fin 512)).fold max ⊥ (fun j => src (ix2 r j)) := by
  refine (Ideal.multiReduction_maximumf_single src 0xFF800000#32 h hφ hacc (ix1 r)).trans ?_
  rw [Ideal.ofBits_def, ofBits_neg_inf]
  exact Finset.fold_congr fun k _ => congrArg src (reduce_lift_eq h r k)

end Cert.KernelIdeal.Hand

end
-- ==== Proof.KI.R1PayOps.lean ====
import proofs.«109232_j17575006175501_2_alg».proof.Proof.Gen.KernelIdeal.Skeleton
import proofs.«109232_j17575006175501_2_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal

/-! ### The causal mask's comparison -/

theorem toInt_ofNat_small (n : ℕ) (hn : n < 2048) : (BitVec.ofNat 32 n).toInt = (n : Int) := by
  rw [BitVec.toInt_eq_toNat_cond, BitVec.toNat_ofNat]
  omega

theorem word_eq (a x : ℕ) : Scalar.muli (BitVec.ofNat 32 a) 512#32 + BitVec.ofNat 32 x = BitVec.ofNat 32 (a * 512 + x) := by
  show BitVec.ofNat 32 a * BitVec.ofNat 32 512 + BitVec.ofNat 32 x = _
  rw [← BitVec.ofNat_mul, ← BitVec.ofNat_add]

theorem mask_select {β : Type} (qb kb r j : ℕ) (hq : qb < 4) (hk : kb < 4) (hr : r < 512) (hj : j < 512) (A B : β) :
    Scalar.select (IntOp.cmpi .sge (IntOp.addi (Scalar.muli (BitVec.ofNat 32 qb) 512#32) (BitVec.ofNat 32 r))
        (IntOp.addi (Scalar.muli (BitVec.ofNat 32 kb) 512#32) (BitVec.ofNat 32 j))) A B
      = if kb * 512 + j ≤ qb * 512 + r then A else B := by
  unfold IntOp.addi
  rw [word_eq, word_eq]
  unfold IntOp.cmpi Scalar.select
  show (if BitVec.ofBool ((BitVec.ofNat 32 (kb * 512 + j)).sle (BitVec.ofNat 32 (qb * 512 + r))) = 1#1 then A else B) = _
  rw [BitVec.sle, toInt_ofNat_small _ (by omega), toInt_ofNat_small _ (by omega)]
  by_cases h : kb * 512 + j ≤ qb * 512 + r
  · have h' : ((kb * 512 + j : ℕ) : Int) ≤ ((qb * 512 + r : ℕ) : Int) := by exact_mod_cast h
    rw [if_pos h, decide_eq_true h']
    rfl
  · have h' : ¬ ((kb * 512 + j : ℕ) : Int) ≤ ((qb * 512 + r : ℕ) : Int) := by exact_mod_cast h
    rw [if_neg h, decide_eq_false h']
    rfl

/-! ### The two matrix products at an index -/

theorem qk_lhs0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem qk_lhs1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem qk_rhs0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem qk_rhs1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product of a 512 × 1024 block with a 1024 × 512 block into zero, at (r, j). -/
theorem matmul_qk_apply (lhs : FVec Ideal S512x1024 .bf16) (rhs : FVec Ideal S1024x512 .bf16) (r j : Fin 512) :
    matmul dot_S512x1024_S1024x512_S512x512_1_0_0_1_n_n none lhs rhs (constant S512x512 .f32 0x00000000#32) (ix2 r j)
      = ∑ d : Fin 1024, lhs (ix2 r d) * rhs (ix2 d j) := by
  simp only [matmul]
  rw [Ideal.matmul_constant_zero_apply,
    ← Equiv.sum_comp (ValueIdx.contrEquiv1 dot_S512x1024_S1024x512_S512x512_1_0_0_1_n_n 1024 rfl rfl).symm]
  refine Finset.sum_congr rfl fun d _ => ?_
  have hk := ValueIdx.contrEquiv1_symm_val dot_S512x1024_S1024x512_S512x512_1_0_0_1_n_n 1024 rfl rfl d
  have el : dot_S512x1024_S1024x512_S512x512_1_0_0_1_n_n.lhsIdx (ix2 r j)
      ((ValueIdx.contrEquiv1 dot_S512x1024_S1024x512_S512x512_1_0_0_1_n_n 1024 rfl rfl).symm d) = ix2 r d :=
    funext fun a => Fin.ext (by
      match a with
      | ⟨0, _⟩ => exact qk_lhs0 _ _
      | ⟨1, _⟩ => exact (qk_lhs1 _ _).trans hk)
  have er : dot_S512x1024_S1024x512_S512x512_1_0_0_1_n_n.rhsIdx (ix2 r j)
      ((ValueIdx.contrEquiv1 dot_S512x1024_S1024x512_S512x512_1_0_0_1_n_n 1024 rfl rfl).symm d) = ix2 d j :=
    funext fun a => Fin.ext (by
      match a with
      | ⟨0, _⟩ => exact (qk_rhs0 _ _).trans hk
      | ⟨1, _⟩ => exact qk_rhs1 _ _)
  rw [el, er]

theorem pv_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem pv_lhs1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem pv_rhs0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem pv_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product of a 512 × 512 block with a 512 × 1024 block into zero, at (r, c). -/
theorem matmul_pv_apply (lhs : FVec Ideal S512x512 .bf16) (rhs : FVec Ideal S512x1024 .bf16) (r : Fin 512) (c : Fin 1024) :
    matmul dot_S512x512_S512x1024_S512x1024_1_0_0_1_n_n none lhs rhs (constant S512x1024 .f32 0x00000000#32) (ix2 r c)
      = ∑ j : Fin 512, lhs (ix2 r j) * rhs (ix2 j c) := by
  simp only [matmul]
  rw [Ideal.matmul_constant_zero_apply,
    ← Equiv.sum_comp (ValueIdx.contrEquiv1 dot_S512x512_S512x1024_S512x1024_1_0_0_1_n_n 512 rfl rfl).symm]
  refine Finset.sum_congr rfl fun d _ => ?_
  have hk := ValueIdx.contrEquiv1_symm_val dot_S512x512_S512x1024_S512x1024_1_0_0_1_n_n 512 rfl rfl d
  have el : dot_S512x512_S512x1024_S512x1024_1_0_0_1_n_n.lhsIdx (ix2 r c)
      ((ValueIdx.contrEquiv1 dot_S512x512_S512x1024_S512x1024_1_0_0_1_n_n 512 rfl rfl).symm d) = ix2 r d :=
    funext fun a => Fin.ext (by
      match a with
      | ⟨0, _⟩ => exact pv_lhs0 _ _
      | ⟨1, _⟩ => exact (pv_lhs1 _ _).trans hk)
  have er : dot_S512x512_S512x1024_S512x1024_1_0_0_1_n_n.rhsIdx (ix2 r c)
      ((ValueIdx.contrEquiv1 dot_S512x512_S512x1024_S512x1024_1_0_0_1_n_n 512 rfl rfl).symm d) = ix2 d c :=
    funext fun a => Fin.ext (by
      match a with
      | ⟨0, _⟩ => exact (pv_rhs0 _ _).trans hk
      | ⟨1, _⟩ => exact pv_rhs1 _ _)
  rw [el, er]

end Cert.KernelIdeal.Hand

end
-- ==== Proof.KI.R1Payload.lean ====
/-
  The attention kernel's stored values, read at an index over the extended reals.

  The query block holds rows qb * 512 … qb * 512 + 511 of q, the key and value blocks rows
  kb * 512 … kb * 512 + 511 of k and v. Entry (r, j) of the score block is the inner product of query row
  qb * 512 + r with key row kb * 512 + j, times 1/32, kept where kb * 512 + j ≤ qb * 512 + r (a comparison of
  32-bit words of numbers below 2048, so no wrap-around) and replaced by -∞ elsewhere: the specification's masked
  score of row i = qb * 512 + r against position j of block kb. The new running maximum is the old one
  against the row maximum of that block; the weights are exp (score - new maximum), the rescaling factor is
  exp (old maximum - new maximum); the new denominator is factor * old denominator + the row sum of the
  weights, and the new numerator is factor * old numerator + the weights times the value block. These are,
  entry by entry, the three fields of the specification's step on the row's state. Before the first block
  the three buffers hold -∞, 0 and 0, and at the end the stored value is numerator / denominator.
-/
import proofs.«109232_j17575006175501_2_alg».proof.Proof.KI.R1PayBasics
import proofs.«109232_j17575006175501_2_alg».proof.Proof.KI.R1PayOps

noncomputable section

namespace Cert.KernelIdeal.Hand

open Idealize.ShloMosaic Idealize.ShloMosaic.ValueIdx Cert.KernelIdeal
open Cert.AttnSpec (T3 St)

/-- Position r of block qb of 512 positions. -/
def pos (qb : Fin 4) (r : Fin 512) : Fin 2048 :=
  ⟨qb.val * 512 + r.val, by have := qb.isLt; have := r.isLt; omega⟩

theorem col_eq_pos (kb : Fin 4) (j : Fin 512) : Cert.AttnSpec.col kb.val j = pos kb j :=
  Fin.ext (Cert.AttnSpec.col_val kb.val kb.isLt j)

theorem iota0_apply (h : S512x512.Iotas .tc 32 [0]) (r j : Fin 512) :
    iota .tc S512x512 32 [0] h (ix2 r j) = BitVec.ofNat 32 r.val :=
  iota_single_apply .tc S512x512 32 0 h (ix2 r j)

theorem iota1_apply (h : S512x512.Iotas .tc 32 [1]) (r j : Fin 512) :
    iota .tc S512x512 32 [1] h (ix2 r j) = BitVec.ofNat 32 j.val :=
  iota_single_apply .tc S512x512 32 1 h (ix2 r j)

section Block

variable (q k v : T3) (b : Fin 8) (qb kb : Fin 4) (x0 x1 x2 : Vec Ideal S1x512x1024 .bf16)

/-- The masked, scaled scores of the query block against the key block: entry (r, j) is the masked score of
    query position qb * 512 + r against key position kb * 512 + j. -/
theorem pay8_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (r j : Fin 512) :
    Gen.k1_pay8 (F := Ideal) (BitVec.ofNat 32 qb.val) (BitVec.ofNat 32 kb.val) x0 x1 (ix2 r j)
      = Cert.AttnSpec.blockScore q k b (pos qb r) kb.val j := by
  unfold Gen.k1_pay8
  show Scalar.select (IntOp.cmpi .sge
        (IntOp.addi (Scalar.muli (BitVec.ofNat 32 qb.val) 512#32) (iota .tc S512x512 32 [0] _ (ix2 r j)))
        (IntOp.addi (Scalar.muli (BitVec.ofNat 32 kb.val) 512#32) (iota .tc S512x512 32 [1] _ (ix2 r j))))
      (matmul dot_S512x1024_S1024x512_S512x512_1_0_0_1_n_n none (shapeCast S512x1024 x0 _)
          (transpose S1024x512 [1, 0] (shapeCast S512x1024 x1 _) _) (constant S512x512 .f32 0x00000000#32) (ix2 r j)
        * Ideal.ofBits .f32 0x3D000000#32)
      (Named.named (F := Ideal) κ "neg_big" (φ := .f32) 0xFF333332#32) = _
  rw [iota0_apply, iota1_apply, mask_select qb.val kb.val r.val j.val qb.isLt kb.isLt r.isLt j.isLt,
    matmul_qk_apply, named_neg_big, ofBits_inv32]
  have hsum : ∑ d : Fin 1024, shapeCast S512x1024 x0 Gen.shapeCasts_S1x512x1024_S512x1024 (ix2 r d)
        * transpose S1024x512 [1, 0] (shapeCast S512x1024 x1 Gen.shapeCasts_S1x512x1024_S512x1024)
            Gen.transposes_S512x1024_p1_0_S1024x512 (ix2 d j)
      = ∑ d : Fin 1024, q b (pos qb r) d * k b (pos kb j) d :=
    Finset.sum_congr rfl fun d _ => by
      rw [transpose_ix2_apply, shapeCast_1ab_ab_apply, shapeCast_1ab_ab_apply, hx0, hx1]
  rw [hsum]
  unfold Cert.AttnSpec.blockScore Cert.AttnSpec.masked Cert.AttnSpec.score
  rw [col_eq_pos]
  rfl

theorem exp_apply {s : Shape} {φ : FTy} (a : FVec Ideal s φ) (i : s.Idx) : exp a i = Ideal.exp (a i) := rfl

/-- The running maximum after the block: the old maximum against the block's row maximum. -/
theorem pay9_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m : Vec Ideal S512x1 .f32) (r : Fin 512) :
    Gen.k1_pay9 (F := Ideal) (BitVec.ofNat 32 qb.val) (BitVec.ofNat 32 kb.val) x0 x1 m (ix2 r (0 : Fin 1))
      = max (m (ix2 r (0 : Fin 1)))
              ((Finset.univ : Finset (Fin 512)).fold max ⊥ (Cert.AttnSpec.blockScore q k b (pos qb r) kb.val)) := by
  unfold Gen.k1_pay9
  try dsimp only
  rw [maximumf_apply, shapeCast_a_a1_apply, rowMax_apply]
  exact congrArg (max (m (ix2 r (0 : Fin 1))))
    (Finset.fold_congr fun j _ => pay8_apply q k b qb kb x0 x1 hx0 hx1 r j)

/-- The block's weights relative to the new maximum. -/
theorem pay10_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m : Vec Ideal S512x1 .f32) (r j : Fin 512) :
    Gen.k1_pay10 (F := Ideal) (BitVec.ofNat 32 qb.val) (BitVec.ofNat 32 kb.val) x0 x1 m (ix2 r j)
      = Ideal.exp (Cert.AttnSpec.blockScore q k b (pos qb r) kb.val j
          - max (m (ix2 r (0 : Fin 1)))
              ((Finset.univ : Finset (Fin 512)).fold max ⊥ (Cert.AttnSpec.blockScore q k b (pos qb r) kb.val))) := by
  unfold Gen.k1_pay10
  try dsimp only
  rw [exp_apply, subf_apply, broadcastTo_a1_ab_apply, pay8_apply q k b qb kb x0 x1 hx0 hx1,
    pay9_apply q k b qb kb x0 x1 hx0 hx1]

/-- The factor that rescales the old sums to the new maximum. -/
theorem pay11_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m : Vec Ideal S512x1 .f32) (r : Fin 512) :
    Gen.k1_pay11 (F := Ideal) (BitVec.ofNat 32 qb.val) (BitVec.ofNat 32 kb.val) x0 x1 m (ix2 r (0 : Fin 1))
      = Ideal.exp (m (ix2 r (0 : Fin 1))
          - max (m (ix2 r (0 : Fin 1)))
              ((Finset.univ : Finset (Fin 512)).fold max ⊥ (Cert.AttnSpec.blockScore q k b (pos qb r) kb.val))) := by
  unfold Gen.k1_pay11
  try dsimp only
  rw [exp_apply, subf_apply, pay9_apply q k b qb kb x0 x1 hx0 hx1]

/-- The running denominator after the block. -/
theorem pay12_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m l : Vec Ideal S512x1 .f32) (r : Fin 512) :
    Gen.k1_pay12 (F := Ideal) (BitVec.ofNat 32 qb.val) (BitVec.ofNat 32 kb.val) x0 x1 m l (ix2 r (0 : Fin 1))
      = Ideal.exp (m (ix2 r (0 : Fin 1))
          - max (m (ix2 r (0 : Fin 1)))
              ((Finset.univ : Finset (Fin 512)).fold max ⊥ (Cert.AttnSpec.blockScore q k b (pos qb r) kb.val)))
          * l (ix2 r (0 : Fin 1))
        + ∑ j : Fin 512, Ideal.exp (Cert.AttnSpec.blockScore q k b (pos qb r) kb.val j
          - max (m (ix2 r (0 : Fin 1)))
              ((Finset.univ : Finset (Fin 512)).fold max ⊥ (Cert.AttnSpec.blockScore q k b (pos qb r) kb.val))) := by
  unfold Gen.k1_pay12
  try dsimp only
  rw [shapeCast_self, addf_apply, mulf_apply, shapeCast_a_a1_apply, rowSum_apply,
    pay11_apply q k b qb kb x0 x1 hx0 hx1]
  exact congrArg (_ + ·) (Finset.sum_congr rfl fun j _ => pay10_apply q k b qb kb x0 x1 hx0 hx1 m r j)

/-- The value block with its leading unit axis dropped. -/
theorem pay7_apply
    (hx2 : ∀ (j : Fin 512) (c : Fin 1024), x2 (ix3 (0 : Fin 1) j c) = v b (pos kb j) c)
    (j : Fin 512) (c : Fin 1024) : Gen.k1_pay7 (F := Ideal) x2 (ix2 j c) = v b (pos kb j) c := by
  unfold Gen.k1_pay7
  exact (shapeCast_1ab_ab_apply x2 _ j c).trans (hx2 j c)

/-- The running numerator after the block. -/
theorem pay4_apply
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (hx2 : ∀ (j : Fin 512) (c : Fin 1024), x2 (ix3 (0 : Fin 1) j c) = v b (pos kb j) c)
    (m : Vec Ideal S512x1 .f32) (a : Vec Ideal S512x1024 .f32) (r : Fin 512) (c : Fin 1024) :
    Gen.k1_pay4 (F := Ideal) (Gen.k1_pay7 x2)
        (Gen.k1_pay10 (BitVec.ofNat 32 qb.val) (BitVec.ofNat 32 kb.val) x0 x1 m)
        (Gen.k1_pay11 (BitVec.ofNat 32 qb.val) (BitVec.ofNat 32 kb.val) x0 x1 m) a (ix2 r c)
      = Ideal.exp (m (ix2 r (0 : Fin 1))
          - max (m (ix2 r (0 : Fin 1)))
              ((Finset.univ : Finset (Fin 512)).fold max ⊥ (Cert.AttnSpec.blockScore q k b (pos qb r) kb.val)))
          * a (ix2 r c)
        + ∑ j : Fin 512, Ideal.exp (Cert.AttnSpec.blockScore q k b (pos qb r) kb.val j
          - max (m (ix2 r (0 : Fin 1)))
              ((Finset.univ : Finset (Fin 512)).fold max ⊥ (Cert.AttnSpec.blockScore q k b (pos qb r) kb.val)))
            * v b (Cert.AttnSpec.col kb.val j) c := by
  unfold Gen.k1_pay4
  try dsimp only
  rw [shapeCast_self, addf_apply, mulf_apply, broadcastTo_a1_ab_apply, matmul_pv_apply,
    pay11_apply q k b qb kb x0 x1 hx0 hx1]
  refine congrArg (_ + ·) (Finset.sum_congr rfl fun j _ => ?_)
  rw [truncf_apply, pay10_apply q k b qb kb x0 x1 hx0 hx1, col_eq_pos, pay7_apply v b kb x2 hx2]

/-! ### The three payload groups against the specification's state -/

/-- FOLD, the maximum: what the kernel stores as the new running maximum of row r is the specification's
    step applied to the row's state. -/
theorem fold_m
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m : Vec Ideal S512x1 .f32) (s : Fin 512 → St) (hm : ∀ r, m (ix2 r (0 : Fin 1)) = (s r).m) (r : Fin 512) :
    Gen.k1_pay5 (F := Ideal) (Gen.k1_pay9 (BitVec.ofNat 32 qb.val) (BitVec.ofNat 32 kb.val) x0 x1 m) (ix2 r (0 : Fin 1))
      = (Cert.AttnSpec.step q k v b (pos qb r) kb.val (s r)).m := by
  unfold Gen.k1_pay5
  try dsimp only
  rw [shapeCast_self, pay9_apply q k b qb kb x0 x1 hx0 hx1, hm r]
  rfl

/-- FOLD, the denominator. -/
theorem fold_l
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (m l : Vec Ideal S512x1 .f32) (s : Fin 512 → St) (hm : ∀ r, m (ix2 r (0 : Fin 1)) = (s r).m)
    (hl : ∀ r, l (ix2 r (0 : Fin 1)) = (s r).l) (r : Fin 512) :
    Gen.k1_pay12 (F := Ideal) (BitVec.ofNat 32 qb.val) (BitVec.ofNat 32 kb.val) x0 x1 m l (ix2 r (0 : Fin 1))
      = (Cert.AttnSpec.step q k v b (pos qb r) kb.val (s r)).l := by
  rw [pay12_apply q k b qb kb x0 x1 hx0 hx1, hm r, hl r]
  rfl

/-- FOLD, the numerator. -/
theorem fold_acc
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (hx2 : ∀ (j : Fin 512) (c : Fin 1024), x2 (ix3 (0 : Fin 1) j c) = v b (pos kb j) c)
    (m : Vec Ideal S512x1 .f32) (a : Vec Ideal S512x1024 .f32) (s : Fin 512 → St)
    (hm : ∀ r, m (ix2 r (0 : Fin 1)) = (s r).m) (ha : ∀ r cc, a (ix2 r cc) = (s r).acc cc)
    (r : Fin 512) (cc : Fin 1024) :
    Gen.k1_pay4 (F := Ideal) (Gen.k1_pay7 x2)
        (Gen.k1_pay10 (BitVec.ofNat 32 qb.val) (BitVec.ofNat 32 kb.val) x0 x1 m)
        (Gen.k1_pay11 (BitVec.ofNat 32 qb.val) (BitVec.ofNat 32 kb.val) x0 x1 m) a (ix2 r cc)
      = (Cert.AttnSpec.step q k v b (pos qb r) kb.val (s r)).acc cc := by
  rw [pay4_apply q k v b qb kb x0 x1 x2 hx0 hx1 hx2, hm r, ha r cc]
  rfl

end Block

/-- RESET, the maximum: -∞. -/
theorem reset_m (r : Fin 512) : Gen.k1_pay1 (F := Ideal) (ix2 r (0 : Fin 1)) = St.init.m := by
  unfold Gen.k1_pay1
  try dsimp only
  rw [shapeCast_self]
  exact named_neg_big

/-- RESET, the denominator: zero. -/
theorem reset_l (r : Fin 512) : Gen.k1_pay2 (F := Ideal) (ix2 r (0 : Fin 1)) = 0 := by
  unfold Gen.k1_pay2
  try dsimp only
  rw [shapeCast_self]
  exact Ideal.ofBits_zero_f32

/-- RESET, the numerator: zero. -/
theorem reset_acc (r : Fin 512) (cc : Fin 1024) : Gen.k1_pay3 (F := Ideal) (ix2 r cc) = 0 := by
  unfold Gen.k1_pay3
  try dsimp only
  rw [shapeCast_self]
  exact Ideal.ofBits_zero_f32

/-- QUOTIENT: what the kernel stores at the end is the numerator divided by the row's denominator. -/
theorem quotient_apply (a : Vec Ideal S512x1024 .f32) (l : Vec Ideal S512x1 .f32) (r : Fin 512) (cc : Fin 1024) :
    Gen.k1_pay6 (F := Ideal) a l (ix3 (0 : Fin 1) r cc) = Ideal.div (a (ix2 r cc)) (l (ix2 r (0 : Fin 1))) := by
  unfold Gen.k1_pay6
  try dsimp only
  rw [shapeCast_ab_1ab_apply, divf_apply, broadcastTo_a1_ab_apply]

end Cert.KernelIdeal.Hand

end
-- ==== Proof.KI.R1ValStep.lean ====
/-
  One grid point of the attention kernel against the specification's block-by-block state.

  Write q, k, v for the three arrays read by coordinates. Fix a batch b and a query block qb. "The running
  values are the state after n blocks" means: for every row r of the block, the running maximum, denominator
  and numerator at row r are the three fields of the specification's state of row qb * 512 + r after its first
  n blocks. Folding key block kb into running values that are the state after kb blocks gives the state after
  kb + 1 blocks: entry by entry the stored values are the specification's step, and the state after kb + 1 blocks
  is by definition that step applied to the state after kb blocks. When kb = qb the stored quotient is
  numerator / denominator of the state after qb + 1 blocks, and qb = (qb * 512 + r) / 512, so it is the
  block-by-block attention of row qb * 512 + r.

  The blocks a point is handed: the query block is rows qb * 512 + r of batch b of q; the key and value blocks are
  rows (min kb qb) * 512 + j of k and v, which is kb * 512 + j when kb ≤ qb.
-/
import proofs.«109232_j17575006175501_2_alg».proof.Proof.KI.R1Blocks
import proofs.«109232_j17575006175501_2_alg».proof.Proof.KI.R1Payload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.AttnSpec (T3 St)

/-- The running maximum, denominator and numerator are, row by row, the state after n blocks. -/
def StateIs (q k v : T3) (b : Fin 8) (qb : Fin 4) (n : ℕ) (S : St1 Ideal) : Prop :=
  ∀ r : Fin 512,
    S.2.1 (ix2 r (0 : Fin 1)) = (Cert.AttnSpec.stateAfter q k v b (pos qb r) n).m
    ∧ S.2.2.1 (ix2 r (0 : Fin 1)) = (Cert.AttnSpec.stateAfter q k v b (pos qb r) n).l
    ∧ ∀ cc : Fin 1024, S.2.2.2 (ix2 r cc) = (Cert.AttnSpec.stateAfter q k v b (pos qb r) n).acc cc

/-- The output buffer holds, row by row, the block-by-block attention of the query block's rows. -/
def OutIs (q k v : T3) (b : Fin 8) (qb : Fin 4) (S : St1 Ideal) : Prop :=
  ∀ (r : Fin 512) (cc : Fin 1024),
    S.1 (ix3 (0 : Fin 1) r cc) = Cert.AttnSpec.attnOnline q k v b (pos qb r) cc

/-- Folding key block kb into running values that are the state after kb blocks leaves the state after
    kb + 1 blocks. -/
theorem fold_state (q k v : T3) (b : Fin 8) (qb kb : Fin 4) (a1 a2 : BitVec 32)
    (ha1 : a1 = BitVec.ofNat 32 qb.val) (ha2 : a2 = BitVec.ofNat 32 kb.val)
    (x0 x1 x2 : Vec Ideal S1x512x1024 .bf16)
    (hx0 : ∀ (r : Fin 512) (d : Fin 1024), x0 (ix3 (0 : Fin 1) r d) = q b (pos qb r) d)
    (hx1 : ∀ (j : Fin 512) (d : Fin 1024), x1 (ix3 (0 : Fin 1) j d) = k b (pos kb j) d)
    (hx2 : ∀ (j : Fin 512) (c : Fin 1024), x2 (ix3 (0 : Fin 1) j c) = v b (pos kb j) c)
    (S : St1 Ideal) (mx den : Vec Ideal S512x1 .f32) (num : Vec Ideal S512x1024 .f32)
    (e1 : S.2.1 = k1_pay5 (F := Ideal) (k1_pay9 a1 a2 x0 x1 mx))
    (e2 : S.2.2.1 = k1_pay12 (F := Ideal) a1 a2 x0 x1 mx den)
    (e3 : S.2.2.2 = k1_pay4 (F := Ideal) (k1_pay7 x2) (k1_pay10 a1 a2 x0 x1 mx) (k1_pay11 a1 a2 x0 x1 mx) num)
    (hst : ∀ r : Fin 512,
      mx (ix2 r (0 : Fin 1)) = (Cert.AttnSpec.stateAfter q k v b (pos qb r) kb.val).m
      ∧ den (ix2 r (0 : Fin 1)) = (Cert.AttnSpec.stateAfter q k v b (pos qb r) kb.val).l
      ∧ ∀ cc : Fin 1024, num (ix2 r cc) = (Cert.AttnSpec.stateAfter q k v b (pos qb r) kb.val).acc cc) :
    StateIs q k v b qb (kb.val + 1) S := by
  subst ha1 ha2
  intro r
  refine ⟨?_, ?_, fun cc => ?_⟩
  · rw [e1]
    exact fold_m q k v b qb kb x0 x1 hx0 hx1 mx (fun r => Cert.AttnSpec.stateAfter q k v b (pos qb r) kb.val)
      (fun r => (hst r).1) r
  · rw [e2]
    exact fold_l q k v b qb kb x0 x1 hx0 hx1 mx den (fun r => Cert.AttnSpec.stateAfter q k v b (pos qb r) kb.val)
      (fun r => (hst r).1) (fun r => (hst r).2.1) r
  · rw [e3]
    exact fold_acc q k v b qb kb x0 x1 x2 hx0 hx1 hx2 mx num
      (fun r => Cert.AttnSpec.stateAfter q k v b (pos qb r) kb.val)
      (fun r => (hst r).1) (fun r cc => (hst r).2.2 cc) r cc

/-- After the reset the running values are the state after no block. -/
theorem reset_state (q k v : T3) (b : Fin 8) (qb : Fin 4) (r : Fin 512) :
    k1_pay1 (F := Ideal) (ix2 r (0 : Fin 1)) = (Cert.AttnSpec.stateAfter q k v b (pos qb r) 0).m
    ∧ k1_pay2 (F := Ideal) (ix2 r (0 : Fin 1)) = (Cert.AttnSpec.stateAfter q k v b (pos qb r) 0).l
    ∧ ∀ cc : Fin 1024, k1_pay3 (F := Ideal) (ix2 r cc) = (Cert.AttnSpec.stateAfter q k v b (pos qb r) 0).acc cc :=
  ⟨reset_m r, reset_l r, fun cc => reset_acc r cc⟩

/-- On the diagonal the stored quotient is the block-by-block attention. -/
theorem out_of_quot (q k v : T3) (b : Fin 8) (qb : Fin 4) (n : ℕ) (hn : n = qb.val) (S : St1 Ideal)
    (hq : S.1 = k1_pay6 (F := Ideal) S.2.2.2 S.2.2.1) (hst : StateIs q k v b qb (n + 1) S) :
    OutIs q k v b qb S := by
  intro r cc
  have hdiv : (pos qb r).val / 512 + 1 = n + 1 := by
    have := r.isLt
    show (qb.val * 512 + r.val) / 512 + 1 = n + 1
    omega
  refine (congrFun hq _).trans ((quotient_apply S.2.2.2 S.2.2.1 r cc).trans ?_)
  rw [(hst r).2.2 cc, (hst r).2.1]
  unfold Cert.AttnSpec.attnOnline
  rw [hdiv]

section Blocks

variable (V : (c : Dev nD) → (b : Ref sig .tc) → Buf (Elt Ideal) ((c : Thread nD τ).loc b))

/-- The three blocks a point with kb ≤ qb is handed, as rows of the three arrays. -/
theorem blocks_at (c : Dev nD) (t : Fin cfg1.N) (b : Fin 8) (qb kb : Fin 4)
    (hb : b.val = t.val / 16) (hqb : qb.val = t.val / 4 % 4) (hkb : kb.val = t.val % 4) (hle : kb.val ≤ qb.val) :
    (∀ (r : Fin 512) (d : Fin 1024),
      iblk1 V c 0 t (ix3 (0 : Fin 1) r d) = Cert.AttnSpec.arr3 (V c main_v6) b (pos qb r) d)
    ∧ (∀ (j : Fin 512) (d : Fin 1024),
      iblk1 V c 1 t (ix3 (0 : Fin 1) j d) = Cert.AttnSpec.arr3 (V c main_v7) b (pos kb j) d)
    ∧ (∀ (j : Fin 512) (cc : Fin 1024),
      iblk1 V c 2 t (ix3 (0 : Fin 1) j cc) = Cert.AttnSpec.arr3 (V c main_v8) b (pos kb j) cc) := by
  have hmin : min (t.val % 4) (t.val / 4 % 4) = kb.val := by rw [hkb, hqb] at hle; rw [Nat.min_eq_left hle, hkb]
  refine ⟨fun r d => ?_, fun j d => ?_, fun j cc => ?_⟩
  · exact (iblk1_0_apply V c t r d).trans
      (congrArg₂ (fun (x : Fin 8) (y : Fin 2048) => (V c main_v6 : S8x2048x1024.Idx → EReal) (ix3 x y d))
        (Fin.ext hb.symm) (Fin.ext (by show t.val / 4 % 4 * 512 + r.val = qb.val * 512 + r.val; rw [hqb])))
  · exact (iblk1_1_apply V c t j d).trans
      (congrArg₂ (fun (x : Fin 8) (y : Fin 2048) => (V c main_v7 : S8x2048x1024.Idx → EReal) (ix3 x y d))
        (Fin.ext hb.symm)
        (Fin.ext (by show min (t.val % 4) (t.val / 4 % 4) * 512 + j.val = kb.val * 512 + j.val; rw [hmin])))
  · exact (iblk1_2_apply V c t j cc).trans
      (congrArg₂ (fun (x : Fin 8) (y : Fin 2048) => (V c main_v8 : S8x2048x1024.Idx → EReal) (ix3 x y cc))
        (Fin.ext hb.symm)
        (Fin.ext (by show min (t.val % 4) (t.val / 4 % 4) * 512 + j.val = kb.val * 512 + j.val; rw [hmin])))

end Blocks

end Cert.KernelIdeal.Hand

end
-- ==== Proof.KI.R1Value.lean ====
/-
  The attention kernel's output array is the block-by-block attention of the three arrays it reads.

  Point t of the grid is (b, qb, kb) = (t / 16, t / 4 % 4, t % 4), the key block fastest. By induction on t:
  (i) if kb ≤ qb, the running maximum, denominator and numerator after the point are, row by row, the
  specification's state after kb + 1 blocks — at kb = 0 the point resets and folds block 0; at 0 < kb ≤ qb it
  folds block kb into what the point before (same b and qb, key block kb - 1 ≤ qb) left;
  (ii) if kb ≥ qb, the output buffer after the point holds the block-by-block attention of the rows of
  block qb — at kb = qb it is the quotient of the numerator and the denominator of (i), and at kb > qb no
  part of the body runs and the buffer is what the point before (key block kb - 1 ≥ qb) left.
  The output block is written back after kb = 3 ≥ qb, so every block written back is its block of the
  block-by-block attention, and these blocks cover the output array.
-/
import proofs.«109232_j17575006175501_2_alg».proof.Proof.KI.R1Pieces
import proofs.«109232_j17575006175501_2_alg».proof.Proof.KI.R1ValStep

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.AttnSpec (T3 St)

variable (V : (c : Dev nD) → (b : Ref sig .tc) → Buf (Elt Ideal) ((c : Thread nD τ).loc b))

/-- The invariant at point t. -/
def InvAt (c : Dev nD) (t : Fin cfg1.N) : Prop :=
  ∀ (b : Fin 8) (qb : Fin 4), b.val = t.val / 16 → qb.val = t.val / 4 % 4 →
    (t.val % 4 ≤ qb.val →
      StateIs (Cert.AttnSpec.arr3 (V c main_v6)) (Cert.AttnSpec.arr3 (V c main_v7)) (Cert.AttnSpec.arr3 (V c main_v8))
        b qb (t.val % 4 + 1) (outsAt1 V c t.val t.isLt))
    ∧ (qb.val ≤ t.val % 4 →
      OutIs (Cert.AttnSpec.arr3 (V c main_v6)) (Cert.AttnSpec.arr3 (V c main_v7)) (Cert.AttnSpec.arr3 (V c main_v8))
        b qb (outsAt1 V c t.val t.isLt))

theorem inv_all (c : Dev nD) : ∀ (n : ℕ) (t : Fin cfg1.N), t.val = n → InvAt V c t := by
  intro n
  induction n using Nat.strong_induction_on with
  | _ n ih =>
    intro t htn b qb hb hqb
    have hN := lt128 t
    have hS := outsAt1_eq V c t
    obtain ⟨-, hc1, hc2⟩ := coords1 t
    have hk4 : t.val % 4 < 4 := Nat.mod_lt _ (by norm_num)
    -- the key block of the point, as an index
    obtain ⟨kb, hkb⟩ : ∃ kb : Fin 4, kb.val = t.val % 4 := ⟨⟨t.val % 4, hk4⟩, rfl⟩
    have ha1 : BitVec.ofNat 32 ((grid1.coords t) 1).val = BitVec.ofNat 32 qb.val := by rw [hc1, hqb]
    have ha2 : BitVec.ofNat 32 ((grid1.coords t) 2).val = BitVec.ofNat 32 kb.val := by rw [hc2, hkb]
    rw [hS, ← hkb]
    by_cases h0 : isFirst (grid1.coords t)
    · -- kb = 0: the reset, then the fold of block 0
      have hk0 : t.val % 4 = 0 := (isFirst_iff t).mp h0
      have h1 := causal_of_first t h0
      have hle : kb.val ≤ qb.val := by omega
      obtain ⟨hx0, hx1, hx2⟩ := blocks_at V c t b qb kb hb hqb hkb hle
      have hkz : kb.val = 0 := by omega
      by_cases h2 : isDiag (grid1.coords t)
      · have hd : t.val % 4 = t.val / 4 % 4 := (isDiag_iff t).mp h2
        rw [stepAt_A V c t _ h0 h2]
        have hst := fold_state _ _ _ b qb kb _ _ ha1 ha2 _ _ _ hx0 hx1 hx2 (stA V c t h0 h1 h2) _ _ _
          (stA_max V c t h0 h1 h2) (stA_den V c t h0 h1 h2) (stA_num V c t h0 h1 h2)
          (fun r => by rw [hkz]; exact reset_state _ _ _ b qb r)
        exact ⟨fun _ => hst, fun _ => out_of_quot _ _ _ b qb kb.val (by omega) _ (stA_out V c t h0 h1 h2) hst⟩
      · have hd : ¬ t.val % 4 = t.val / 4 % 4 := fun h => h2 ((isDiag_iff t).mpr h)
        rw [stepAt_B V c t _ h0 h2]
        have hst := fold_state _ _ _ b qb kb _ _ ha1 ha2 _ _ _ hx0 hx1 hx2 (stB V c t h0 h1 h2 (prevSt V c t)) _ _ _
          (stB_max V c t h0 h1 h2 _) (stB_den V c t h0 h1 h2 _) (stB_num V c t h0 h1 h2 _)
          (fun r => by rw [hkz]; exact reset_state _ _ _ b qb r)
        exact ⟨fun _ => hst, fun h => absurd h (by omega)⟩
    · have hk0 : ¬ t.val % 4 = 0 := fun h => h0 ((isFirst_iff t).mpr h)
      have hz : t.val ≠ 0 := by omega
      have hp := prevSt_pos V c t hz
      -- the point before: same batch and query block, key block kb - 1
      have hlt' : t.val - 1 < cfg1.N := Nat.lt_of_le_of_lt (Nat.sub_le _ _) t.isLt
      have ih' := ih (t.val - 1) (by omega) ⟨t.val - 1, hlt'⟩ rfl b qb
        (by show b.val = (t.val - 1) / 16; omega) (by show qb.val = (t.val - 1) / 4 % 4; omega)
      have hkp : (t.val - 1) % 4 + 1 = kb.val := by omega
      have hkp' : (t.val - 1) % 4 = kb.val - 1 := by omega
      by_cases h1 : isCausal (grid1.coords t)
      · -- 0 < kb ≤ qb: fold block kb into what the point before left
        have hle' : t.val % 4 ≤ t.val / 4 % 4 := (isCausal_iff t).mp h1
        have hle : kb.val ≤ qb.val := by omega
        obtain ⟨hx0, hx1, hx2⟩ := blocks_at V c t b qb kb hb hqb hkb hle
        have hprev : StateIs (Cert.AttnSpec.arr3 (V c main_v6)) (Cert.AttnSpec.arr3 (V c main_v7))
            (Cert.AttnSpec.arr3 (V c main_v8)) b qb kb.val (prevSt V c t) := by
          rw [hp, ← hkp]
          exact ih'.1 (by show (t.val - 1) % 4 ≤ qb.val; omega)
        by_cases h2 : isDiag (grid1.coords t)
        · have hd : t.val % 4 = t.val / 4 % 4 := (isDiag_iff t).mp h2
          rw [stepAt_D V c t _ h0 h1 h2]
          have hst := fold_state _ _ _ b qb kb _ _ ha1 ha2 _ _ _ hx0 hx1 hx2 (stD V c t h0 h1 h2 (prevSt V c t)) _ _ _
            (stD_max V c t h0 h1 h2 _) (stD_den V c t h0 h1 h2 _) (stD_num V c t h0 h1 h2 _) hprev
          exact ⟨fun _ => hst, fun _ => out_of_quot _ _ _ b qb kb.val (by omega) _ (stD_out V c t h0 h1 h2 _) hst⟩
        · have hd : ¬ t.val % 4 = t.val / 4 % 4 := fun h => h2 ((isDiag_iff t).mpr h)
          rw [stepAt_C V c t _ h0 h1 h2]
          have hst := fold_state _ _ _ b qb kb _ _ ha1 ha2 _ _ _ hx0 hx1 hx2 (stC V c t h0 h1 h2 (prevSt V c t)) _ _ _
            (stC_max V c t h0 h1 h2 _) (stC_den V c t h0 h1 h2 _) (stC_num V c t h0 h1 h2 _) hprev
          exact ⟨fun _ => hst, fun h => absurd h (by omega)⟩
      · -- kb > qb: nothing runs
        have hgt : ¬ t.val % 4 ≤ t.val / 4 % 4 := fun h => h1 ((isCausal_iff t).mpr h)
        rw [stepAt_E V c t _ h0 h1, hp]
        exact ⟨fun h => absurd h (by omega), fun _ => ih'.2 (by show qb.val ≤ (t.val - 1) % 4; omega)⟩

/-- The output array after the attention kernel. -/
theorem region1_value (c : Dev nD) :
    ((dat1 (F := Ideal) V c).arrAt 3 cfg1.N : S8x2048x1024.Idx → EReal)
      = fun idx => Cert.AttnSpec.attnOnline (Cert.AttnSpec.arr3 (V c main_v6)) (Cert.AttnSpec.arr3 (V c main_v7))
          (Cert.AttnSpec.arr3 (V c main_v8)) (idx 0) (idx 1) (idx 2) := by
  refine out_array V c _ fun t h3 r cc => ?_
  rw [after1_3]
  have hN := lt128 t
  exact (inv_all V c t.val t rfl ⟨t.val / 16, by omega⟩ ⟨t.val / 4 % 4, by omega⟩ rfl rfl).2
    (by show t.val / 4 % 4 ≤ t.val % 4; omega) r cc

end Cert.KernelIdeal.Hand

end
-- ==== Proof.KI.Region0Value.lean ====
/-
  The projection kernel's three output arrays, after its last grid point, over the extended reals.

  At point `t` the kernel multiplies rows `1024 t … 1024 t + 1023` of the activations `X` (`16384 × 1024`) by a whole
  weight matrix `W` (`1024 × 1024`), into a zero accumulator; narrowing the product is the identity on extended
  reals. So entry `(p, q)` of the block stored at point `t` is `∑ d, X (1024 t + p, d) * W (d, q)`, which is entry
  `(1024 t + p, q)` of the one product `X · W` (`projOf X W`): every block written back is a block of the same
  whole-array function. Row `r` lies in the block of point `r / 1024`, every point writes its block back, so after
  the last point the output array is `projOf X W` — for each of the three weight matrices.
-/
import proofs.«109232_j17575006175501_2_alg».proof.Proof.KI.Region0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## One entry of a block product -/

/-- Entry `j` of a product reads the left factor in `j`'s own row … -/
theorem lhs_row (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … at the summation index's column; -/
theorem lhs_col (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
/-- the right factor at the summation index's row … -/
theorem rhs_row (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
/-- … in `j`'s own column. -/
theorem rhs_col (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A product accumulated from zero, at entry `(p, q)`: row `p` of the left factor against column `q` of the right,
    summed over the 1024 shared coordinates. -/
theorem matmul_entry (a b : FVec Ideal S1024x1024 .bf16) (p q : Fin 1024) :
    (matmul (F := Ideal) dot_S1024x1024_S1024x1024_S1024x1024_1_0_0_1_n_n none a b (constant (F := Ideal) S1024x1024 .f32 0x00000000#32) : S1024x1024.Idx → EReal) (ix2 p q)
      = ∑ d : Fin 1024, (a : S1024x1024.Idx → EReal) (ix2 p d) * (b : S1024x1024.Idx → EReal) (ix2 d q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- What the body stores into the first output block, at entry `(p, q)`: the casts keep the shape, the narrowing is
    the identity, so it is the product's entry. -/
theorem stored4_entry (x w : Vec Ideal S1024x1024 .bf16) (p q : Fin 1024) :
    (k0_pay2 (F := Ideal) x w : S1024x1024.Idx → EReal) (ix2 p q)
      = ∑ d : Fin 1024, (x : S1024x1024.Idx → EReal) (ix2 p d) * (w : S1024x1024.Idx → EReal) (ix2 d q) := by
  unfold k0_pay2 k0_pay1
  simp only [shapeCast_self]
  exact matmul_entry x w p q

/-- The same for the second output block. -/
theorem stored5_entry (x w : Vec Ideal S1024x1024 .bf16) (p q : Fin 1024) :
    (k0_pay3 (F := Ideal) x w : S1024x1024.Idx → EReal) (ix2 p q)
      = ∑ d : Fin 1024, (x : S1024x1024.Idx → EReal) (ix2 p d) * (w : S1024x1024.Idx → EReal) (ix2 d q) := by
  unfold k0_pay3 k0_pay1
  simp only [shapeCast_self]
  exact matmul_entry x w p q

/-- The same for the third output block. -/
theorem stored6_entry (x w : Vec Ideal S1024x1024 .bf16) (p q : Fin 1024) :
    (k0_pay4 (F := Ideal) x w : S1024x1024.Idx → EReal) (ix2 p q)
      = ∑ d : Fin 1024, (x : S1024x1024.Idx → EReal) (ix2 p d) * (w : S1024x1024.Idx → EReal) (ix2 d q) := by
  unfold k0_pay4 k0_pay1
  simp only [shapeCast_self]
  exact matmul_entry x w p q

/-! ## The whole product, and the blocks as parts of it -/

/-- The product of the activations `x` (`16384 × 1024`) with a weight matrix `w` (`1024 × 1024`): entry `(r, n)` is
    row `r` of `x` against column `n` of `w`. -/
def projOf (x : S16384x1024.Idx → EReal) (w : S1024x1024.Idx → EReal) : S16384x1024.Idx → EReal :=
  fun idx => ∑ d : Fin 1024, x (ix2 (idx 0) d) * w (ix2 d (idx 1))

theorem projOf_apply (x : S16384x1024.Idx → EReal) (w : S1024x1024.Idx → EReal) (idx : S16384x1024.Idx) :
    projOf x w idx = ∑ d : Fin 1024, x (ix2 (idx 0) d) * w (ix2 d (idx 1)) := rfl

variable (V : (c : Dev nD) → (b : Ref sig .tc) → Buf (Elt Ideal) ((c : Thread nD τ).loc b))

/-- The offset `(0, 0)` of every access of the body. -/
theorem origin_zero : (![0, 0] : Fin 2 → Nat) = fun _ => 0 := funext fun a => by fin_cases a <;> rfl

/-- Where each window sits at point `t`: the activation window and the three output windows on row block `t`,
    the three weight windows on the whole matrix. -/
theorem window_places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The activation block at point `t` is rows `1024 t … 1024 t + 1023` of the activations. -/
theorem act_block_entry (c : Dev nD) (t : Fin cfg0.N) (y : S1024x1024.Idx) (k : S16384x1024.Idx)
    (hk0 : (k 0).val = 1024 * t.val + (y 0).val) (hk1 : (k 1).val = (y 1).val) :
    (entryBlock V c 0 t : Vec Ideal S1024x1024 .bf16) y = (V c main_v4 : S16384x1024.Idx → EReal) k := by
  have hi := (window_places t).1
  unfold entryBlock
  rw [View.read_apply]
  show V c main_v4 _ = V c main_v4 _
  congr 1
  funext a
  apply Fin.ext
  match a with
  | ⟨0, _⟩ => show win0_0.index t 0 * 1024 + 1 * (y 0).val = (k 0).val; rw [hi.1, hk0]; omega
  | ⟨1, _⟩ => show win0_0.index t 1 * 1024 + 1 * (y 1).val = (k 1).val; rw [hi.2, hk1]; omega

/-- The first weight window's block, at every point, is the whole matrix. -/
theorem w1_block_entry (c : Dev nD) (t : Fin cfg0.N) (y : S1024x1024.Idx) :
    (entryBlock V c 1 t : Vec Ideal S1024x1024 .bf16) y = (V c main_v1 : S1024x1024.Idx → EReal) y := by
  have hi := (window_places t).2.1
  unfold entryBlock
  rw [View.read_apply]
  show V c main_v1 _ = V c main_v1 _
  congr 1
  funext a
  apply Fin.ext
  match a with
  | ⟨0, _⟩ => show win0_1.index t 0 * 1024 + 1 * (y 0).val = (y 0).val; rw [hi.1]; omega
  | ⟨1, _⟩ => show win0_1.index t 1 * 1024 + 1 * (y 1).val = (y 1).val; rw [hi.2]; omega

/-- The second weight window's block, at every point, is the whole matrix. -/
theorem w2_block_entry (c : Dev nD) (t : Fin cfg0.N) (y : S1024x1024.Idx) :
    (entryBlock V c 2 t : Vec Ideal S1024x1024 .bf16) y = (V c main_v2 : S1024x1024.Idx → EReal) y := by
  have hi := (window_places t).2.2.1
  unfold entryBlock
  rw [View.read_apply]
  show V c main_v2 _ = V c main_v2 _
  congr 1
  funext a
  apply Fin.ext
  match a with
  | ⟨0, _⟩ => show win0_2.index t 0 * 1024 + 1 * (y 0).val = (y 0).val; rw [hi.1]; omega
  | ⟨1, _⟩ => show win0_2.index t 1 * 1024 + 1 * (y 1).val = (y 1).val; rw [hi.2]; omega

/-- The third weight window's block, at every point, is the whole matrix. -/
theorem w3_block_entry (c : Dev nD) (t : Fin cfg0.N) (y : S1024x1024.Idx) :
    (entryBlock V c 3 t : Vec Ideal S1024x1024 .bf16) y = (V c main_v3 : S1024x1024.Idx → EReal) y := by
  have hi := (window_places t).2.2.2.1
  unfold entryBlock
  rw [View.read_apply]
  show V c main_v3 _ = V c main_v3 _
  congr 1
  funext a
  apply Fin.ext
  match a with
  | ⟨0, _⟩ => show win0_3.index t 0 * 1024 + 1 * (y 0).val = (y 0).val; rw [hi.1]; omega
  | ⟨1, _⟩ => show win0_3.index t 1 * 1024 + 1 * (y 1).val = (y 1).val; rw [hi.2]; omega

/-! ## What each point writes back -/

/-- What point `t` writes back through the first output window is block `t` of the whole product with the first
    weight matrix: entry `(p, q)` of the stored block reads activation row `1024 t + p` and weight column `q`. -/
theorem written4 (c : Dev nD) (t : Fin cfg0.N) :
    (dat0 V c).flushed 4 t = ((cfg0.win 4).blk t).view.read (Elt Ideal) (projOf (V c main_v4) (V c main_v1)) := by
  show (cfg0.win 4).cut (grid0.coords t) ((dat0 V c).after 4 t) = _
  rw [left_out4]
  unfold projStored4
  rw [View.canon_unit_zero origin_zero]
  simp only [View.ld_unit_zero (S := S1024x1024) origin_zero]
  have hi := (window_places t).2.2.2.2.1
  funext j
  obtain ⟨p, q, rfl⟩ : ∃ (p q : Fin 1024), j = ix2 p q := ⟨j 0, j 1, eq_ix2 j⟩
  refine (stored4_entry (entryBlock V c 0 t) (entryBlock V c 1 t) p q).trans ?_
  show _ = projOf (V c main_v4) (V c main_v1) (((cfg0.win 4).blk t).view.emb (ix2 p q))
  unfold projOf
  refine Finset.sum_congr rfl fun d _ => ?_
  refine congrArg₂ (· * ·) ?_ ?_
  · refine act_block_entry V c t (ix2 p d) _ ?_ rfl
    show (((cfg0.win 4).blk t).view.emb (ix2 p q) 0).val = 1024 * t.val + p.val
    show win0_4.index t 0 * 1024 + 1 * p.val = 1024 * t.val + p.val
    rw [hi.1]; omega
  · refine (w1_block_entry V c t (ix2 d q)).trans ?_
    refine congrArg (V c main_v1 : S1024x1024.Idx → EReal) ?_
    funext a
    apply Fin.ext
    match a with
    | ⟨0, _⟩ => rfl
    | ⟨1, _⟩ =>
      show q.val = (((cfg0.win 4).blk t).view.emb (ix2 p q) 1).val
      show q.val = win0_4.index t 1 * 1024 + 1 * q.val
      rw [hi.2]; omega

/-- What point `t` writes back through the second output window is block `t` of the whole product with the second
    weight matrix: entry `(p, q)` of the stored block reads activation row `1024 t + p` and weight column `q`. -/
theorem written5 (c : Dev nD) (t : Fin cfg0.N) :
    (dat0 V c).flushed 5 t = ((cfg0.win 5).blk t).view.read (Elt Ideal) (projOf (V c main_v4) (V c main_v2)) := by
  show (cfg0.win 5).cut (grid0.coords t) ((dat0 V c).after 5 t) = _
  rw [left_out5]
  unfold projStored5
  rw [View.canon_unit_zero origin_zero]
  simp only [View.ld_unit_zero (S := S1024x1024) origin_zero]
  have hi := (window_places t).2.2.2.2.2.1
  funext j
  obtain ⟨p, q, rfl⟩ : ∃ (p q : Fin 1024), j = ix2 p q := ⟨j 0, j 1, eq_ix2 j⟩
  refine (stored5_entry (entryBlock V c 0 t) (entryBlock V c 2 t) p q).trans ?_
  show _ = projOf (V c main_v4) (V c main_v2) (((cfg0.win 5).blk t).view.emb (ix2 p q))
  unfold projOf
  refine Finset.sum_congr rfl fun d _ => ?_
  refine congrArg₂ (· * ·) ?_ ?_
  · refine act_block_entry V c t (ix2 p d) _ ?_ rfl
    show (((cfg0.win 5).blk t).view.emb (ix2 p q) 0).val = 1024 * t.val + p.val
    show win0_5.index t 0 * 1024 + 1 * p.val = 1024 * t.val + p.val
    rw [hi.1]; omega
  · refine (w2_block_entry V c t (ix2 d q)).trans ?_
    refine congrArg (V c main_v2 : S1024x1024.Idx → EReal) ?_
    funext a
    apply Fin.ext
    match a with
    | ⟨0, _⟩ => rfl
    | ⟨1, _⟩ =>
      show q.val = (((cfg0.win 5).blk t).view.emb (ix2 p q) 1).val
      show q.val = win0_5.index t 1 * 1024 + 1 * q.val
      rw [hi.2]; omega

/-- What point `t` writes back through the third output window is block `t` of the whole product with the third
    weight matrix: entry `(p, q)` of the stored block reads activation row `1024 t + p` and weight column `q`. -/
theorem written6 (c : Dev nD) (t : Fin cfg0.N) :
    (dat0 V c).flushed 6 t = ((cfg0.win 6).blk t).view.read (Elt Ideal) (projOf (V c main_v4) (V c main_v3)) := by
  show (cfg0.win 6).cut (grid0.coords t) ((dat0 V c).after 6 t) = _
  rw [left_out6]
  unfold projStored6
  rw [View.canon_unit_zero origin_zero]
  simp only [View.ld_unit_zero (S := S1024x1024) origin_zero]
  have hi := (window_places t).2.2.2.2.2.2
  funext j
  obtain ⟨p, q, rfl⟩ : ∃ (p q : Fin 1024), j = ix2 p q := ⟨j 0, j 1, eq_ix2 j⟩
  refine (stored6_entry (entryBlock V c 0 t) (entryBlock V c 3 t) p q).trans ?_
  show _ = projOf (V c main_v4) (V c main_v3) (((cfg0.win 6).blk t).view.emb (ix2 p q))
  unfold projOf
  refine Finset.sum_congr rfl fun d _ => ?_
  refine congrArg₂ (· * ·) ?_ ?_
  · refine act_block_entry V c t (ix2 p d) _ ?_ rfl
    show (((cfg0.win 6).blk t).view.emb (ix2 p q) 0).val = 1024 * t.val + p.val
    show win0_6.index t 0 * 1024 + 1 * p.val = 1024 * t.val + p.val
    rw [hi.1]; omega
  · refine (w3_block_entry V c t (ix2 d q)).trans ?_
    refine congrArg (V c main_v3 : S1024x1024.Idx → EReal) ?_
    funext a
    apply Fin.ext
    match a with
    | ⟨0, _⟩ => rfl
    | ⟨1, _⟩ =>
      show q.val = (((cfg0.win 6).blk t).view.emb (ix2 p q) 1).val
      show q.val = win0_6.index t 1 * 1024 + 1 * q.val
      rw [hi.2]; omega

/-! ## Every row is written back by exactly the point `row / 1024` -/

/-- Membership in the first output window's block at point `t`, coordinate by coordinate. -/
theorem in_block4 (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v5_0).slice (win0_4.rect t)).set ↔ _
  rw [View.set_slice_whole, Rect.mem_set_unit]
  exact Iff.rfl

/-- Row `r` of the first output array is written back by point `r / 1024`. -/
theorem covered4 (i : S16384x1024.Idx) :
    ∃ t : Fin cfg0.N, (cfg0.win 4).flush t = true ∧ i ∈ ((cfg0.win 4).blk t).view.set := by
  have h0 : (i 0).val < 16384 := idx2_lt0 i
  have h1 : (i 1).val < 1024 := idx2_lt1 i
  have hN : cfg0.N = 16 := N_0
  have ht : (i 0).val / 1024 < cfg0.N := by rw [hN]; omega
  obtain ⟨e0, e1⟩ := (window_places ⟨(i 0).val / 1024, ht⟩).2.2.2.2.1
  refine ⟨⟨(i 0).val / 1024, ht⟩, flush0_4 _, ?_⟩
  rw [in_block4]
  intro a
  match a with
  | ⟨0, _⟩ =>
    show win0_4.index ⟨(i 0).val / 1024, ht⟩ 0 * 1024 ≤ (i 0).val ∧ (i 0).val < win0_4.index ⟨(i 0).val / 1024, ht⟩ 0 * 1024 + 1024
    rw [e0]; dsimp only; omega
  | ⟨1, _⟩ =>
    show win0_4.index ⟨(i 0).val / 1024, ht⟩ 1 * 1024 ≤ (i 1).val ∧ (i 1).val < win0_4.index ⟨(i 0).val / 1024, ht⟩ 1 * 1024 + 1024
    rw [e1]; omega

/-- Membership in the second output window's block at point `t`, coordinate by coordinate. -/
theorem in_block5 (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v5_1).slice (win0_5.rect t)).set ↔ _
  rw [View.set_slice_whole, Rect.mem_set_unit]
  exact Iff.rfl

/-- Row `r` of the second output array is written back by point `r / 1024`. -/
theorem covered5 (i : S16384x1024.Idx) :
    ∃ t : Fin cfg0.N, (cfg0.win 5).flush t = true ∧ i ∈ ((cfg0.win 5).blk t).view.set := by
  have h0 : (i 0).val < 16384 := idx2_lt0 i
  have h1 : (i 1).val < 1024 := idx2_lt1 i
  have hN : cfg0.N = 16 := N_0
  have ht : (i 0).val / 1024 < cfg0.N := by rw [hN]; omega
  obtain ⟨e0, e1⟩ := (window_places ⟨(i 0).val / 1024, ht⟩).2.2.2.2.2.1
  refine ⟨⟨(i 0).val / 1024, ht⟩, flush0_5 _, ?_⟩
  rw [in_block5]
  intro a
  match a with
  | ⟨0, _⟩ =>
    show win0_5.index ⟨(i 0).val / 1024, ht⟩ 0 * 1024 ≤ (i 0).val ∧ (i 0).val < win0_5.index ⟨(i 0).val / 1024, ht⟩ 0 * 1024 + 1024
    rw [e0]; dsimp only; omega
  | ⟨1, _⟩ =>
    show win0_5.index ⟨(i 0).val / 1024, ht⟩ 1 * 1024 ≤ (i 1).val ∧ (i 1).val < win0_5.index ⟨(i 0).val / 1024, ht⟩ 1 * 1024 + 1024
    rw [e1]; omega

/-- Membership in the third output window's block at point `t`, coordinate by coordinate. -/
theorem in_block6 (t : Fin cfg0.N) (i : S16384x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v5_2).slice (win0_6.rect t)).set ↔ _
  rw [View.set_slice_whole, Rect.mem_set_unit]
  exact Iff.rfl

/-- Row `r` of the third output array is written back by point `r / 1024`. -/
theorem covered6 (i : S16384x1024.Idx) :
    ∃ t : Fin cfg0.N, (cfg0.win 6).flush t = true ∧ i ∈ ((cfg0.win 6).blk t).view.set := by
  have h0 : (i 0).val < 16384 := idx2_lt0 i
  have h1 : (i 1).val < 1024 := idx2_lt1 i
  have hN : cfg0.N = 16 := N_0
  have ht : (i 0).val / 1024 < cfg0.N := by rw [hN]; omega
  obtain ⟨e0, e1⟩ := (window_places ⟨(i 0).val / 1024, ht⟩).2.2.2.2.2.2
  refine ⟨⟨(i 0).val / 1024, ht⟩, flush0_6 _, ?_⟩
  rw [in_block6]
  intro a
  match a with
  | ⟨0, _⟩ =>
    show win0_6.index ⟨(i 0).val / 1024, ht⟩ 0 * 1024 ≤ (i 0).val ∧ (i 0).val < win0_6.index ⟨(i 0).val / 1024, ht⟩ 0 * 1024 + 1024
    rw [e0]; dsimp only; omega
  | ⟨1, _⟩ =>
    show win0_6.index ⟨(i 0).val / 1024, ht⟩ 1 * 1024 ≤ (i 1).val ∧ (i 1).val < win0_6.index ⟨(i 0).val / 1024, ht⟩ 1 * 1024 + 1024
    rw [e1]; omega

/-! ## The arrays after the last point -/

/-- After the last point the first output array holds the whole product of the activations (as the kernel found
    them) with the first weight matrix. -/
theorem value0_4 (c : Dev nD) :
    ((dat0 (F := Ideal) V c).arrAt 4 cfg0.N : S16384x1024.Idx → EReal) = projOf (V c main_v4) (V c main_v1) :=
  (dat0 V c).arrAt_eq_of_cover 4 (projOf (V c main_v4) (V c main_v1)) (fun t _ => written4 V c t) covered4

/-- After the last point the second output array holds the whole product of the activations (as the kernel found
    them) with the second weight matrix. -/
theorem value0_5 (c : Dev nD) :
    ((dat0 (F := Ideal) V c).arrAt 5 cfg0.N : S16384x1024.Idx → EReal) = projOf (V c main_v4) (V c main_v2) :=
  (dat0 V c).arrAt_eq_of_cover 5 (projOf (V c main_v4) (V c main_v2)) (fun t _ => written5 V c t) covered5

/-- After the last point the third output array holds the whole product of the activations (as the kernel found
    them) with the third weight matrix. -/
theorem value0_6 (c : Dev nD) :
    ((dat0 (F := Ideal) V c).arrAt 6 cfg0.N : S16384x1024.Idx → EReal) = projOf (V c main_v4) (V c main_v3) :=
  (dat0 V c).arrAt_eq_of_cover 6 (projOf (V c main_v4) (V c main_v3)) (fun t _ => written6 V c t) covered6

end Cert.KernelIdeal.Hand

end
-- ==== Proof.KI.HostGlue.lean ====
/-
  What the program's host operations around its two kernels do to the arrays, read at an index.

  * Before the first kernel the four arguments are converted to a narrower float format; at the ideal values
    a change of format is the identity, so the three weight matrices reach the kernel unchanged, and the input
    array [8, 2048, 1024] reaches it reshaped to [16384, 1024]: a reshape keeps the row-major order, so
    row r of the flat array is position r % 2048 of batch r / 2048
    ((r / 2048 · 2048 + r % 2048) · 1024 + d = r · 1024 + d).
  * Between the two kernels the three [16384, 1024] arrays the first kernel left are reshaped back to
    [8, 2048, 1024]: entry (b, s, k) is entry (b · 2048 + s, k) of the flat array.
-/
import proofs.«109232_j17575006175501_2_alg».proof.Proof.Gen.KernelIdeal.Regions
import Idealize.ShloMosaic.Lib.Pipeline.Value
import Idealize.ShloMosaic.Lib.ValueIdx
import Idealize.ShloMosaic.Lib.StableHlo.Run
import proofs.«109232_j17575006175501_2_alg».proof.Proof.Spec

noncomputable section

namespace Cert.KernelIdeal.Hand

open Cert.KernelIdeal Cert.KernelIdeal.Gen Idealize.ShloMosaic Idealize.ShloMosaic.TcCoe Idealize.ShloMosaic.StableHlo

variable (m : (ℓ : Loc nD τ sig) → Buf (Elt Ideal) ℓ) (outs : Outs (F := Ideal)) (c : Dev nD)

/-! ## Before the first kernel -/

/-- The first weight matrix reaches the kernel as it was given. -/
theorem glue_v1 : (V1 m c main_v1 : S1024x1024.Idx → EReal) = m ((c.tc : Thread nD τ).loc main_arg1) := by
  dsimp only [V1, hostOps0]
  after_results
  rfl

/-- The second weight matrix reaches the kernel as it was given. -/
theorem glue_v2 : (V1 m c main_v2 : S1024x1024.Idx → EReal) = m ((c.tc : Thread nD τ).loc main_arg2) := by
  dsimp only [V1, hostOps0]
  after_results
  rfl

/-- The third weight matrix reaches the kernel as it was given. -/
theorem glue_v3 : (V1 m c main_v3 : S1024x1024.Idx → EReal) = m ((c.tc : Thread nD τ).loc main_arg3) := by
  dsimp only [V1, hostOps0]
  after_results
  rfl

/-- The flat input array is the given input array in row-major order under the shape [16384, 1024]. -/
theorem v4_eq : (V1 m c main_v4 : S16384x1024.Idx → EReal)
    = shapeCast S16384x1024 (m ((c.tc : Thread nD τ).loc main_arg0) : S8x2048x1024.Idx → EReal) shapeCasts_S8x2048x1024_S16384x1024 := by
  dsimp only [V1, hostOps0]
  after_results
  rfl

/-- Row r of the flat input array is position r % 2048 of batch r / 2048 of the given input array. -/
theorem glue_v4 (r : Fin 16384) (d : Fin 1024) :
    (V1 m c main_v4 : S16384x1024.Idx → EReal) (ValueIdx.ix2 r d)
      = (m ((c.tc : Thread nD τ).loc main_arg0) : S8x2048x1024.Idx → EReal)
          (ValueIdx.ix3 (⟨r.val / 2048, by omega⟩ : Fin 8) (⟨r.val % 2048, by omega⟩ : Fin 2048) d) := by
  rw [v4_eq]
  refine shapeCast_apply (s := S8x2048x1024) (t := S16384x1024) _ _ _ _ ?_
  rw [Shape.rowMajor_val_two, Shape.rowMajor_val_three]
  show ((r.val / 2048) * 2048 + r.val % 2048) * 1024 + d.val = r.val * 1024 + d.val
  omega

/-! ## Between the two kernels -/

/-- After the first kernel its first output array holds what the kernel left there. -/
theorem V2_v5_0 : V2 m outs c main_v5_0 = outs 2 main_v5_0 c := by
  simp only [V2,
    Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1),
    Function.update_self]

/-- Likewise its second output array. -/
theorem V2_v5_1 : V2 m outs c main_v5_1 = outs 2 main_v5_1 c := by
  simp only [V2,
    Function.update_of_ne (StableHlo.devRef_ne_of_ne (by decide) : (Proc.devRef .tc main_v5_1 : DevRef τ sig) ≠ Proc.devRef .tc main_v5_2),
    Function.update_self]

/-- Likewise its third output array. -/
theorem V2_v5_2 : V2 m outs c main_v5_2 = outs 2 main_v5_2 c := by
  simp only [V2, Function.update_self]

/-- The first reshaped array is the first kernel's first output in row-major order under the shape [8, 2048, 1024]. -/
theorem v6_eq : (V3 m outs c main_v6 : S8x2048x1024.Idx → EReal)
    = shapeCast S8x2048x1024 (outs 2 main_v5_0 c : S16384x1024.Idx → EReal) shapeCasts_S16384x1024_S8x2048x1024 := by
  dsimp only [V3, hostOps1]
  after_results
  rw [V2_v5_0]
  rfl

/-- The second reshaped array, likewise from the second output. -/
theorem v7_eq : (V3 m outs c main_v7 : S8x2048x1024.Idx → EReal)
    = shapeCast S8x2048x1024 (outs 2 main_v5_1 c : S16384x1024.Idx → EReal) shapeCasts_S16384x1024_S8x2048x1024 := by
  dsimp only [V3, hostOps1]
  after_results
  rw [V2_v5_1]
  rfl

/-- The third reshaped array, likewise from the third output. -/
theorem v8_eq : (V3 m outs c main_v8 : S8x2048x1024.Idx → EReal)
    = shapeCast S8x2048x1024 (outs 2 main_v5_2 c : S16384x1024.Idx → EReal) shapeCasts_S16384x1024_S8x2048x1024 := by
  dsimp only [V3, hostOps1]
  after_results
  rw [V2_v5_2]
  rfl

/-- Entry (b, s, k) of the first reshaped array is entry (b · 2048 + s, k) of the first kernel's first output. -/
theorem glue_v6 (b : Fin 8) (s : Fin 2048) (k : Fin 1024) :
    (V3 m outs c main_v6 : S8x2048x1024.Idx → EReal) (ValueIdx.ix3 b s k)
      = (outs 2 main_v5_0 c : S16384x1024.Idx → EReal) (ValueIdx.ix2 (⟨b.val * 2048 + s.val, by omega⟩ : Fin 16384) k) := by
  rw [v6_eq]
  refine shapeCast_apply (s := S16384x1024) (t := S8x2048x1024) _ _ _ _ ?_
  rw [Shape.rowMajor_val_two, Shape.rowMajor_val_three]
  rfl

/-- The same for the second reshaped array and the second output. -/
theorem glue_v7 (b : Fin 8) (s : Fin 2048) (k : Fin 1024) :
    (V3 m outs c main_v7 : S8x2048x1024.Idx → EReal) (ValueIdx.ix3 b s k)
      = (outs 2 main_v5_1 c : S16384x1024.Idx → EReal) (ValueIdx.ix2 (⟨b.val * 2048 + s.val, by omega⟩ : Fin 16384) k) := by
  rw [v7_eq]
  refine shapeCast_apply (s := S16384x1024) (t := S8x2048x1024) _ _ _ _ ?_
  rw [Shape.rowMajor_val_two, Shape.rowMajor_val_three]
  rfl

/-- The same for the third reshaped array and the third output. -/
theorem glue_v8 (b : Fin 8) (s : Fin 2048) (k : Fin 1024) :
    (V3 m outs c main_v8 : S8x2048x1024.Idx → EReal) (ValueIdx.ix3 b s k)
      = (outs 2 main_v5_2 c : S16384x1024.Idx → EReal) (ValueIdx.ix2 (⟨b.val * 2048 + s.val, by omega⟩ : Fin 16384) k) := by
  rw [v8_eq]
  refine shapeCast_apply (s := S16384x1024) (t := S8x2048x1024) _ _ _ _ ?_
  rw [Shape.rowMajor_val_two, Shape.rowMajor_val_three]
  rfl

end Cert.KernelIdeal.Hand

end
-- ==== Proof.KI.KernelArrays.lean ====
/-
  The arrays the attention kernel reads are the three projections of the program's arguments, and the array the
  program returns is the attention kernel's output array.

  The projection kernel leaves in each of its three output arrays the product of the flat input [16384, 1024] with
  one weight matrix; the flat input is the given input in row-major order and the weights are the given ones (a change
  of float format is the identity on the ideal values); the host then reshapes each product to [8, 2048, 1024]. So
  entry (b, s, n) of the array the attention kernel reads is entry (b · 2048 + s, n) of the product, the sum over the
  features d of input row b · 2048 + s — batch (b · 2048 + s) / 2048 = b, position (b · 2048 + s) % 2048 = s — times
  column n of the weight.
-/
import proofs.«109232_j17575006175501_2_alg».proof.Proof.KI.Frame
import proofs.«109232_j17575006175501_2_alg».proof.Proof.KI.Region0Value
import proofs.«109232_j17575006175501_2_alg».proof.Proof.KI.HostGlue

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-! ## What the projection kernel leaves -/

/-- Its first output array is the flat input times the first weight matrix. -/
theorem W2_v5_0 : (W2 m c main_v5_0 : S16384x1024.Idx → EReal) = projOf (E0 m c main_v4) (E0 m c main_v1) := by
  unfold W2
  exact (Pipeline.withArrays_arr spec0 launch0.win.arr_inj c (V1 m c) (fun w => (dat0 (E0 m) c).arrAt w cfg0.N) 4).trans (value0_4 (E0 m) c)

/-- Its second output array is the flat input times the second weight matrix. -/
theorem W2_v5_1 : (W2 m c main_v5_1 : S16384x1024.Idx → EReal) = projOf (E0 m c main_v4) (E0 m c main_v2) := by
  unfold W2
  exact (Pipeline.withArrays_arr spec0 launch0.win.arr_inj c (V1 m c) (fun w => (dat0 (E0 m) c).arrAt w cfg0.N) 5).trans (value0_5 (E0 m) c)

/-- Its third output array is the flat input times the third weight matrix. -/
theorem W2_v5_2 : (W2 m c main_v5_2 : S16384x1024.Idx → EReal) = projOf (E0 m c main_v4) (E0 m c main_v3) := by
  unfold W2
  exact (Pipeline.withArrays_arr spec0 launch0.win.arr_inj c (V1 m c) (fun w => (dat0 (E0 m) c).arrAt w cfg0.N) 6).trans (value0_6 (E0 m) c)

/-- Flat row b · 2048 + s is position s of batch b. -/
theorem unflatten (b : Fin 8) (s : Fin 2048) (d : Fin 1024) (h1 : (b.val * 2048 + s.val) / 2048 < 8) (h2 : (b.val * 2048 + s.val) % 2048 < 2048) :
    (ValueIdx.ix3 (⟨(b.val * 2048 + s.val) / 2048, h1⟩ : Fin 8) (⟨(b.val * 2048 + s.val) % 2048, h2⟩ : Fin 2048) d : S8x2048x1024.Idx)
      = ValueIdx.ix3 b s d := by
  have e1 : (⟨(b.val * 2048 + s.val) / 2048, h1⟩ : Fin 8) = b := Fin.ext (by show (b.val * 2048 + s.val) / 2048 = b.val; omega)
  have e2 : (⟨(b.val * 2048 + s.val) % 2048, h2⟩ : Fin 2048) = s := Fin.ext (by show (b.val * 2048 + s.val) % 2048 = s.val; omega)
  rw [e1, e2]

/-! ## The arrays the attention kernel reads -/

/-- The query array is the input projected by the first weight matrix. -/
theorem q_array : Cert.AttnSpec.arr3 (E1 m c main_v6)
    = Cert.AttnSpec.proj (Cert.AttnSpec.arr3 (m ((c.tc : Thread nD τ).loc main_arg0))) (Cert.AttnSpec.mat2 (m ((c.tc : Thread nD τ).loc main_arg1))) := by
  funext b s n
  refine (glue_v6 m (outsA m) c b s n).trans ?_
  refine (congrFun (W2_v5_0 m c) _).trans ?_
  refine (projOf_apply _ _ _).trans ?_
  unfold Cert.AttnSpec.proj Cert.AttnSpec.arr3 Cert.AttnSpec.mat2
  refine Finset.sum_congr rfl fun d _ => ?_
  refine (congrArg₂ (fun x y : EReal => x * y) (glue_v4 m c ⟨b.val * 2048 + s.val, by omega⟩ d) (congrFun (glue_v1 m c) (ValueIdx.ix2 d n))).trans ?_
  exact congrArg₂ (fun x y : EReal => x * y) (congrArg _ (unflatten b s d _ _)) rfl

/-- The key array is the input projected by the second weight matrix. -/
theorem k_array : Cert.AttnSpec.arr3 (E1 m c main_v7)
    = Cert.AttnSpec.proj (Cert.AttnSpec.arr3 (m ((c.tc : Thread nD τ).loc main_arg0))) (Cert.AttnSpec.mat2 (m ((c.tc : Thread nD τ).loc main_arg2))) := by
  funext b s n
  refine (glue_v7 m (outsA m) c b s n).trans ?_
  refine (congrFun (W2_v5_1 m c) _).trans ?_
  refine (projOf_apply _ _ _).trans ?_
  unfold Cert.AttnSpec.proj Cert.AttnSpec.arr3 Cert.AttnSpec.mat2
  refine Finset.sum_congr rfl fun d _ => ?_
  refine (congrArg₂ (fun x y : EReal => x * y) (glue_v4 m c ⟨b.val * 2048 + s.val, by omega⟩ d) (congrFun (glue_v2 m c) (ValueIdx.ix2 d n))).trans ?_
  exact congrArg₂ (fun x y : EReal => x * y) (congrArg _ (unflatten b s d _ _)) rfl

/-- The value array is the input projected by the third weight matrix. -/
theorem v_array : Cert.AttnSpec.arr3 (E1 m c main_v8)
    = Cert.AttnSpec.proj (Cert.AttnSpec.arr3 (m ((c.tc : Thread nD τ).loc main_arg0))) (Cert.AttnSpec.mat2 (m ((c.tc : Thread nD τ).loc main_arg3))) := by
  funext b s n
  refine (glue_v8 m (outsA m) c b s n).trans ?_
  refine (congrFun (W2_v5_2 m c) _).trans ?_
  refine (projOf_apply _ _ _).trans ?_
  unfold Cert.AttnSpec.proj Cert.AttnSpec.arr3 Cert.AttnSpec.mat2
  refine Finset.sum_congr rfl fun d _ => ?_
  refine (congrArg₂ (fun x y : EReal => x * y) (glue_v4 m c ⟨b.val * 2048 + s.val, by omega⟩ d) (congrFun (glue_v3 m c) (ValueIdx.ix2 d n))).trans ?_
  exact congrArg₂ (fun x y : EReal => x * y) (congrArg _ (unflatten b s d _ _)) rfl

/-! ## The array the program returns -/

/-- The returned array is the attention kernel's output array after its last write-back. -/
theorem result_array : (V4 m (outsB m) c main_v9 : S8x2048x1024.Idx → EReal)
    = ((dat1 (F := Ideal) (E1 m) c).arrAt 3 cfg1.N : S8x2048x1024.Idx → EReal) := by
  rw [V4_at_v9, outsB_four]
  unfold W4
  exact Pipeline.withArrays_arr spec1 launch1.win.arr_inj c _ _ 3

end Cert.KernelIdeal.Hand

end
-- ==== Proof.KI.KernelValue.lean ====
/-
  What the idealized kernel program leaves in its result array, as a function of its four arguments: causal
  attention (the textbook form) of the three projections of `x`. The attention kernel's output array is the
  block-by-block form `attnOnline` of the three arrays it reads; those are the projections of the arguments, entry by
  entry real numbers when the arguments are; and on real entries the block-by-block form is the textbook one.
-/
import proofs.«109232_j17575006175501_2_alg».proof.Proof.KI.Run
import proofs.«109232_j17575006175501_2_alg».proof.Proof.KI.R1Value
import proofs.«109232_j17575006175501_2_alg».proof.Proof.KI.KernelArrays
import proofs.«109232_j17575006175501_2_alg».proof.Proof.OnlineSoftmax

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The result array after the run, when every argument entry is a real number. -/
theorem kernel_value (c : Dev nD)
    (h0 : Cert.AttnSpec.Finite3 (Cert.AttnSpec.arr3 (m ((c.tc : Thread nD τ).loc main_arg0)))) (h1 : Cert.AttnSpec.Finite2 (Cert.AttnSpec.mat2 (m ((c.tc : Thread nD τ).loc main_arg1))))
    (h2 : Cert.AttnSpec.Finite2 (Cert.AttnSpec.mat2 (m ((c.tc : Thread nD τ).loc main_arg2)))) (h3 : Cert.AttnSpec.Finite2 (Cert.AttnSpec.mat2 (m ((c.tc : Thread nD τ).loc main_arg3)))) :
    (V4 m (outsB m) c main_v9 : S8x2048x1024.Idx → EReal)
      = fun i => Cert.AttnSpec.attn (Cert.AttnSpec.proj (Cert.AttnSpec.arr3 (m ((c.tc : Thread nD τ).loc main_arg0))) (Cert.AttnSpec.mat2 (m ((c.tc : Thread nD τ).loc main_arg1))))
          (Cert.AttnSpec.proj (Cert.AttnSpec.arr3 (m ((c.tc : Thread nD τ).loc main_arg0))) (Cert.AttnSpec.mat2 (m ((c.tc : Thread nD τ).loc main_arg2))))
          (Cert.AttnSpec.proj (Cert.AttnSpec.arr3 (m ((c.tc : Thread nD τ).loc main_arg0))) (Cert.AttnSpec.mat2 (m ((c.tc : Thread nD τ).loc main_arg3)))) (i 0) (i 1) (i 2) := by
  rw [result_array m c, region1_value (E1 m) c, q_array m c, k_array m c, v_array m c,
    Cert.AttnSpec.online_eq _ _ _ (Cert.AttnSpec.proj_finite _ _ h0 h1) (Cert.AttnSpec.proj_finite _ _ h0 h2) (Cert.AttnSpec.proj_finite _ _ h0 h3)]

end Cert.KernelIdeal.Hand

end
-- ==== Proof.RefConst.lean ====
/-
  The constants of the reference attention, read as extended reals, and its causal mask.

  * The word 0x44800000 is the real 1024, the word 0x3F800000 is the real 1, the word 0xFF800000 is -∞.
  * √1024 = 32 because 32 · 32 = 1024, so the scale 1 / √1024 is the real 1/32.
  * The lower-triangular mask compares a row number with a column number as signed 32-bit integers;
    both are below 2048, far from the sign bit, so the comparison is the comparison of the numbers:
    entry (r, c) is set exactly when c ≤ r.
-/
import proofs.«109232_j17575006175501_2_alg».proof.Proof.Gen.ReferenceIdeal.Read
import proofs.«109232_j17575006175501_2_alg».proof.Proof.Spec

noncomputable section

namespace Cert.ReferenceIdeal.RefValue

open Idealize.ShloMosaic Cert.ReferenceIdeal Cert.ReferenceIdeal.Gen Cert.ReferenceIdeal.Read Cert.AttnSpec

/-- The word 0x44800000 denotes 1024 = 2^23 · 2^(-13). -/
theorem ofBits_1024 : Ideal.ofBits .f32 0x44800000#32 = ((1024 : ℝ) : EReal) := by
  simp [Ideal.ofBits, Ideal.ieee]
  rw [← EReal.coe_mul]
  norm_num

/-- The word 0x3F800000 denotes 1 = 2^23 · 2^(-23). -/
theorem ofBits_one : Ideal.ofBits .f32 0x3F800000#32 = ((1 : ℝ) : EReal) := by
  simp [Ideal.ofBits, Ideal.ieee]
  rw [← EReal.coe_mul, ← EReal.coe_one]
  norm_num

/-- The word 0xFF800000 (sign set, exponent all ones, no fraction) denotes -∞. -/
theorem ofBits_neg_inf : Ideal.ofBits .f32 0xFF800000#32 = (⊥ : EReal) := by
  simp [Ideal.ofBits, Ideal.ieee]

/-- √1024 = 32, since 32 · 32 = 1024. -/
theorem sqrt_1024 : Ideal.sqrt ((1024 : ℝ) : EReal) = ((32 : ℝ) : EReal) := by
  rw [Ideal.sqrt_coe, if_neg (by norm_num)]
  congr 1
  rw [Real.sqrt_eq_iff_mul_self_eq (by norm_num) (by norm_num)]
  norm_num

/-- 1 / √1024 is the real 1/32. -/
theorem one_div_sqrt_1024 :
    Ideal.div (Ideal.ofBits .f32 0x3F800000#32) (Ideal.sqrt (Ideal.ofBits .f32 0x44800000#32)) = inv32 := by
  rw [ofBits_1024, ofBits_one, sqrt_1024, Ideal.div_coe (by norm_num), ← EReal.coe_mul]
  unfold inv32
  norm_num

/-- The reference's scale, the scalar 1 / √1024, is 1/32. -/
theorem scale_apply (j : S_.Idx) : val_main_v4 (F := Ideal) j = inv32 := by
  rw [val_main_v4_apply, val_main_cst_0_apply, val_main_v3_apply, val_main_cst_apply]
  exact one_div_sqrt_1024

/-- For numbers below 2048 the signed 32-bit comparison of their words is the comparison of the numbers. -/
theorem sle_ofNat (c r : Nat) (hc : c < 2048) (hr : r < 2048) :
    (BitVec.ofNat 32 c).sle (BitVec.ofNat 32 r + 0#32) = decide (c ≤ r) := by
  rw [BitVec.add_zero]
  have e1 : (BitVec.ofNat 32 c).toInt = (c : Int) := by
    rw [BitVec.toInt_eq_toNat_of_lt (by rw [BitVec.toNat_ofNat]; omega), BitVec.toNat_ofNat]; omega
  have e2 : (BitVec.ofNat 32 r).toInt = (r : Int) := by
    rw [BitVec.toInt_eq_toNat_of_lt (by rw [BitVec.toNat_ofNat]; omega), BitVec.toNat_ofNat]; omega
  rw [BitVec.sle_eq_decide, e1, e2]
  simp

variable {F : FTy → Type} [FloatOps F]

/-- The lower-triangular mask: entry (r, c) is set exactly when the column is not after the row. -/
theorem mask_apply (r c : Fin 2048) :
    val_main_v9 (F := F) (ValueIdx.ix2 r c) = if c ≤ r then 1#1 else 0#1 := by
  rw [val_main_v9_apply, val_main_call0_v4_apply, val_main_call0_v2_apply, val_main_call0_v0_apply,
    val_main_call0_v1_apply, val_main_call0_c_apply, val_main_call0_v3_apply, val_main_v8_apply,
    val_main_c_apply, val_main_call0_v5_apply, val_main_call0_c_0_apply]
  show Scalar.select (IntOp.cmpi .sge (IntOp.addi (BitVec.ofNat 32 r.val) 0#32) (BitVec.ofNat 32 c.val)) 1#1 0#1 = _
  unfold IntOp.cmpi IntOp.addi
  dsimp only
  rw [sle_ofNat c.val r.val c.isLt r.isLt]
  by_cases h : c ≤ r
  · rw [if_pos h, decide_eq_true (Fin.le_def.mp h)]; rfl
  · rw [if_neg h, decide_eq_false (fun h' => h (Fin.le_def.mpr h'))]; rfl

end Cert.ReferenceIdeal.RefValue

end
-- ==== Proof.RefStages.lean ====
/-
  The reference attention, stage by stage, at an index given by its coordinates (b, i, j):

  * the three projections are sums over the 1024 features of an input row times a weight column;
  * the score of (i, j) is the inner product of query row i and key row j, times 1/32;
  * the causal mask keeps the score when j ≤ i and puts -∞ otherwise;
  * the row maximum is the maximum, from -∞, over the 2048 positions j of the masked scores
    (the reduction over the last axis folds exactly the indices (b, i, j), j = 0 … 2047), and taking
    its maximum with -∞ again changes nothing;
  * the weight of (i, j) is the exponential of the masked score minus the row maximum, the normaliser
    is 0 plus the sum of the row's weights, and the normalised weight is their quotient.
-/
import proofs.«109232_j17575006175501_2_alg».proof.Proof.RefConst

noncomputable section

namespace Cert.ReferenceIdeal.RefValue

open Idealize.ShloMosaic Cert.ReferenceIdeal Cert.ReferenceIdeal.Gen Cert.ReferenceIdeal.Read Cert.AttnSpec

variable (x0 : (⟨S8x2048x1024, .f32⟩ : BufTy).Contents (Elt Ideal)) (x1 x2 x3 : (⟨S1024x1024, .f32⟩ : BufTy).Contents (Elt Ideal))

/-! ## The projections -/

/-- The query projection at (b, s, n) is the sum over the features of input row (b, s) times column n of the first weight. -/
theorem v0_apply (b : Fin 8) (s : Fin 2048) (n : Fin 1024) :
    val_main_v0 (F := Ideal) x0 x1 (ValueIdx.ix3 b s n) = proj (arr3 x0) (mat2 x1) b s n := by
  rw [val_main_v0_apply]
  unfold proj arr3 mat2
  refine Finset.sum_congr rfl fun d _ => ?_
  have el : lidx_main_v0 (ValueIdx.ix3 b s n) d = ValueIdx.ix3 b s d :=
    funext fun a => Fin.ext (by match a with | ⟨0, _⟩ => rfl | ⟨1, _⟩ => rfl | ⟨2, _⟩ => rfl)
  have er : ridx_main_v0 (ValueIdx.ix3 b s n) d = ValueIdx.ix2 d n :=
    funext fun a => Fin.ext (by match a with | ⟨0, _⟩ => rfl | ⟨1, _⟩ => rfl)
  rw [el, er]

/-- The key projection, likewise with the second weight. -/
theorem v1_apply (b : Fin 8) (s : Fin 2048) (n : Fin 1024) :
    val_main_v1 (F := Ideal) x0 x2 (ValueIdx.ix3 b s n) = proj (arr3 x0) (mat2 x2) b s n := by
  rw [val_main_v1_apply]
  unfold proj arr3 mat2
  refine Finset.sum_congr rfl fun d _ => ?_
  have el : lidx_main_v1 (ValueIdx.ix3 b s n) d = ValueIdx.ix3 b s d :=
    funext fun a => Fin.ext (by match a with | ⟨0, _⟩ => rfl | ⟨1, _⟩ => rfl | ⟨2, _⟩ => rfl)
  have er : ridx_main_v1 (ValueIdx.ix3 b s n) d = ValueIdx.ix2 d n :=
    funext fun a => Fin.ext (by match a with | ⟨0, _⟩ => rfl | ⟨1, _⟩ => rfl)
  rw [el, er]

/-- The value projection, likewise with the third weight. -/
theorem v2_apply (b : Fin 8) (s : Fin 2048) (n : Fin 1024) :
    val_main_v2 (F := Ideal) x0 x3 (ValueIdx.ix3 b s n) = proj (arr3 x0) (mat2 x3) b s n := by
  rw [val_main_v2_apply]
  unfold proj arr3 mat2
  refine Finset.sum_congr rfl fun d _ => ?_
  have el : lidx_main_v2 (ValueIdx.ix3 b s n) d = ValueIdx.ix3 b s d :=
    funext fun a => Fin.ext (by match a with | ⟨0, _⟩ => rfl | ⟨1, _⟩ => rfl | ⟨2, _⟩ => rfl)
  have er : ridx_main_v2 (ValueIdx.ix3 b s n) d = ValueIdx.ix2 d n :=
    funext fun a => Fin.ext (by match a with | ⟨0, _⟩ => rfl | ⟨1, _⟩ => rfl)
  rw [el, er]

/-! ## Scores and the causal mask -/

/-- The unscaled score of (i, j): the inner product of query row i and key row j. -/
theorem v5_apply (b : Fin 8) (i j : Fin 2048) :
    val_main_v5 (F := Ideal) x0 x1 x2 (ValueIdx.ix3 b i j)
      = ∑ d : Fin 1024, proj (arr3 x0) (mat2 x1) b i d * proj (arr3 x0) (mat2 x2) b j d := by
  rw [val_main_v5_apply]
  refine Finset.sum_congr rfl fun d _ => ?_
  have el : lidx_main_v5 (ValueIdx.ix3 b i j) d = ValueIdx.ix3 b i d :=
    funext fun a => Fin.ext (by match a with | ⟨0, _⟩ => rfl | ⟨1, _⟩ => rfl | ⟨2, _⟩ => rfl)
  have er : ridx_main_v5 (ValueIdx.ix3 b i j) d = ValueIdx.ix3 b j d :=
    funext fun a => Fin.ext (by match a with | ⟨0, _⟩ => rfl | ⟨1, _⟩ => rfl | ⟨2, _⟩ => rfl)
  rw [el, er, v0_apply, v1_apply]

/-- The scaled score. -/
theorem v7_apply (b : Fin 8) (i j : Fin 2048) :
    val_main_v7 (F := Ideal) x0 x1 x2 (ValueIdx.ix3 b i j)
      = score (proj (arr3 x0) (mat2 x1)) (proj (arr3 x0) (mat2 x2)) b i j := by
  rw [val_main_v7_apply, v5_apply, val_main_v6_apply, scale_apply]
  rfl

/-- The masked score: the score where j ≤ i, -∞ elsewhere. -/
theorem v10_apply (b : Fin 8) (i j : Fin 2048) :
    val_main_v10 (F := Ideal) x0 x1 x2 (ValueIdx.ix3 b i j)
      = masked (proj (arr3 x0) (mat2 x1)) (proj (arr3 x0) (mat2 x2)) b i j := by
  have e : idx_main_call1_v1 (ValueIdx.ix3 b i j) = ValueIdx.ix2 i j :=
    funext fun a => Fin.ext (by match a with | ⟨0, _⟩ => rfl | ⟨1, _⟩ => rfl)
  rw [val_main_v10_apply, val_main_call1_v1_apply, val_main_call1_v2_apply, val_main_call1_v0_apply,
    val_main_cst_1_apply, v7_apply, e, mask_apply]
  unfold masked
  by_cases h : j ≤ i
  · rw [if_pos h, if_pos h]; exact ValueIdx.select_one _ _
  · rw [if_neg h, if_neg h, ValueIdx.select_zero]; exact ofBits_neg_inf

/-! ## The row maximum -/

/-- Position k put back on the last axis over the row (b, i) is the index (b, i, k). -/
theorem lift_ix3 (h : S8x2048x2048.Reduces [2] S8x2048) (b : Fin 8) (i : Fin 2048) (k : Fin 2048) :
    h.lift (ValueIdx.ix2 b i) k = ValueIdx.ix3 b i k := by
  funext c; apply Fin.ext
  fin_cases c <;> rfl

/-- A maximum-reduction from -∞ over the last axis is, at row (b, i), the maximum from -∞ over the row's 2048 entries. -/
theorem rowmax_apply (y : (⟨S8x2048x2048, .f32⟩ : BufTy).Contents (Elt Ideal)) (b : Fin 8) (i : Fin 2048) :
    Host.reduce (α := Ideal .f32) (FloatOps.maximumf (F := Ideal) (φ := .f32)) y (val_main_cst_2 (F := Ideal))
        reducesTo_S8x2048x2048_S8x2048_d2 h_S_ (ValueIdx.ix2 b i)
      = (Finset.univ : Finset (Fin 2048)).fold max ⊥ (fun j => y (ValueIdx.ix3 b i j)) := by
  have h : S8x2048x2048.Reduces [2] S8x2048 := by decide
  rw [Host.reduce_eq_fold_single (α := Ideal .f32) (FloatOps.maximumf (F := Ideal) (φ := .f32)) y _
    reducesTo_S8x2048x2048_S8x2048_d2 h h_S_]
  show (Finset.univ : Finset (Fin 2048)).fold max (Ideal.ofBits .f32 0xFF800000#32) (y ∘ h.lift (ValueIdx.ix2 b i)) = _
  rw [ofBits_neg_inf]
  have hf : (y ∘ h.lift (ValueIdx.ix2 b i)) = fun j : Fin 2048 => y (ValueIdx.ix3 b i j) :=
    funext fun k => congrArg y (lift_ix3 h b i k)
  rw [hf]
  rfl

/-- The reduced maximum of row (b, i) is the specification's row maximum. -/
theorem v11_apply (b : Fin 8) (i : Fin 2048) :
    val_main_v11 (F := Ideal) x0 x1 x2 (ValueIdx.ix2 b i)
      = rowMax (proj (arr3 x0) (mat2 x1)) (proj (arr3 x0) (mat2 x2)) b i := by
  unfold val_main_v11
  rw [rowmax_apply]
  unfold rowMax
  exact congrArg (fun f => Finset.fold max ⊥ f (Finset.univ : Finset (Fin 2048))) (funext fun j => v10_apply x0 x1 x2 b i j)

/-- Its maximum with -∞ is itself. -/
theorem v13_apply (b : Fin 8) (i : Fin 2048) :
    val_main_v13 (F := Ideal) x0 x1 x2 (ValueIdx.ix2 b i)
      = rowMax (proj (arr3 x0) (mat2 x1)) (proj (arr3 x0) (mat2 x2)) b i := by
  rw [val_main_v13_apply, val_main_v12_apply, val_main_cst_3_apply, v11_apply]
  show max (Ideal.ofBits .f32 0xFF800000#32) _ = _
  rw [ofBits_neg_inf]
  exact max_bot_left _

/-- The row maximum spread back over the row's positions. -/
theorem v15_apply (b : Fin 8) (i j : Fin 2048) :
    val_main_v15 (F := Ideal) x0 x1 x2 (ValueIdx.ix3 b i j)
      = rowMax (proj (arr3 x0) (mat2 x1)) (proj (arr3 x0) (mat2 x2)) b i := by
  have e : idx_main_v14 (idx_main_v15 (ValueIdx.ix3 b i j)) = ValueIdx.ix2 b i :=
    funext fun a => Fin.ext (by match a with | ⟨0, _⟩ => rfl | ⟨1, _⟩ => rfl)
  rw [val_main_v15_apply, val_main_v14_apply, e, v13_apply]

/-! ## Weights, normaliser, normalised weights -/

/-- The unnormalised weight of (i, j). -/
theorem v17_apply (b : Fin 8) (i j : Fin 2048) :
    val_main_v17 (F := Ideal) x0 x1 x2 (ValueIdx.ix3 b i j)
      = wexp (proj (arr3 x0) (mat2 x1)) (proj (arr3 x0) (mat2 x2)) b i j := by
  rw [val_main_v17_apply, val_main_v16_apply, v10_apply, v15_apply]
  rfl

/-- The row's normaliser: 0 plus the sum of the row's weights. -/
theorem v18_apply (b : Fin 8) (i : Fin 2048) :
    val_main_v18 (F := Ideal) x0 x1 x2 (ValueIdx.ix2 b i)
      = denom (proj (arr3 x0) (mat2 x1)) (proj (arr3 x0) (mat2 x2)) b i := by
  rw [val_main_v18_apply, val_main_cst_4_apply]
  show Ideal.ofBits .f32 0x00000000#32 + _ = _
  rw [Ideal.ofBits_zero_f32, zero_add]
  unfold denom
  refine Finset.sum_congr rfl fun j _ => ?_
  have e : idx_main_v18 (ValueIdx.ix2 b i) j = ValueIdx.ix3 b i j :=
    funext fun a => Fin.ext (by match a with | ⟨0, _⟩ => rfl | ⟨1, _⟩ => rfl | ⟨2, _⟩ => rfl)
  rw [e, v17_apply]

/-- The normaliser spread back over the row's positions. -/
theorem v20_apply (b : Fin 8) (i j : Fin 2048) :
    val_main_v20 (F := Ideal) x0 x1 x2 (ValueIdx.ix3 b i j)
      = denom (proj (arr3 x0) (mat2 x1)) (proj (arr3 x0) (mat2 x2)) b i := by
  have e : idx_main_v19 (idx_main_v20 (ValueIdx.ix3 b i j)) = ValueIdx.ix2 b i :=
    funext fun a => Fin.ext (by match a with | ⟨0, _⟩ => rfl | ⟨1, _⟩ => rfl)
  rw [val_main_v20_apply, val_main_v19_apply, e, v18_apply]

/-- The normalised weight of (i, j). -/
theorem v21_apply (b : Fin 8) (i j : Fin 2048) :
    val_main_v21 (F := Ideal) x0 x1 x2 (ValueIdx.ix3 b i j)
      = Ideal.div (wexp (proj (arr3 x0) (mat2 x1)) (proj (arr3 x0) (mat2 x2)) b i j)
          (denom (proj (arr3 x0) (mat2 x1)) (proj (arr3 x0) (mat2 x2)) b i) := by
  rw [val_main_v21_apply, v17_apply, v20_apply]
  rfl

end Cert.ReferenceIdeal.RefValue

end
-- ==== Proof.RefValue.lean ====
/-
  The reference program's result is textbook causal attention of the three projections.

  Entry (b, i, c) of the result is the sum over the 2048 positions j of the normalised weight of (i, j)
  times entry (b, j, c) of the value projection; the normalised weight is the exponential of the masked,
  scaled score minus its row maximum, divided by the row's sum of such exponentials. Each factor was
  identified stage by stage; what is left is to read the last contraction at coordinates.
-/
import proofs.«109232_j17575006175501_2_alg».proof.Proof.RefStages

noncomputable section

namespace Cert.ReferenceIdeal.RefValue

open Idealize.ShloMosaic Cert.ReferenceIdeal Cert.ReferenceIdeal.Gen Cert.ReferenceIdeal.Read Cert.AttnSpec

/-- The result at coordinates (b, i, c): the weighted sum of the rows of the value projection. -/
theorem ref_value_ix (x0 : (⟨S8x2048x1024, .f32⟩ : BufTy).Contents (Elt Ideal)) (x1 x2 x3 : (⟨S1024x1024, .f32⟩ : BufTy).Contents (Elt Ideal))
    (b : Fin 8) (i : Fin 2048) (c : Fin 1024) :
    val_main_v22 (F := Ideal) x0 x1 x2 x3 (ValueIdx.ix3 b i c)
      = attn (proj (arr3 x0) (mat2 x1)) (proj (arr3 x0) (mat2 x2)) (proj (arr3 x0) (mat2 x3)) b i c := by
  rw [val_main_v22_apply]
  unfold attn
  refine Finset.sum_congr rfl fun j _ => ?_
  have el : lidx_main_v22 (ValueIdx.ix3 b i c) j = ValueIdx.ix3 b i j :=
    funext fun a => Fin.ext (by match a with | ⟨0, _⟩ => rfl | ⟨1, _⟩ => rfl | ⟨2, _⟩ => rfl)
  have er : ridx_main_v22 (ValueIdx.ix3 b i c) j = ValueIdx.ix3 b j c :=
    funext fun a => Fin.ext (by match a with | ⟨0, _⟩ => rfl | ⟨1, _⟩ => rfl | ⟨2, _⟩ => rfl)
  rw [el, er, v21_apply, v2_apply]

open Idealize.ShloMosaic Cert.ReferenceIdeal in
/-- The reference's result, at any index, is causal attention of the projected input at the index's coordinates. -/
theorem ref_value (x0 : (⟨S8x2048x1024, .f32⟩ : BufTy).Contents (Elt Ideal)) (x1 x2 x3 : (⟨S1024x1024, .f32⟩ : BufTy).Contents (Elt Ideal)) (i : S8x2048x1024.Idx) :
    Cert.ReferenceIdeal.Read.val_main_v22 (F := Ideal) x0 x1 x2 x3 i
      = Cert.AttnSpec.attn (Cert.AttnSpec.proj (Cert.AttnSpec.arr3 x0) (Cert.AttnSpec.mat2 x1)) (Cert.AttnSpec.proj (Cert.AttnSpec.arr3 x0) (Cert.AttnSpec.mat2 x2)) (Cert.AttnSpec.proj (Cert.AttnSpec.arr3 x0) (Cert.AttnSpec.mat2 x3)) (i 0) (i 1) (i 2) :=
  (congrArg (Cert.ReferenceIdeal.Read.val_main_v22 (F := Ideal) x0 x1 x2 x3) (ValueIdx.eq_ix3 i)).trans
    (ref_value_ix x0 x1 x2 x3 (i 0) (i 1) (i 2))

end Cert.ReferenceIdeal.RefValue

end
-- ==== Proof.FiniteInputs.lean ====
/-
  From the precondition to "every input entry is a real number".

  The precondition computes, for each of the four input arrays, whether every entry x satisfies |x| < +∞,
  and takes the conjunction of the four answers; it is assumed to come out true. A conjunction of bits is
  1 only when both bits are, and a reduction by "and" over all axes is 1 only when every entry is. So every
  entry x of every input has max x (-x) < +∞. That excludes x = +∞ (then max x (-x) = +∞) and x = -∞
  (then -x = +∞): x is a real number.
-/
import proofs.«109232_j17575006175501_2_alg».proof.Pre_finite_inputs
import proofs.«109232_j17575006175501_2_alg».proof.Proof.Gen.Pre_finite_inputs
import proofs.«109232_j17575006175501_2_alg».proof.Proof.Spec
import Idealize.ShloMosaic.Lib.ReduceAll
import Idealize.ShloMosaic.PureOps.Ideal.Laws

noncomputable section

namespace Cert.FiniteInputs

open Idealize.ShloMosaic Cert.AttnSpec

/-- The word 0x7F800000 (sign clear, exponent all ones, no fraction) denotes +∞. -/
theorem ofBits_pos_inf : Ideal.ofBits .f32 0x7F800000#32 = (⊤ : EReal) := by
  simp [Ideal.ofBits, Ideal.ieee]

/-- An extended real whose absolute value is below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_pos_inf] at h
  induction x using EReal.rec with
  | bot => exfalso; revert h; simp [Ideal.cmp]
  | coe r => exact ⟨EReal.coe_ne_top r, EReal.coe_ne_bot r⟩
  | top => exfalso; revert h; simp [Ideal.cmp]

/-- The shape with no axes has one index. -/
instance : Subsingleton Cert.Pre_finite_inputs.S_.Idx := ⟨fun _ _ => funext fun d => d.elim0⟩

/-- When the precondition holds, the input array and the three weight matrices have only real entries. -/
theorem finite_of_pre [Cert.Pre_finite_inputs.Facts] (a0 : (⟨3, ![8, 2048, 1024]⟩ : Shape).Idx → EReal) (a1 a2 a3 : (⟨2, ![1024, 1024]⟩ : Shape).Idx → EReal)
    (h : Cert.Pre_finite_inputs.fn (F := Ideal) a0 a1 a2 a3 = (fun _ => 1#1)) :
    Finite3 (arr3 a0) ∧ Finite2 (mat2 a1) ∧ Finite2 (mat2 a2) ∧ Finite2 (mat2 a3) := by
  have h0 := congrFun h ValueIdx.ix0
  dsimp only [Cert.Pre_finite_inputs.fn, Cert.Pre_finite_inputs.fn_part1] at h0
  have h0' : IntOp.andi _ _ = 1#1 := h0
  obtain ⟨h012, h3⟩ := IntOp.andi_eq_one.1 h0'
  have h012' : IntOp.andi _ _ = 1#1 := h012
  obtain ⟨h01, h2⟩ := IntOp.andi_eq_one.1 h012'
  have h01' : IntOp.andi _ _ = 1#1 := h01
  obtain ⟨hA, hB⟩ := IntOp.andi_eq_one.1 h01'
  refine ⟨fun b s d => ?_, fun d n => ?_, fun d n => ?_, fun d n => ?_⟩
  · have e : Ideal.cmp .olt (max (a0 (ValueIdx.ix3 b s d)) (-(a0 (ValueIdx.ix3 b s d)))) (Ideal.ofBits .f32 0x7F800000#32) = 1#1 :=
      Host.reduce_andi_all _ _ _ _ _ hA (ValueIdx.ix3 b s d)
    exact finite_of_abs_lt _ e
  · have e : Ideal.cmp .olt (max (a1 (ValueIdx.ix2 d n)) (-(a1 (ValueIdx.ix2 d n)))) (Ideal.ofBits .f32 0x7F800000#32) = 1#1 :=
      Host.reduce_andi_all _ _ _ _ _ hB (ValueIdx.ix2 d n)
    exact finite_of_abs_lt _ e
  · have e : Ideal.cmp .olt (max (a2 (ValueIdx.ix2 d n)) (-(a2 (ValueIdx.ix2 d n)))) (Ideal.ofBits .f32 0x7F800000#32) = 1#1 :=
      Host.reduce_andi_all _ _ _ _ _ h2 (ValueIdx.ix2 d n)
    exact finite_of_abs_lt _ e
  · have e : Ideal.cmp .olt (max (a3 (ValueIdx.ix2 d n)) (-(a3 (ValueIdx.ix2 d n)))) (Ideal.ofBits .f32 0x7F800000#32) = 1#1 :=
      Host.reduce_andi_all _ _ _ _ _ h3 (ValueIdx.ix2 d n)
    exact finite_of_abs_lt _ e

end Cert.FiniteInputs

end
-- ==== Proof.lean ====
/-
  The certificate of a fused Q/K/V projection followed by causal flash attention against plain softmax attention.

  Both idealized programs compute, on the extended reals, causal attention of the three projections of `x`:
  row `i` of batch `b` weighs the rows `j ≤ i` of `x·Wv` by `exp` of the scaled inner products of row `i` of `x·Wq`
  with the rows of `x·Wk`, normalised by their sum. The reference does so with the whole row at once, subtracting
  the row's maximum. The kernel folds the row block by block, carrying a running maximum, denominator and numerator
  that it rescales whenever the maximum moves, and divides at the row's own block; its mask value and its initial
  maximum are `-∞` at the ideal instance. The two agree where every argument entry is a real number: rescaling by
  `exp (m - m')` and moving the normaliser across the weighted sum are laws of the reals.

  The frames: the reference's is its run with the result forgotten; each kernel program's is assembled from its two
  kernels' body obligations over the program's segments.
-/
import proofs.«109232_j17575006175501_2_alg».proof.Defs
import proofs.«109232_j17575006175501_2_alg».proof.Proof.Gen.Kernel
import proofs.«109232_j17575006175501_2_alg».proof.Proof.Gen.KernelIdeal
import proofs.«109232_j17575006175501_2_alg».proof.Proof.Gen.ReferenceIdeal
import proofs.«109232_j17575006175501_2_alg».proof.Proof.Gen.Pre_finite_inputs
import proofs.«109232_j17575006175501_2_alg».proof.Proof.K.Run
import proofs.«109232_j17575006175501_2_alg».proof.Proof.KI.KernelValue
import proofs.«109232_j17575006175501_2_alg».proof.Proof.RefValue
import proofs.«109232_j17575006175501_2_alg».proof.Proof.FiniteInputs
import Idealize.ShloMosaic.Adequacy
import Idealize.ShloMosaic.Init

noncomputable section

namespace Cert.Proof

open Idealize.ShloMosaic Idealize.SL.Sem Cert.AttnSpec

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both named constants are the kernel's `-∞` stand-in: the table gives `"neg_big"` the value `⊥`. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both runs end with the result array at causal attention of the projections of the (agreeing) arguments. -/
theorem algebraic : Cert.algebraic_KernelIdeal_ReferenceIdeal := by
  intro m ρ m' ρ' hpre hagree
  have hfin := fun c => Cert.FiniteInputs.finite_of_pre _ _ _ _ (hpre c)
  refine ⟨fun c => fun i => attn (proj (arr3 (m ((c.tc : Thread Cert.KernelIdeal.nD Cert.KernelIdeal.τ).loc Cert.KernelIdeal.main_arg0))) (mat2 (m ((c.tc : Thread Cert.KernelIdeal.nD Cert.KernelIdeal.τ).loc Cert.KernelIdeal.main_arg1))))
      (proj (arr3 (m ((c.tc : Thread Cert.KernelIdeal.nD Cert.KernelIdeal.τ).loc Cert.KernelIdeal.main_arg0))) (mat2 (m ((c.tc : Thread Cert.KernelIdeal.nD Cert.KernelIdeal.τ).loc Cert.KernelIdeal.main_arg2))))
      (proj (arr3 (m ((c.tc : Thread Cert.KernelIdeal.nD Cert.KernelIdeal.τ).loc Cert.KernelIdeal.main_arg0))) (mat2 (m ((c.tc : Thread Cert.KernelIdeal.nD Cert.KernelIdeal.τ).loc Cert.KernelIdeal.main_arg3)))) (i 0) (i 1) (i 2), ?_, ?_⟩
  · exact (θ_run Cert.KernelIdeal.defs _ _).mono
      (fun _ h c => ⟨(h c).1.trans (Cert.KernelIdeal.Hand.kernel_value m c (hfin c).1 (hfin c).2.1 (hfin c).2.2.1 (hfin c).2.2.2), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, (hagree c).1, (hagree c).2.1, (hagree c).2.2.1, (hagree c).2.2.2]
    funext i
    exact Cert.ReferenceIdeal.RefValue.ref_value _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
